-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)) (v6 : (c : Dev Cert.KernelIdeal.nD) → Buf (Elt Ideal) ((c.tc : Thread Cert.KernelIdeal.nD Cert.KernelIdeal.τ).loc Cert.KernelIdeal.main_v2_6)) (v7 : (c : Dev Cert.KernelIdeal.nD) → Buf (Elt Ideal) ((c.tc : Thread Cert.KernelIdeal.nD Cert.KernelIdeal.τ).loc Cert.KernelIdeal.main_v2_7)) (v8 : (c : Dev Cert.KernelIdeal.nD) → Buf (Elt Ideal) ((c.tc : Thread Cert.KernelIdeal.nD Cert.KernelIdeal.τ).loc Cert.KernelIdeal.main_v2_8)) (v9 : (c : Dev Cert.KernelIdeal.nD) → Buf (Elt Ideal) ((c.tc : Thread Cert.KernelIdeal.nD Cert.KernelIdeal.τ).loc Cert.KernelIdeal.main_v2_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_v2_6) = v6 c
          ∧ r.2.mem ((c.tc : Thread Cert.KernelIdeal.nD Cert.KernelIdeal.τ).loc Cert.KernelIdeal.main_v2_7) = v7 c
          ∧ r.2.mem ((c.tc : Thread Cert.KernelIdeal.nD Cert.KernelIdeal.τ).loc Cert.KernelIdeal.main_v2_8) = v8 c
          ∧ r.2.mem ((c.tc : Thread Cert.KernelIdeal.nD Cert.KernelIdeal.τ).loc Cert.KernelIdeal.main_v2_9) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_v58) = v3 c
          ∧ r.2.mem ((c.tc : Thread Cert.ReferenceIdeal.nD Cert.ReferenceIdeal.τ).loc Cert.ReferenceIdeal.main_v72) = v4 c
          ∧ r.2.mem ((c.tc : Thread Cert.ReferenceIdeal.nD Cert.ReferenceIdeal.τ).loc Cert.ReferenceIdeal.main_v92) = v5 c
          ∧ r.2.mem ((c.tc : Thread Cert.ReferenceIdeal.nD Cert.ReferenceIdeal.τ).loc Cert.ReferenceIdeal.main_v10) = v6 c
          ∧ r.2.mem ((c.tc : Thread Cert.ReferenceIdeal.nD Cert.ReferenceIdeal.τ).loc Cert.ReferenceIdeal.main_v27) = v7 c
          ∧ r.2.mem ((c.tc : Thread Cert.ReferenceIdeal.nD Cert.ReferenceIdeal.τ).loc Cert.ReferenceIdeal.main_v73) = v8 c
          ∧ r.2.mem ((c.tc : Thread Cert.ReferenceIdeal.nD Cert.ReferenceIdeal.τ).loc Cert.ReferenceIdeal.main_v89) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128x16 : Shape := ⟨3, ![2048, 128, 16]⟩
abbrev S2048x128x128 : Shape := ⟨3, ![2048, 128, 128]⟩
abbrev S2048x16 : Shape := ⟨2, ![2048, 16]⟩
abbrev S2048x8 : Shape := ⟨2, ![2048, 8]⟩
abbrev S16x8 : Shape := ⟨2, ![16, 8]⟩
abbrev S48x8 : Shape := ⟨2, ![48, 8]⟩
abbrev S_ : Shape := ⟨0, ![]⟩

class Facts : Prop where
  bcast_S_S2048x128x16 : S_.BroadcastsInDim S2048x128x16 (![] : Fin 0 → Fin S2048x128x16.rank)
  reducesTo_S2048x128x16_S_d0_1_2 : S2048x128x16.ReducesTo [0, 1, 2] S_
  h_S_ : 0 < S_.numel
  bcast_S_S2048x128x128 : S_.BroadcastsInDim S2048x128x128 (![] : Fin 0 → Fin S2048x128x128.rank)
  reducesTo_S2048x128x128_S_d0_1_2 : S2048x128x128.ReducesTo [0, 1, 2] S_
  bcast_S_S2048x16 : S_.BroadcastsInDim S2048x16 (![] : Fin 0 → Fin S2048x16.rank)
  reducesTo_S2048x16_S_d0_1 : S2048x16.ReducesTo [0, 1] S_
  bcast_S_S2048x8 : S_.BroadcastsInDim S2048x8 (![] : Fin 0 → Fin S2048x8.rank)
  reducesTo_S2048x8_S_d0_1 : S2048x8.ReducesTo [0, 1] S_
  bcast_S_S16x8 : S_.BroadcastsInDim S16x8 (![] : Fin 0 → Fin S16x8.rank)
  reducesTo_S16x8_S_d0_1 : S16x8.ReducesTo [0, 1] S_
  bcast_S_S48x8 : S_.BroadcastsInDim S48x8 (![] : Fin 0 → Fin S48x8.rank)
  reducesTo_S48x8_S_d0_1 : S48x8.ReducesTo [0, 1] S_

variable [Facts]

def fn_part3 {F : FTy → Type} [FloatOps F] (main_arg11 : FVec F S48x8 .f32) (main_v48 : IVec S_ 1) (main_v49 : FVec F S16x8 .f32) (main_v50 : FVec F S16x8 .f32) : IVec S_ 1 :=
  let main_v51 : IVec S16x8 1 := cmpf .olt main_v49 main_v50
  let main_c_19 : IVec S_ 1 := constantI S_ 1 1#1
  let main_v52 : IVec S_ 1 := (fun x v => Host.reduce IntOp.andi x v reducesTo_S16x8_S_d0_1 h_S_) main_v51 main_c_19
  let main_v53 : IVec S_ 1 := andi main_v48 main_v52
  let main_v54 : FVec F S48x8 .f32 := Host.absf main_arg11
  let main_cst_20 : FVec F S_ .f32 := constant S_ .f32 0x7F800000#32
  let main_v55 : FVec F S48x8 .f32 := broadcastInDim S48x8 ![] bcast_S_S48x8 main_cst_20
  let main_v56 : IVec S48x8 1 := cmpf .olt main_v54 main_v55
  let main_c_21 : IVec S_ 1 := constantI S_ 1 1#1
  let main_v57 : IVec S_ 1 := (fun x v => Host.reduce IntOp.andi x v reducesTo_S48x8_S_d0_1 h_S_) main_v56 main_c_21
  let main_v58 : IVec S_ 1 := andi main_v53 main_v57
  main_v58

def fn_part2 {F : FTy → Type} [FloatOps F] (main_arg7 : FVec F S2048x8 .f32) (main_arg8 : FVec F S2048x16 .f32) (main_arg9 : FVec F S2048x8 .f32) (main_arg10 : FVec F S16x8 .f32) (main_arg11 : FVec F S48x8 .f32) (main_v33 : IVec S_ 1) : IVec S_ 1 :=
  let main_v34 : FVec F S2048x8 .f32 := Host.absf main_arg7
  let main_cst_12 : FVec F S_ .f32 := constant S_ .f32 0x7F800000#32
  let main_v35 : FVec F S2048x8 .f32 := broadcastInDim S2048x8 ![] bcast_S_S2048x8 main_cst_12
  let main_v36 : IVec S2048x8 1 := cmpf .olt main_v34 main_v35
  let main_c_13 : IVec S_ 1 := constantI S_ 1 1#1
  let main_v37 : IVec S_ 1 := (fun x v => Host.reduce IntOp.andi x v reducesTo_S2048x8_S_d0_1 h_S_) main_v36 main_c_13
  let main_v38 : IVec S_ 1 := andi main_v33 main_v37
  let main_v39 : FVec F S2048x16 .f32 := Host.absf main_arg8
  let main_cst_14 : FVec F S_ .f32 := constant S_ .f32 0x7F800000#32
  let main_v40 : FVec F S2048x16 .f32 := broadcastInDim S2048x16 ![] bcast_S_S2048x16 main_cst_14
  let main_v41 : IVec S2048x16 1 := cmpf .olt main_v39 main_v40
  let main_c_15 : IVec S_ 1 := constantI S_ 1 1#1
  let main_v42 : IVec S_ 1 := (fun x v => Host.reduce IntOp.andi x v reducesTo_S2048x16_S_d0_1 h_S_) main_v41 main_c_15
  let main_v43 : IVec S_ 1 := andi main_v38 main_v42
  let main_v44 : FVec F S2048x8 .f32 := Host.absf main_arg9
  let main_cst_16 : FVec F S_ .f32 := constant S_ .f32 0x7F800000#32
  let main_v45 : FVec F S2048x8 .f32 := broadcastInDim S2048x8 ![] bcast_S_S2048x8 main_cst_16
  let main_v46 : IVec S2048x8 1 := cmpf .olt main_v44 main_v45
  let main_c_17 : IVec S_ 1 := constantI S_ 1 1#1
  let main_v47 : IVec S_ 1 := (fun x v => Host.reduce IntOp.andi x v reducesTo_S2048x8_S_d0_1 h_S_) main_v46 main_c_17
  let main_v48 : IVec S_ 1 := andi main_v43 main_v47
  let main_v49 : FVec F S16x8 .f32 := Host.absf main_arg10
  let main_cst_18 : FVec F S_ .f32 := constant S_ .f32 0x7F800000#32
  let main_v50 : FVec F S16x8 .f32 := broadcastInDim S16x8 ![] bcast_S_S16x8 main_cst_18
  fn_part3 (F := F) main_arg11 main_v48 main_v49 main_v50

def fn_part1 {F : FTy → Type} [FloatOps F] (main_arg4 : FVec F S2048x16 .f32) (main_arg5 : FVec F S2048x16 .f32) (main_arg6 : FVec F S2048x16 .f32) (main_arg7 : FVec F S2048x8 .f32) (main_arg8 : FVec F S2048x16 .f32) (main_arg9 : FVec F S2048x8 .f32) (main_arg10 : FVec F S16x8 .f32) (main_arg11 : FVec F S48x8 .f32) (main_v13 : IVec S_ 1) (main_v16 : IVec S2048x16 1) : IVec S_ 1 :=
  let main_c_5 : IVec S_ 1 := constantI S_ 1 1#1
  let main_v17 : IVec S_ 1 := (fun x v => Host.reduce IntOp.andi x v reducesTo_S2048x16_S_d0_1 h_S_) main_v16 main_c_5
  let main_v18 : IVec S_ 1 := andi main_v13 main_v17
  let main_v19 : FVec F S2048x16 .f32 := Host.absf main_arg4
  let main_cst_6 : FVec F S_ .f32 := constant S_ .f32 0x7F800000#32
  let main_v20 : FVec F S2048x16 .f32 := broadcastInDim S2048x16 ![] bcast_S_S2048x16 main_cst_6
  let main_v21 : IVec S2048x16 1 := cmpf .olt main_v19 main_v20
  let main_c_7 : IVec S_ 1 := constantI S_ 1 1#1
  let main_v22 : IVec S_ 1 := (fun x v => Host.reduce IntOp.andi x v reducesTo_S2048x16_S_d0_1 h_S_) main_v21 main_c_7
  let main_v23 : IVec S_ 1 := andi main_v18 main_v22
  let main_v24 : FVec F S2048x16 .f32 := Host.absf main_arg5
  let main_cst_8 : FVec F S_ .f32 := constant S_ .f32 0x7F800000#32
  let main_v25 : FVec F S2048x16 .f32 := broadcastInDim S2048x16 ![] bcast_S_S2048x16 main_cst_8
  let main_v26 : IVec S2048x16 1 := cmpf .olt main_v24 main_v25
  let main_c_9 : IVec S_ 1 := constantI S_ 1 1#1
  let main_v27 : IVec S_ 1 := (fun x v => Host.reduce IntOp.andi x v reducesTo_S2048x16_S_d0_1 h_S_) main_v26 main_c_9
  let main_v28 : IVec S_ 1 := andi main_v23 main_v27
  let main_v29 : FVec F S2048x16 .f32 := Host.absf main_arg6
  let main_cst_10 : FVec F S_ .f32 := constant S_ .f32 0x7F800000#32
  let main_v30 : FVec F S2048x16 .f32 := broadcastInDim S2048x16 ![] bcast_S_S2048x16 main_cst_10
  let main_v31 : IVec S2048x16 1 := cmpf .olt main_v29 main_v30
  let main_c_11 : IVec S_ 1 := constantI S_ 1 1#1
  let main_v32 : IVec S_ 1 := (fun x v => Host.reduce IntOp.andi x v reducesTo_S2048x16_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S2048x128x16 .f32) (main_arg1 : FVec F S2048x128x128 .f32) (main_arg2 : FVec F S2048x128x16 .f32) (main_arg3 : FVec F S2048x16 .f32) (main_arg4 : FVec F S2048x16 .f32) (main_arg5 : FVec F S2048x16 .f32) (main_arg6 : FVec F S2048x16 .f32) (main_arg7 : FVec F S2048x8 .f32) (main_arg8 : FVec F S2048x16 .f32) (main_arg9 : FVec F S2048x8 .f32) (main_arg10 : FVec F S16x8 .f32) (main_arg11 : FVec F S48x8 .f32) : IVec S_ 1 :=
  let main_v0 : FVec F S2048x128x16 .f32 := Host.absf main_arg0
  let main_cst : FVec F S_ .f32 := constant S_ .f32 0x7F800000#32
  let main_v1 : FVec F S2048x128x16 .f32 := broadcastInDim S2048x128x16 ![] bcast_S_S2048x128x16 main_cst
  let main_v2 : IVec S2048x128x16 1 := cmpf .olt main_v0 main_v1
  let main_c : IVec S_ 1 := constantI S_ 1 1#1
  let main_v3 : IVec S_ 1 := (fun x v => Host.reduce IntOp.andi x v reducesTo_S2048x128x16_S_d0_1_2 h_S_) main_v2 main_c
  let main_v4 : FVec F S2048x128x128 .f32 := Host.absf main_arg1
  let main_cst_0 : FVec F S_ .f32 := constant S_ .f32 0x7F800000#32
  let main_v5 : FVec F S2048x128x128 .f32 := broadcastInDim S2048x128x128 ![] bcast_S_S2048x128x128 main_cst_0
  let main_v6 : IVec S2048x128x128 1 := cmpf .olt main_v4 main_v5
  let main_c_1 : IVec S_ 1 := constantI S_ 1 1#1
  let main_v7 : IVec S_ 1 := (fun x v => Host.reduce IntOp.andi x v reducesTo_S2048x128x128_S_d0_1_2 h_S_) main_v6 main_c_1
  let main_v8 : IVec S_ 1 := andi main_v3 main_v7
  let main_v9 : FVec F S2048x128x16 .f32 := Host.absf main_arg2
  let main_cst_2 : FVec F S_ .f32 := constant S_ .f32 0x7F800000#32
  let main_v10 : FVec F S2048x128x16 .f32 := broadcastInDim S2048x128x16 ![] bcast_S_S2048x128x16 main_cst_2
  let main_v11 : IVec S2048x128x16 1 := cmpf .olt main_v9 main_v10
  let main_c_3 : IVec S_ 1 := constantI S_ 1 1#1
  let main_v12 : IVec S_ 1 := (fun x v => Host.reduce IntOp.andi x v reducesTo_S2048x128x16_S_d0_1_2 h_S_) main_v11 main_c_3
  let main_v13 : IVec S_ 1 := andi main_v8 main_v12
  let main_v14 : FVec F S2048x16 .f32 := Host.absf main_arg3
  let main_cst_4 : FVec F S_ .f32 := constant S_ .f32 0x7F800000#32
  let main_v15 : FVec F S2048x16 .f32 := broadcastInDim S2048x16 ![] bcast_S_S2048x16 main_cst_4
  let main_v16 : IVec S2048x16 1 := cmpf .olt main_v14 main_v15
  fn_part1 (F := F) main_arg4 main_arg5 main_arg6 main_arg7 main_arg8 main_arg9 main_arg10 main_arg11 main_v13 main_v16
-- ==== Kernel.lean ====
abbrev S2048x128x16 : Shape := ⟨3, ![2048, 128, 16]⟩
abbrev S2048x128x128 : Shape := ⟨3, ![2048, 128, 128]⟩
abbrev S2048x16 : Shape := ⟨2, ![2048, 16]⟩
abbrev S2048x8 : Shape := ⟨2, ![2048, 8]⟩
abbrev S16x8 : Shape := ⟨2, ![16, 8]⟩
abbrev S48x8 : Shape := ⟨2, ![48, 8]⟩
abbrev S128x16x16 : Shape := ⟨3, ![128, 16, 16]⟩
abbrev S128x16x8 : Shape := ⟨3, ![128, 16, 8]⟩
abbrev S2048x48 : Shape := ⟨2, ![2048, 48]⟩
abbrev S32x128x16 : Shape := ⟨3, ![32, 128, 16]⟩
abbrev S32x128x128 : Shape := ⟨3, ![32, 128, 128]⟩
abbrev S32x16 : Shape := ⟨2, ![32, 16]⟩
abbrev S32x8 : Shape := ⟨2, ![32, 8]⟩
abbrev S32x48 : Shape := ⟨2, ![32, 48]⟩
abbrev S32x128x1 : Shape := ⟨3, ![32, 128, 1]⟩
abbrev S32x128 : Shape := ⟨2, ![32, 128]⟩
abbrev S128x1x16 : Shape := ⟨3, ![128, 1, 16]⟩
abbrev S128x16 : Shape := ⟨2, ![128, 16]⟩
abbrev S128x1x8 : Shape := ⟨3, ![128, 1, 8]⟩
abbrev S128x8 : Shape := ⟨2, ![128, 8]⟩

abbrev nBuf : Space → Nat
  | .hbm => 24
  | .vmem => 40
  | .smem => 0
  | _ => 0

abbrev bufTy : (tb : Table) → Fin (tcTables nBuf tb) → BufTy
  | .hbm, ⟨0, _⟩ => ⟨S2048x128x16, .f32⟩
  | .hbm, ⟨1, _⟩ => ⟨S2048x128x128, .f32⟩
  | .hbm, ⟨2, _⟩ => ⟨S2048x128x16, .f32⟩
  | .hbm, ⟨3, _⟩ => ⟨S2048x16, .f32⟩
  | .hbm, ⟨4, _⟩ => ⟨S2048x16, .f32⟩
  | .hbm, ⟨5, _⟩ => ⟨S2048x16, .f32⟩
  | .hbm, ⟨6, _⟩ => ⟨S2048x16, .f32⟩
  | .hbm, ⟨7, _⟩ => ⟨S2048x8, .f32⟩
  | .hbm, ⟨8, _⟩ => ⟨S2048x16, .f32⟩
  | .hbm, ⟨9, _⟩ => ⟨S2048x8, .f32⟩
  | .hbm, ⟨10, _⟩ => ⟨S16x8, .f32⟩
  | .hbm, ⟨11, _⟩ => ⟨S48x8, .f32⟩
  | .hbm, ⟨12, _⟩ => ⟨S128x16x16, .f32⟩
  | .hbm, ⟨13, _⟩ => ⟨S128x16x8, .f32⟩
  | .hbm, ⟨14, _⟩ => ⟨S2048x128x16, .f32⟩
  | .hbm, ⟨15, _⟩ => ⟨S2048x16, .f32⟩
  | .hbm, ⟨16, _⟩ => ⟨S2048x16, .f32⟩
  | .hbm, ⟨17, _⟩ => ⟨S2048x16, .f32⟩
  | .hbm, ⟨18, _⟩ => ⟨S2048x16, .f32⟩
  | .hbm, ⟨19, _⟩ => ⟨S2048x8, .f32⟩
  | .hbm, ⟨20, _⟩ => ⟨S2048x128x16, .f32⟩
  | .hbm, ⟨21, _⟩ => ⟨S2048x16, .f32⟩
  | .hbm, ⟨22, _⟩ => ⟨S2048x48, .f32⟩
  | .hbm, ⟨23, _⟩ => ⟨S2048x8, .f32⟩
  | .local _ .vmem, ⟨0, _⟩ => ⟨S32x128x16, .f32⟩
  | .local _ .vmem, ⟨1, _⟩ => ⟨S32x128x16, .f32⟩
  | .local _ .vmem, ⟨2, _⟩ => ⟨S32x128x128, .f32⟩
  | .local _ .vmem, ⟨3, _⟩ => ⟨S32x128x128, .f32⟩
  | .local _ .vmem, ⟨4, _⟩ => ⟨S32x128x16, .f32⟩
  | .local _ .vmem, ⟨5, _⟩ => ⟨S32x128x16, .f32⟩
  | .local _ .vmem, ⟨6, _⟩ => ⟨S32x16, .f32⟩
  | .local _ .vmem, ⟨7, _⟩ => ⟨S32x16, .f32⟩
  | .local _ .vmem, ⟨8, _⟩ => ⟨S32x16, .f32⟩
  | .local _ .vmem, ⟨9, _⟩ => ⟨S32x16, .f32⟩
  | .local _ .vmem, ⟨10, _⟩ => ⟨S32x16, .f32⟩
  | .local _ .vmem, ⟨11, _⟩ => ⟨S32x16, .f32⟩
  | .local _ .vmem, ⟨12, _⟩ => ⟨S32x16, .f32⟩
  | .local _ .vmem, ⟨13, _⟩ => ⟨S32x16, .f32⟩
  | .local _ .vmem, ⟨14, _⟩ => ⟨S32x8, .f32⟩
  | .local _ .vmem, ⟨15, _⟩ => ⟨S32x8, .f32⟩
  | .local _ .vmem, ⟨16, _⟩ => ⟨S128x16x16, .f32⟩
  | .local _ .vmem, ⟨17, _⟩ => ⟨S128x16x8, .f32⟩
  | .local _ .vmem, ⟨18, _⟩ => ⟨S16x8, .f32⟩
  | .local _ .vmem, ⟨19, _⟩ => ⟨S48x8, .f32⟩
  | .local _ .vmem, ⟨20, _⟩ => ⟨S32x128x16, .f32⟩
  | .local _ .vmem, ⟨21, _⟩ => ⟨S32x128x16, .f32⟩
  | .local _ .vmem, ⟨22, _⟩ => ⟨S32x16, .f32⟩
  | .local _ .vmem, ⟨23, _⟩ => ⟨S32x16, .f32⟩
  | .local _ .vmem, ⟨24, _⟩ => ⟨S32x16, .f32⟩
  | .local _ .vmem, ⟨25, _⟩ => ⟨S32x16, .f32⟩
  | .local _ .vmem, ⟨26, _⟩ => ⟨S32x16, .f32⟩
  | .local _ .vmem, ⟨27, _⟩ => ⟨S32x16, .f32⟩
  | .local _ .vmem, ⟨28, _⟩ => ⟨S32x16, .f32⟩
  | .local _ .vmem, ⟨29, _⟩ => ⟨S32x16, .f32⟩
  | .local _ .vmem, ⟨30, _⟩ => ⟨S32x8, .f32⟩
  | .local _ .vmem, ⟨31, _⟩ => ⟨S32x8, .f32⟩
  | .local _ .vmem, ⟨32, _⟩ => ⟨S32x128x16, .f32⟩
  | .local _ .vmem, ⟨33, _⟩ => ⟨S32x128x16, .f32⟩
  | .local _ .vmem, ⟨34, _⟩ => ⟨S32x16, .f32⟩
  | .local _ .vmem, ⟨35, _⟩ => ⟨S32x16, .f32⟩
  | .local _ .vmem, ⟨36, _⟩ => ⟨S32x48, .f32⟩
  | .local _ .vmem, ⟨37, _⟩ => ⟨S32x48, .f32⟩
  | .local _ .vmem, ⟨38, _⟩ => ⟨S32x8, .f32⟩
  | .local _ .vmem, ⟨39, _⟩ => ⟨S32x8, .f32⟩
  | _, _ => ⟨S2048x128x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2_0 : Ref sig .tc := ⟨.hbm, 14, rfl⟩
abbrev main_v2_1 : Ref sig .tc := ⟨.hbm, 15, rfl⟩
abbrev main_v2_2 : Ref sig .tc := ⟨.hbm, 16, rfl⟩
abbrev main_v2_3 : Ref sig .tc := ⟨.hbm, 17, rfl⟩
abbrev main_v2_4 : Ref sig .tc := ⟨.hbm, 18, rfl⟩
abbrev main_v2_5 : Ref sig .tc := ⟨.hbm, 19, rfl⟩
abbrev main_v2_6 : Ref sig .tc := ⟨.hbm, 20, rfl⟩
abbrev main_v2_7 : Ref sig .tc := ⟨.hbm, 21, rfl⟩
abbrev main_v2_8 : Ref sig .tc := ⟨.hbm, 22, rfl⟩
abbrev main_v2_9 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg21_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37
abbrev cc0_sem21_0 : DmaSem sig := 38
abbrev cc0_sem21_1 : DmaSem sig := 39

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x16x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x16x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S48x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S32x128x16 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x16 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x16 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S32x16 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S32x16 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S32x8 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S32x128x16 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S32x16 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S32x48 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S32x8 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

class Facts₀ : Prop where
  shapeCasts_S2048x16_S128x16x16 : S2048x16.ShapeCasts S128x16x16
  shapeCasts_S2048x8_S128x16x8 : S2048x8.ShapeCasts S128x16x8
  inb_S32x128x16_S32x128x16_0_0_0 : ∀ a, (![0, 0, 0] : Fin 3 → Nat) a + S32x128x16.size a ≤ S32x128x16.size a
  h_S32x128x16 : 0 < S32x128x16.numel
  inb_S32x128x128_S32x128x128_0_0_0 : ∀ a, (![0, 0, 0] : Fin 3 → Nat) a + S32x128x128.size a ≤ S32x128x128.size a
  h_S32x128x128 : 0 < S32x128x128.numel
  inb_S128x16x16_S128x16x16_0_0_0 : ∀ a, (![0, 0, 0] : Fin 3 → Nat) a + S128x16x16.size a ≤ S128x16x16.size a
  h_S128x16x16 : 0 < S128x16x16.numel
  shapeCasts_S128x16x16_S128x16x16 : S128x16x16.ShapeCasts S128x16x16
  inb_S128x16x8_S128x16x8_0_0_0 : ∀ a, (![0, 0, 0] : Fin 3 → Nat) a + S128x16x8.size a ≤ S128x16x8.size a
  h_S128x16x8 : 0 < S128x16x8.numel
  shapeCasts_S128x16x8_S128x16x8 : S128x16x8.ShapeCasts S128x16x8
  slices_S32x128x16_o0_0_0_S32x128x1 : S32x128x16.Slices ![0, 0, 0] S32x128x1
  shapeCasts_S32x128x1_S32x128 : S32x128x1.ShapeCasts S32x128
  slices_S128x16x16_o0_0_0_S128x1x16 : S128x16x16.Slices ![0, 0, 0] S128x1x16
  shapeCasts_S128x1x16_S128x16 : S128x1x16.ShapeCasts S128x16
  slices_S128x16x8_o0_0_0_S128x1x8 : S128x16x8.Slices ![0, 0, 0] S128x1x8
  shapeCasts_S128x1x8_S128x8 : S128x1x8.ShapeCasts S128x8
  slices_S32x128x16_o0_0_1_S32x128x1 : S32x128x16.Slices ![0, 0, 1] S32x128x1
  slices_S128x16x16_o0_1_0_S128x1x16 : S128x16x16.Slices ![0, 1, 0] S128x1x16
  slices_S128x16x8_o0_1_0_S128x1x8 : S128x16x8.Slices ![0, 1, 0] S128x1x8
  slices_S32x128x16_o0_0_2_S32x128x1 : S32x128x16.Slices ![0, 0, 2] S32x128x1
  slices_S128x16x16_o0_2_0_S128x1x16 : S128x16x16.Slices ![0, 2, 0] S128x1x16
  slices_S128x16x8_o0_2_0_S128x1x8 : S128x16x8.Slices ![0, 2, 0] S128x1x8
  slices_S32x128x16_o0_0_3_S32x128x1 : S32x128x16.Slices ![0, 0, 3] S32x128x1
  slices_S128x16x16_o0_3_0_S128x1x16 : S128x16x16.Slices ![0, 3, 0] S128x1x16
  slices_S128x16x8_o0_3_0_S128x1x8 : S128x16x8.Slices ![0, 3, 0] S128x1x8
  slices_S32x128x16_o0_0_4_S32x128x1 : S32x128x16.Slices ![0, 0, 4] S32x128x1
  slices_S128x16x16_o0_4_0_S128x1x16 : S128x16x16.Slices ![0, 4, 0] S128x1x16
  slices_S128x16x8_o0_4_0_S128x1x8 : S128x16x8.Slices ![0, 4, 0] S128x1x8
  slices_S32x128x16_o0_0_5_S32x128x1 : S32x128x16.Slices ![0, 0, 5] S32x128x1
  slices_S128x16x16_o0_5_0_S128x1x16 : S128x16x16.Slices ![0, 5, 0] S128x1x16
  slices_S128x16x8_o0_5_0_S128x1x8 : S128x16x8.Slices ![0, 5, 0] S128x1x8
  slices_S32x128x16_o0_0_6_S32x128x1 : S32x128x16.Slices ![0, 0, 6] S32x128x1
  slices_S128x16x16_o0_6_0_S128x1x16 : S128x16x16.Slices ![0, 6, 0] S128x1x16
  slices_S128x16x8_o0_6_0_S128x1x8 : S128x16x8.Slices ![0, 6, 0] S128x1x8
  slices_S32x128x16_o0_0_7_S32x128x1 : S32x128x16.Slices ![0, 0, 7] S32x128x1
  slices_S128x16x16_o0_7_0_S128x1x16 : S128x16x16.Slices ![0, 7, 0] S128x1x16
  slices_S128x16x8_o0_7_0_S128x1x8 : S128x16x8.Slices ![0, 7, 0] S128x1x8
  slices_S32x128x16_o0_0_8_S32x128x1 : S32x128x16.Slices ![0, 0, 8] S32x128x1
  slices_S128x16x16_o0_8_0_S128x1x16 : S128x16x16.Slices ![0, 8, 0] S128x1x16
  slices_S128x16x8_o0_8_0_S128x1x8 : S128x16x8.Slices ![0, 8, 0] S128x1x8
  slices_S32x128x16_o0_0_9_S32x128x1 : S32x128x16.Slices ![0, 0, 9] S32x128x1
  slices_S128x16x16_o0_9_0_S128x1x16 : S128x16x16.Slices ![0, 9, 0] S128x1x16
  slices_S128x16x8_o0_9_0_S128x1x8 : S128x16x8.Slices ![0, 9, 0] S128x1x8
  slices_S32x128x16_o0_0_10_S32x128x1 : S32x128x16.Slices ![0, 0, 10] S32x128x1
  slices_S128x16x16_o0_10_0_S128x1x16 : S128x16x16.Slices ![0, 10, 0] S128x1x16
  slices_S128x16x8_o0_10_0_S128x1x8 : S128x16x8.Slices ![0, 10, 0] S128x1x8
  slices_S32x128x16_o0_0_11_S32x128x1 : S32x128x16.Slices ![0, 0, 11] S32x128x1
  slices_S128x16x16_o0_11_0_S128x1x16 : S128x16x16.Slices ![0, 11, 0] S128x1x16
  slices_S128x16x8_o0_11_0_S128x1x8 : S128x16x8.Slices ![0, 11, 0] S128x1x8
  slices_S32x128x16_o0_0_12_S32x128x1 : S32x128x16.Slices ![0, 0, 12] S32x128x1
  slices_S128x16x16_o0_12_0_S128x1x16 : S128x16x16.Slices ![0, 12, 0] S128x1x16
  slices_S128x16x8_o0_12_0_S128x1x8 : S128x16x8.Slices ![0, 12, 0] S128x1x8
  slices_S32x128x16_o0_0_13_S32x128x1 : S32x128x16.Slices ![0, 0, 13] S32x128x1
  slices_S128x16x16_o0_13_0_S128x1x16 : S128x16x16.Slices ![0, 13, 0] S128x1x16
  slices_S128x16x8_o0_13_0_S128x1x8 : S128x16x8.Slices ![0, 13, 0] S128x1x8
  slices_S32x128x16_o0_0_14_S32x128x1 : S32x128x16.Slices ![0, 0, 14] S32x128x1
  slices_S128x16x16_o0_14_0_S128x1x16 : S128x16x16.Slices ![0, 14, 0] S128x1x16
  slices_S128x16x8_o0_14_0_S128x1x8 : S128x16x8.Slices ![0, 14, 0] S128x1x8
  slices_S32x128x16_o0_0_15_S32x128x1 : S32x128x16.Slices ![0, 0, 15] S32x128x1
  slices_S128x16x16_o0_15_0_S128x1x16 : S128x16x16.Slices ![0, 15, 0] S128x1x16
  slices_S128x16x8_o0_15_0_S128x1x8 : S128x16x8.Slices ![0, 15, 0] S128x1x8
  inb_S32x16_S32x16_0_0 : ∀ a, (![0, 0] : Fin 2 → Nat) a + S32x16.size a ≤ S32x16.size a
  h_S32x16 : 0 < S32x16.numel
  concatenates_S32x16_S32x16_S32x16_S32x48_d1 : Shape.Concatenates [S32x16, S32x16, S32x16] S32x48 1
  inb_S32x48_S32x48_0_0 : ∀ a, (![0, 0] : Fin 2 → Nat) a + S32x48.size a ≤ S32x48.size a
  h_S32x48 : 0 < S32x48.numel
  inb_S48x8_S48x8_0_0 : ∀ a, (![0, 0] : Fin 2 → Nat) a + S48x8.size a ≤ S48x8.size a
  h_S48x8 : 0 < S48x8.numel
  inb_S16x8_S16x8_0_0 : ∀ a, (![0, 0] : Fin 2 → Nat) a + S16x8.size a ≤ S16x8.size a
  h_S16x8 : 0 < S16x8.numel
  inb_S32x8_S32x8_0_0 : ∀ a, (![0, 0] : Fin 2 → Nat) a + S32x8.size a ≤ S32x8.size a
  h_S32x8 : 0 < S32x8.numel
  dot_S32x128x128_S32x128x16_S32x128x16_2_1_1_2_0_0_wf : DotDims.WF S32x128x128 S32x128x16 S32x128x16 [2] [1] [1] [2] [0] [0]
  dot_S32x128_S128x16_S32x16_1_0_0_1_n_n_wf : DotDims.WF S32x128 S128x16 S32x16 [1] [0] [0] [1] [] []
  dot_S32x128_S128x8_S32x8_1_0_0_1_n_n_wf : DotDims.WF S32x128 S128x8 S32x8 [1] [0] [0] [1] [] []
  dot_S32x48_S48x8_S32x8_1_0_0_1_n_n_wf : DotDims.WF S32x48 S48x8 S32x8 [1] [0] [0] [1] [] []
  dot_S32x16_S16x8_S32x8_1_0_0_1_n_n_wf : DotDims.WF S32x16 S16x8 S32x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x16.size a ≤ S2048x128x16.size a
  hwx0_0 : ∀ i : grid0.Coords, EltTy.bits .f32 = 32 ∨ (Rect.block (s := S2048x128x16) S32x128x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128x128.size a ≤ S2048x128x128.size a
  hwx0_1 : ∀ i : grid0.Coords, EltTy.bits .f32 = 32 ∨ (Rect.block (s := S2048x128x128) S32x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128x16.size a ≤ S2048x128x16.size a
  hwx0_2 : ∀ i : grid0.Coords, EltTy.bits .f32 = 32 ∨ (Rect.block (s := S2048x128x16) S32x128x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x16.size a ≤ S2048x16.size a
  hwx0_3 : ∀ i : grid0.Coords, EltTy.bits .f32 = 32 ∨ (Rect.block (s := S2048x16) S32x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x16.size a ≤ S2048x16.size a
  hwx0_4 : ∀ i : grid0.Coords, EltTy.bits .f32 = 32 ∨ (Rect.block (s := S2048x16) S32x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x16.size a ≤ S2048x16.size a
  hwx0_5 : ∀ i : grid0.Coords, EltTy.bits .f32 = 32 ∨ (Rect.block (s := S2048x16) S32x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x16.size a ≤ S2048x16.size a
  hwx0_6 : ∀ i : grid0.Coords, EltTy.bits .f32 = 32 ∨ (Rect.block (s := S2048x16) S32x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x8.size a ≤ S2048x8.size a
  hwx0_7 : ∀ i : grid0.Coords, EltTy.bits .f32 = 32 ∨ (Rect.block (s := S2048x8) S32x8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x16x16.size a ≤ S128x16x16.size a
  hwx0_8 : ∀ i : grid0.Coords, EltTy.bits .f32 = 32 ∨ (Rect.block (s := S128x16x16) S128x16x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x16x8.size a ≤ S128x16x8.size a
  hwx0_9 : ∀ i : grid0.Coords, EltTy.bits .f32 = 32 ∨ (Rect.block (s := S128x16x8) S128x16x8.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S16x8.size a ≤ S16x8.size a
  hwx0_10 : ∀ i : grid0.Coords, EltTy.bits .f32 = 32 ∨ (Rect.block (s := S16x8) S16x8.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S48x8.size a ≤ S48x8.size a
  hwx0_11 : ∀ i : grid0.Coords, EltTy.bits .f32 = 32 ∨ (Rect.block (s := S48x8) S48x8.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S32x128x16.size a ≤ S2048x128x16.size a
  hwx0_12 : ∀ i : grid0.Coords, EltTy.bits .f32 = 32 ∨ (Rect.block (s := S2048x128x16) S32x128x16.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S32x16.size a ≤ S2048x16.size a
  hwx0_13 : ∀ i : grid0.Coords, EltTy.bits .f32 = 32 ∨ (Rect.block (s := S2048x16) S32x16.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S32x16.size a ≤ S2048x16.size a
  hwx0_14 : ∀ i : grid0.Coords, EltTy.bits .f32 = 32 ∨ (Rect.block (s := S2048x16) S32x16.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S32x16.size a ≤ S2048x16.size a
  hwx0_15 : ∀ i : grid0.Coords, EltTy.bits .f32 = 32 ∨ (Rect.block (s := S2048x16) S32x16.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S32x16.size a ≤ S2048x16.size a
  hwx0_16 : ∀ i : grid0.Coords, EltTy.bits .f32 = 32 ∨ (Rect.block (s := S2048x16) S32x16.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S32x8.size a ≤ S2048x8.size a
  hwx0_17 : ∀ i : grid0.Coords, EltTy.bits .f32 = 32 ∨ (Rect.block (s := S2048x8) S32x8.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S32x128x16.size a ≤ S2048x128x16.size a
  hwx0_18 : ∀ i : grid0.Coords, EltTy.bits .f32 = 32 ∨ (Rect.block (s := S2048x128x16) S32x128x16.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S32x16.size a ≤ S2048x16.size a
  hwx0_19 : ∀ i : grid0.Coords, EltTy.bits .f32 = 32 ∨ (Rect.block (s := S2048x16) S32x16.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S32x48.size a ≤ S2048x48.size a
  hwx0_20 : ∀ i : grid0.Coords, EltTy.bits .f32 = 32 ∨ (Rect.block (s := S2048x48) S32x48.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S32x8.size a ≤ S2048x8.size a
  hwx0_21 : ∀ i : grid0.Coords, EltTy.bits .f32 = 32 ∨ (Rect.block (s := S2048x8) S32x8.size (cc0_transform_21 i) (hinb0_21 i)).WholeWords (EltTy.packing .f32)

variable [Facts₀]

def dot_S32x128x128_S32x128x16_S32x128x16_2_1_1_2_0_0 : DotDims S32x128x128 S32x128x16 S32x128x16 where
  lhsContracting := [2]
  rhsContracting := [1]
  lhsNonContracting := [1]
  rhsNonContracting := [2]
  lhsBatch := [0]
  rhsBatch := [0]
  wf := dot_S32x128x128_S32x128x16_S32x128x16_2_1_1_2_0_0_wf
def dot_S32x128_S128x16_S32x16_1_0_0_1_n_n : DotDims S32x128 S128x16 S32x16 where
  lhsContracting := [1]
  rhsContracting := [0]
  lhsNonContracting := [0]
  rhsNonContracting := [1]
  lhsBatch := []
  rhsBatch := []
  wf := dot_S32x128_S128x16_S32x16_1_0_0_1_n_n_wf
def dot_S32x128_S128x8_S32x8_1_0_0_1_n_n : DotDims S32x128 S128x8 S32x8 where
  lhsContracting := [1]
  rhsContracting := [0]
  lhsNonContracting := [0]
  rhsNonContracting := [1]
  lhsBatch := []
  rhsBatch := []
  wf := dot_S32x128_S128x8_S32x8_1_0_0_1_n_n_wf
def dot_S32x48_S48x8_S32x8_1_0_0_1_n_n : DotDims S32x48 S48x8 S32x8 where
  lhsContracting := [1]
  rhsContracting := [0]
  lhsNonContracting := [0]
  rhsNonContracting := [1]
  lhsBatch := []
  rhsBatch := []
  wf := dot_S32x48_S48x8_S32x8_1_0_0_1_n_n_wf
def dot_S32x16_S16x8_S32x8_1_0_0_1_n_n : DotDims S32x16 S16x8 S32x8 where
  lhsContracting := [1]
  rhsContracting := [0]
  lhsNonContracting := [0]
  rhsNonContracting := [1]
  lhsBatch := []
  rhsBatch := []
  wf := dot_S32x16_S16x8_S32x8_1_0_0_1_n_n_wf

abbrev win0_0 : Pipeline.Window sig grid0 :=
  Pipeline.Window.ofSpec (Memref.whole main_arg0) S32x128x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x128x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x16.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32x16.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S32x8.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0) S128x16x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1) S128x16x8.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S16x8.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S48x8.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v2_0) S32x128x16.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v2_1) S32x16.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v2_2) S32x16.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v2_3) S32x16.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v2_4) S32x16.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v2_5) S32x8.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v2_6) S32x128x16.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v2_7) S32x16.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v2_8) S32x48.size cc0_transform_20 reads0_20 true false 2 stage0_20 sem0_20
    hrank0 hreads0_20 hinb0_20 nbuf0_20 (Memref.isWhole_whole _) hwx0_20 hstage0_20

abbrev win0_21 : Pipeline.Window sig grid0 :=
  Pipeline.Window.ofSpec (Memref.whole main_v2_9) S32x8.size cc0_transform_21 reads0_21 true false 2 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

class Facts : Prop extends Facts₀ where

variable [Facts]
-- ==== ReferenceIdeal.lean ====
abbrev S2048x128x16 : Shape := ⟨3, ![2048, 128, 16]⟩
abbrev S2048x128x128 : Shape := ⟨3, ![2048, 128, 128]⟩
abbrev S2048x16 : Shape := ⟨2, ![2048, 16]⟩
abbrev S2048x8 : Shape := ⟨2, ![2048, 8]⟩
abbrev S16x8 : Shape := ⟨2, ![16, 8]⟩
abbrev S48x8 : Shape := ⟨2, ![48, 8]⟩
abbrev S_ : Shape := ⟨0, ![]⟩
abbrev S2048x2048 : Shape := ⟨2, ![2048, 2048]⟩
abbrev S2048x48 : Shape := ⟨2, ![2048, 48]⟩

abbrev nBuf : Space → Nat
  | .hbm => 159
  | .vmem => 0
  | .smem => 0
  | _ => 0

abbrev hbmTy0_0 (i : Nat) : BufTy := match i % 128 with
  | 0 => ⟨S2048x128x16, .f32⟩
  | 1 => ⟨S2048x128x128, .f32⟩
  | 2 => ⟨S2048x128x16, .f32⟩
  | 3 => ⟨S2048x16, .f32⟩
  | 4 => ⟨S2048x16, .f32⟩
  | 5 => ⟨S2048x16, .f32⟩
  | 6 => ⟨S2048x16, .f32⟩
  | 7 => ⟨S2048x8, .f32⟩
  | 8 => ⟨S2048x16, .f32⟩
  | 9 => ⟨S2048x8, .f32⟩
  | 10 => ⟨S16x8, .f32⟩
  | 11 => ⟨S48x8, .f32⟩
  | 12 => ⟨S_, .f32⟩
  | 13 => ⟨S2048x128x16, .f32⟩
  | 14 => ⟨S2048x128x16, .f32⟩
  | 15 => ⟨S2048x128x16, .f32⟩
  | 16 => ⟨S_, .f32⟩
  | 17 => ⟨S2048x128x16, .f32⟩
  | 18 => ⟨S2048x128x16, .f32⟩
  | 19 => ⟨S_, .f32⟩
  | 20 => ⟨S2048x128x16, .f32⟩
  | 21 => ⟨S2048x128x16, .f32⟩
  | 22 => ⟨S_, .f32⟩
  | 23 => ⟨S2048x128x16, .f32⟩
  | 24 => ⟨S2048x128x16, .i1⟩
  | 25 => ⟨S_, .f32⟩
  | 26 => ⟨S_, .f32⟩
  | 27 => ⟨S2048x128x16, .f32⟩
  | 28 => ⟨S2048x128x16, .f32⟩
  | 29 => ⟨S2048x128x16, .f32⟩
  | 30 => ⟨S2048x128x16, .f32⟩
  | 31 => ⟨S_, .f32⟩
  | 32 => ⟨S2048x128x16, .f32⟩
  | 33 => ⟨S2048x128x16, .f32⟩
  | 34 => ⟨S2048x128x16, .f32⟩
  | 35 => ⟨S2048x128x16, .f32⟩
  | 36 => ⟨S2048x2048, .f32⟩
  | 37 => ⟨S2048x16, .f32⟩
  | 38 => ⟨S_, .f32⟩
  | 39 => ⟨S2048x16, .f32⟩
  | 40 => ⟨S2048x16, .f32⟩
  | 41 => ⟨S2048x16, .f32⟩
  | 42 => ⟨S_, .f32⟩
  | 43 => ⟨S2048x16, .f32⟩
  | 44 => ⟨S2048x16, .f32⟩
  | 45 => ⟨S_, .f32⟩
  | 46 => ⟨S2048x16, .f32⟩
  | 47 => ⟨S2048x16, .f32⟩
  | 48 => ⟨S_, .f32⟩
  | 49 => ⟨S2048x16, .f32⟩
  | 50 => ⟨S2048x16, .i1⟩
  | 51 => ⟨S_, .f32⟩
  | 52 => ⟨S_, .f32⟩
  | 53 => ⟨S2048x16, .f32⟩
  | 54 => ⟨S2048x16, .f32⟩
  | 55 => ⟨S2048x16, .f32⟩
  | 56 => ⟨S2048x16, .f32⟩
  | 57 => ⟨S_, .f32⟩
  | 58 => ⟨S2048x16, .f32⟩
  | 59 => ⟨S2048x16, .f32⟩
  | 60 => ⟨S2048x16, .f32⟩
  | 61 => ⟨S_, .f32⟩
  | 62 => ⟨S2048x16, .f32⟩
  | 63 => ⟨S2048x16, .f32⟩
  | 64 => ⟨S2048x16, .f32⟩
  | 65 => ⟨S_, .f32⟩
  | 66 => ⟨S2048x16, .f32⟩
  | 67 => ⟨S2048x16, .f32⟩
  | 68 => ⟨S_, .f32⟩
  | 69 => ⟨S2048x16, .f32⟩
  | 70 => ⟨S2048x16, .f32⟩
  | 71 => ⟨S_, .f32⟩
  | 72 => ⟨S2048x16, .f32⟩
  | 73 => ⟨S2048x16, .i1⟩
  | 74 => ⟨S_, .f32⟩
  | 75 => ⟨S_, .f32⟩
  | 76 => ⟨S2048x16, .f32⟩
  | 77 => ⟨S2048x16, .f32⟩
  | 78 => ⟨S2048x16, .f32⟩
  | 79 => ⟨S2048x16, .f32⟩
  | 80 => ⟨S_, .f32⟩
  | 81 => ⟨S2048x16, .f32⟩
  | 82 => ⟨S2048x16, .f32⟩
  | 83 => ⟨S2048x16, .f32⟩
  | 84 => ⟨S_, .f32⟩
  | 85 => ⟨S2048x16, .f32⟩
  | 86 => ⟨S2048x16, .f32⟩
  | 87 => ⟨S2048x16, .f32⟩
  | 88 => ⟨S_, .f32⟩
  | 89 => ⟨S2048x16, .f32⟩
  | 90 => ⟨S2048x16, .f32⟩
  | 91 => ⟨S_, .f32⟩
  | 92 => ⟨S2048x16, .f32⟩
  | 93 => ⟨S2048x16, .f32⟩
  | 94 => ⟨S_, .f32⟩
  | 95 => ⟨S2048x16, .f32⟩
  | 96 => ⟨S2048x16, .i1⟩
  | 97 => ⟨S_, .f32⟩
  | 98 => ⟨S_, .f32⟩
  | 99 => ⟨S2048x16, .f32⟩
  | 100 => ⟨S2048x16, .f32⟩
  | 101 => ⟨S2048x16, .f32⟩
  | 102 => ⟨S2048x16, .f32⟩
  | 103 => ⟨S_, .f32⟩
  | 104 => ⟨S2048x16, .f32⟩
  | 105 => ⟨S2048x16, .f32⟩
  | 106 => ⟨S2048x16, .f32⟩
  | 107 => ⟨S_, .f32⟩
  | 108 => ⟨S2048x16, .f32⟩
  | 109 => ⟨S2048x16, .f32⟩
  | 110 => ⟨S2048x16, .f32⟩
  | 111 => ⟨S_, .f32⟩
  | 112 => ⟨S2048x16, .f32⟩
  | 113 => ⟨S2048x16, .f32⟩
  | 114 => ⟨S_, .f32⟩
  | 115 => ⟨S2048x16, .f32⟩
  | 116 => ⟨S2048x16, .f32⟩
  | 117 => ⟨S_, .f32⟩
  | 118 => ⟨S2048x16, .f32⟩
  | 119 => ⟨S2048x16, .i1⟩
  | 120 => ⟨S_, .f32⟩
  | 121 => ⟨S_, .f32⟩
  | 122 => ⟨S2048x16, .f32⟩
  | 123 => ⟨S2048x16, .f32⟩
  | 124 => ⟨S2048x16, .f32⟩
  | 125 => ⟨S2048x16, .f32⟩
  | 126 => ⟨S_, .f32⟩
  | 127 => ⟨S2048x16, .f32⟩
  | _ => ⟨S2048x128x16, .f32⟩

abbrev hbmTy0_1 (i : Nat) : BufTy := match i % 128 with
  | 0 => ⟨S2048x16, .f32⟩
  | 1 => ⟨S2048x16, .f32⟩
  | 2 => ⟨S2048x48, .f32⟩
  | 3 => ⟨S2048x8, .f32⟩
  | 4 => ⟨S2048x8, .f32⟩
  | 5 => ⟨S2048x8, .f32⟩
  | 6 => ⟨S2048x8, .f32⟩
  | 7 => ⟨S2048x8, .f32⟩
  | 8 => ⟨S_, .f32⟩
  | 9 => ⟨S2048x8, .f32⟩
  | 10 => ⟨S2048x8, .f32⟩
  | 11 => ⟨S2048x8, .f32⟩
  | 12 => ⟨S_, .f32⟩
  | 13 => ⟨S2048x8, .f32⟩
  | 14 => ⟨S2048x8, .f32⟩
  | 15 => ⟨S_, .f32⟩
  | 16 => ⟨S2048x8, .f32⟩
  | 17 => ⟨S2048x8, .f32⟩
  | 18 => ⟨S_, .f32⟩
  | 19 => ⟨S2048x8, .f32⟩
  | 20 => ⟨S2048x8, .i1⟩
  | 21 => ⟨S_, .f32⟩
  | 22 => ⟨S_, .f32⟩
  | 23 => ⟨S2048x8, .f32⟩
  | 24 => ⟨S2048x8, .f32⟩
  | 25 => ⟨S2048x8, .f32⟩
  | 26 => ⟨S2048x8, .f32⟩
  | 27 => ⟨S_, .f32⟩
  | 28 => ⟨S2048x8, .f32⟩
  | 29 => ⟨S2048x8, .f32⟩
  | 30 => ⟨S2048x8, .f32⟩
  | _ => ⟨S2048x128x16, .f32⟩

abbrev hbmTy (i : Nat) : BufTy := match i / 128 with
  | 0 => hbmTy0_0 i
  | 1 => hbmTy0_1 i
  | _ => ⟨S2048x128x16, .f32⟩

abbrev bufTy : (tb : Table) → Fin (tcTables nBuf tb) → BufTy
  | .hbm, ⟨i, _⟩ => hbmTy i
  | _, _ => ⟨S2048x128x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_v8 : Ref sig .tc := ⟨.hbm, 24, rfl⟩
abbrev main_cst_3 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v9 : Ref sig .tc := ⟨.hbm, 29, rfl⟩
abbrev main_v10 : Ref sig .tc := ⟨.hbm, 30, rfl⟩
abbrev main_cst_5 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_6 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_7 : Ref sig .tc := ⟨.hbm, 42, rfl⟩
abbrev main_v20 : Ref sig .tc := ⟨.hbm, 43, rfl⟩
abbrev main_v21 : Ref sig .tc := ⟨.hbm, 44, rfl⟩
abbrev main_cst_8 : Ref sig .tc := ⟨.hbm, 45, rfl⟩
abbrev main_v22 : Ref sig .tc := ⟨.hbm, 46, rfl⟩
abbrev main_v23 : Ref sig .tc := ⟨.hbm, 47, rfl⟩
abbrev main_cst_9 : Ref sig .tc := ⟨.hbm, 48, rfl⟩
abbrev main_v24 : Ref sig .tc := ⟨.hbm, 49, rfl⟩
abbrev main_v25 : Ref sig .tc := ⟨.hbm, 50, rfl⟩
abbrev main_cst_10 : Ref sig .tc := ⟨.hbm, 51, rfl⟩
abbrev main_cst_11 : Ref sig .tc := ⟨.hbm, 52, rfl⟩
abbrev main_call1_v0 : Ref sig .tc := ⟨.hbm, 53, rfl⟩
abbrev main_call1_v1 : Ref sig .tc := ⟨.hbm, 54, rfl⟩
abbrev main_v26 : Ref sig .tc := ⟨.hbm, 55, rfl⟩
abbrev main_v27 : Ref sig .tc := ⟨.hbm, 56, rfl⟩
abbrev main_cst_12 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_13 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_cst_14 : Ref sig .tc := ⟨.hbm, 65, rfl⟩
abbrev main_v34 : Ref sig .tc := ⟨.hbm, 66, rfl⟩
abbrev main_v35 : Ref sig .tc := ⟨.hbm, 67, rfl⟩
abbrev main_cst_15 : Ref sig .tc := ⟨.hbm, 68, rfl⟩
abbrev main_v36 : Ref sig .tc := ⟨.hbm, 69, rfl⟩
abbrev main_v37 : Ref sig .tc := ⟨.hbm, 70, rfl⟩
abbrev main_cst_16 : Ref sig .tc := ⟨.hbm, 71, rfl⟩
abbrev main_v38 : Ref sig .tc := ⟨.hbm, 72, rfl⟩
abbrev main_v39 : Ref sig .tc := ⟨.hbm, 73, rfl⟩
abbrev main_cst_17 : Ref sig .tc := ⟨.hbm, 74, rfl⟩
abbrev main_cst_18 : Ref sig .tc := ⟨.hbm, 75, rfl⟩
abbrev main_call2_v0 : Ref sig .tc := ⟨.hbm, 76, rfl⟩
abbrev main_call2_v1 : Ref sig .tc := ⟨.hbm, 77, rfl⟩
abbrev main_v40 : Ref sig .tc := ⟨.hbm, 78, rfl⟩
abbrev main_v41 : Ref sig .tc := ⟨.hbm, 79, rfl⟩
abbrev main_cst_19 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_cst_20 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_cst_21 : Ref sig .tc := ⟨.hbm, 88, rfl⟩
abbrev main_v48 : Ref sig .tc := ⟨.hbm, 89, rfl⟩
abbrev main_v49 : Ref sig .tc := ⟨.hbm, 90, rfl⟩
abbrev main_cst_22 : Ref sig .tc := ⟨.hbm, 91, rfl⟩
abbrev main_v50 : Ref sig .tc := ⟨.hbm, 92, rfl⟩
abbrev main_v51 : Ref sig .tc := ⟨.hbm, 93, rfl⟩
abbrev main_cst_23 : Ref sig .tc := ⟨.hbm, 94, rfl⟩
abbrev main_v52 : Ref sig .tc := ⟨.hbm, 95, rfl⟩
abbrev main_v53 : Ref sig .tc := ⟨.hbm, 96, rfl⟩
abbrev main_cst_24 : Ref sig .tc := ⟨.hbm, 97, rfl⟩
abbrev main_cst_25 : Ref sig .tc := ⟨.hbm, 98, rfl⟩
abbrev main_call3_v0 : Ref sig .tc := ⟨.hbm, 99, rfl⟩
abbrev main_call3_v1 : Ref sig .tc := ⟨.hbm, 100, rfl⟩
abbrev main_v54 : Ref sig .tc := ⟨.hbm, 101, rfl⟩
abbrev main_v55 : Ref sig .tc := ⟨.hbm, 102, rfl⟩
abbrev main_cst_26 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_cst_27 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_cst_28 : Ref sig .tc := ⟨.hbm, 111, rfl⟩
abbrev main_v62 : Ref sig .tc := ⟨.hbm, 112, rfl⟩
abbrev main_v63 : Ref sig .tc := ⟨.hbm, 113, rfl⟩
abbrev main_cst_29 : Ref sig .tc := ⟨.hbm, 114, rfl⟩
abbrev main_v64 : Ref sig .tc := ⟨.hbm, 115, rfl⟩
abbrev main_v65 : Ref sig .tc := ⟨.hbm, 116, rfl⟩
abbrev main_cst_30 : Ref sig .tc := ⟨.hbm, 117, rfl⟩
abbrev main_v66 : Ref sig .tc := ⟨.hbm, 118, rfl⟩
abbrev main_v67 : Ref sig .tc := ⟨.hbm, 119, rfl⟩
abbrev main_cst_31 : Ref sig .tc := ⟨.hbm, 120, rfl⟩
abbrev main_cst_32 : Ref sig .tc := ⟨.hbm, 121, rfl⟩
abbrev main_call4_v0 : Ref sig .tc := ⟨.hbm, 122, rfl⟩
abbrev main_call4_v1 : Ref sig .tc := ⟨.hbm, 123, rfl⟩
abbrev main_v68 : Ref sig .tc := ⟨.hbm, 124, rfl⟩
abbrev main_v69 : Ref sig .tc := ⟨.hbm, 125, rfl⟩
abbrev main_cst_33 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_cst_34 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_cst_35 : Ref sig .tc := ⟨.hbm, 140, rfl⟩
abbrev main_v82 : Ref sig .tc := ⟨.hbm, 141, rfl⟩
abbrev main_v83 : Ref sig .tc := ⟨.hbm, 142, rfl⟩
abbrev main_cst_36 : Ref sig .tc := ⟨.hbm, 143, rfl⟩
abbrev main_v84 : Ref sig .tc := ⟨.hbm, 144, rfl⟩
abbrev main_v85 : Ref sig .tc := ⟨.hbm, 145, rfl⟩
abbrev main_cst_37 : Ref sig .tc := ⟨.hbm, 146, rfl⟩
abbrev main_v86 : Ref sig .tc := ⟨.hbm, 147, rfl⟩
abbrev main_v87 : Ref sig .tc := ⟨.hbm, 148, rfl⟩
abbrev main_cst_38 : Ref sig .tc := ⟨.hbm, 149, rfl⟩
abbrev main_cst_39 : Ref sig .tc := ⟨.hbm, 150, rfl⟩
abbrev main_call5_v0 : Ref sig .tc := ⟨.hbm, 151, rfl⟩
abbrev main_call5_v1 : Ref sig .tc := ⟨.hbm, 152, rfl⟩
abbrev main_v88 : Ref sig .tc := ⟨.hbm, 153, rfl⟩
abbrev main_v89 : Ref sig .tc := ⟨.hbm, 154, rfl⟩
abbrev main_cst_40 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩

abbrev nD : Nat := 1
abbrev τ : Topo := Topo.v7x

variable {F : FTy → Type} [FloatOps F]

class Facts₀ : Prop where
  bcast_S_S2048x128x16 : S_.BroadcastsInDim S2048x128x16 (![] : Fin 0 → Fin S2048x128x16.rank)
  shapeCasts_S2048x128x16_S2048x2048 : S2048x128x16.ShapeCasts S2048x2048
  bcast_S_S2048x16 : S_.BroadcastsInDim S2048x16 (![] : Fin 0 → Fin S2048x16.rank)
  concatenates_S2048x16_S2048x16_S2048x16_S2048x48_d1 : Shape.Concatenates [S2048x16, S2048x16, S2048x16] S2048x48 1
  bcast_S_S2048x8 : S_.BroadcastsInDim S2048x8 (![] : Fin 0 → Fin S2048x8.rank)
  dot_S2048x128x128_S2048x128x16_S2048x128x16_2_1_1_2_0_0_wf : DotDims.WF S2048x128x128 S2048x128x16 S2048x128x16 [2] [1] [1] [2] [0] [0]
  dot_S2048x2048_S2048x16_S2048x16_1_0_0_1_n_n_wf : DotDims.WF S2048x2048 S2048x16 S2048x16 [1] [0] [0] [1] [] []
  dot_S2048x48_S48x8_S2048x8_1_0_0_1_n_n_wf : DotDims.WF S2048x48 S48x8 S2048x8 [1] [0] [0] [1] [] []
  dot_S2048x2048_S2048x8_S2048x8_1_0_0_1_n_n_wf : DotDims.WF S2048x2048 S2048x8 S2048x8 [1] [0] [0] [1] [] []
  dot_S2048x16_S16x8_S2048x8_1_0_0_1_n_n_wf : DotDims.WF S2048x16 S16x8 S2048x8 [1] [0] [0] [1] [] []

variable [Facts₀]

def dot_S2048x128x128_S2048x128x16_S2048x128x16_2_1_1_2_0_0 : DotDims S2048x128x128 S2048x128x16 S2048x128x16 where
  lhsContracting := [2]
  rhsContracting := [1]
  lhsNonContracting := [1]
  rhsNonContracting := [2]
  lhsBatch := [0]
  rhsBatch := [0]
  wf := dot_S2048x128x128_S2048x128x16_S2048x128x16_2_1_1_2_0_0_wf
def dot_S2048x2048_S2048x16_S2048x16_1_0_0_1_n_n : DotDims S2048x2048 S2048x16 S2048x16 where
  lhsContracting := [1]
  rhsContracting := [0]
  lhsNonContracting := [0]
  rhsNonContracting := [1]
  lhsBatch := []
  rhsBatch := []
  wf := dot_S2048x2048_S2048x16_S2048x16_1_0_0_1_n_n_wf
def dot_S2048x48_S48x8_S2048x8_1_0_0_1_n_n : DotDims S2048x48 S48x8 S2048x8 where
  lhsContracting := [1]
  rhsContracting := [0]
  lhsNonContracting := [0]
  rhsNonContracting := [1]
  lhsBatch := []
  rhsBatch := []
  wf := dot_S2048x48_S48x8_S2048x8_1_0_0_1_n_n_wf
def dot_S2048x2048_S2048x8_S2048x8_1_0_0_1_n_n : DotDims S2048x2048 S2048x8 S2048x8 where
  lhsContracting := [1]
  rhsContracting := [0]
  lhsNonContracting := [0]
  rhsNonContracting := [1]
  lhsBatch := []
  rhsBatch := []
  wf := dot_S2048x2048_S2048x8_S2048x8_1_0_0_1_n_n_wf
def dot_S2048x16_S16x8_S2048x8_1_0_0_1_n_n : DotDims S2048x16 S16x8 S2048x8 where
  lhsContracting := [1]
  rhsContracting := [0]
  lhsNonContracting := [0]
  rhsNonContracting := [1]
  lhsBatch := []
  rhsBatch := []
  wf := dot_S2048x16_S16x8_S2048x8_1_0_0_1_n_n_wf

class Facts : Prop extends Facts₀ where

variable [Facts]
-- ==== Proof.LibPayOps.lean ====
/-
  General facts used when a stored value is read at an index, at the ideal (extended real) values.

  * The fold of the binary maximum over a finite set, started from the bottom element, is the supremum over that set.
  * The 32-bit word 0xFF800000 denotes minus infinity (the bottom extended real); the word 0xC0000000 denotes the real -2.
  * A reduction by maximum over the FIRST axis of an [a, b] array started from minus infinity is, at column c,
    the supremum over the rows k of entry (k, c).
  * The "ordered greater than" comparison as a one-bit word, and a selection driven by it as an if-then-else.
-/
import Idealize.ShloMosaic.PureOps.Ideal.Laws
import Idealize.ShloMosaic.Lib.Pipeline.Value
import Idealize.ShloMosaic.Lib.ValueIdx

noncomputable section

open scoped BigOperators

namespace Cert.LibPayOps

open Idealize.ShloMosaic Idealize.ShloMosaic.ValueIdx

/-- Folding the binary maximum from the bottom element over a finite set gives the supremum over the set. -/
theorem fold_max_bot_eq_sup {ι : Type} (s : Finset ι) (f : ι → EReal) : s.fold max ⊥ f = s.sup f := by
  classical
  induction s using Finset.induction_on with
  | empty => simp
  | insert a s ha ih => rw [Finset.fold_insert ha, Finset.sup_insert, ih]

/-- The word 0xFF800000 (sign set, exponent all ones, fraction zero) is minus infinity. -/
theorem ofBits_f32_neg_inf : Ideal.ofBits .f32 0xFF800000#32 = (⊥ : EReal) := by
  simp [Ideal.ofBits, Ideal.ieee]

/-- The word 0xC0000000 (sign set, exponent 128, fraction zero) is the real number -2. -/
theorem ofBits_f32_neg_two : Ideal.ofBits .f32 0xC0000000#32 = ((-2 : ℝ) : EReal) := by
  simp [Ideal.ofBits, Ideal.ieee]
  rw [← EReal.coe_mul]
  norm_num

/-- A selection driven by "x is greater than y" is the if-then-else on y < x. -/
theorem select_ogt (x y a b : EReal) :
    Scalar.select (Ideal.cmp .ogt x y) a b = if y < x then a else b := by
  unfold Ideal.cmp
  by_cases h : y < x
  · rw [if_pos h]; simp [h, Scalar.select]
  · rw [if_neg h]; simp [h, Scalar.select]

/-- The maximum down the columns of an [a, b] array (a reduction over its first axis from minus infinity), at column c. -/
theorem columnMax_apply {a b : ℕ} (src : FVec Ideal ⟨2, ![a, b]⟩ .f32)
    (h : Shape.Reduces ⟨2, ![a, b]⟩ [0] ⟨1, ![b]⟩) (hφ : FKind.Formats .f32)
    (hacc : (0xFF800000#32 : BitVec 32) = FKind.maximumf.neutral .f32 hφ) (c : Fin b) :
    multiReduction .maximumf [0] ⟨1, ![b]⟩ src 0xFF800000#32 h hφ hacc (ix1 c)
      = Finset.univ.sup fun k : Fin a => src (ix2 k c) := by
  refine (Ideal.multiReduction_maximumf_single src 0xFF800000#32 h hφ hacc (ix1 c)).trans ?_
  refine (congrArg (fun z => (Finset.univ : Finset (Fin ((⟨2, ![a, b]⟩ : Shape).size 0))).fold max z
    (src ∘ h.lift (ix1 c))) ofBits_f32_neg_inf).trans ?_
  refine (fold_max_bot_eq_sup _ _).trans ?_
  exact congrArg (Finset.univ.sup) (funext fun k => congrArg src (funext fun d => Fin.ext (by
    match d with
    | ⟨0, _⟩ => rfl
    | ⟨1, _⟩ => rfl)))

end Cert.LibPayOps

end
-- ==== Proof.LibRowReduceProducts.lean ====
/-
  Reductions along the rows of a matrix, sums down its columns, and two orientations of the matrix product, each read
  at an index at the ideal (extended real) values and generic in the extents.

  * rowMax_apply   — a reduction by maximum over the SECOND axis of an [a, b] array started from minus infinity is, at
                     row r, the supremum over the columns k of entry (r, k);
  * rowSum_apply   — a reduction by addition over the second axis from zero is, at row r, the sum over k of entry (r, k);
  * colSum_apply   — a reduction by addition over the first axis from zero is, at column c, the sum over k of entry (k, c);
  * matmulNT       — an [M, K] array against an [N, K] array contracted over their second axes into a zero accumulator:
                     entry (e, o) is the sum over r of x (e, r) * y (o, r) (left operand times the transpose of the right);
  * matmulNN       — an [M, K] array against a [K, N] array, the plain product: entry (e, o) is the sum over r of
                     x (e, r) * y (r, o).
-/
import Idealize.ShloMosaic.PureOps.Ideal.Laws
import Idealize.ShloMosaic.Lib.Pipeline.Value
import Idealize.ShloMosaic.Lib.ValueIdx
import proofs.«123606_j63127429317304_2_alg».proof.Proof.LibPayOps

noncomputable section

open scoped BigOperators

namespace Cert.LibRowReduceProducts

open Idealize.ShloMosaic Idealize.ShloMosaic.ValueIdx

/-! ## Reductions -/

/-- The maximum along the rows of an [a, b] array (a reduction over its second axis from minus infinity), at row r. -/
theorem rowMax_apply {a b : ℕ} (src : FVec Ideal ⟨2, ![a, b]⟩ .f32)
    (h : Shape.Reduces ⟨2, ![a, b]⟩ [1] ⟨1, ![a]⟩) (hφ : FKind.Formats .f32)
    (hacc : (0xFF800000#32 : BitVec 32) = FKind.maximumf.neutral .f32 hφ) (r : Fin a) :
    multiReduction .maximumf [1] ⟨1, ![a]⟩ src 0xFF800000#32 h hφ hacc (ix1 r)
      = Finset.univ.sup fun k : Fin b => src (ix2 r k) := by
  refine (Ideal.multiReduction_maximumf_single src 0xFF800000#32 h hφ hacc (ix1 r)).trans ?_
  refine (congrArg (fun z => (Finset.univ : Finset (Fin ((⟨2, ![a, b]⟩ : Shape).size 1))).fold max z
    (src ∘ h.lift (ix1 r))) Cert.LibPayOps.ofBits_f32_neg_inf).trans ?_
  refine (Cert.LibPayOps.fold_max_bot_eq_sup _ _).trans ?_
  exact congrArg (Finset.univ.sup) (funext fun k => congrArg src (funext fun d => Fin.ext (by
    match d with
    | ⟨0, _⟩ => rfl
    | ⟨1, _⟩ => rfl)))

/-- The sum along the rows of an [a, b] array (a reduction by addition over its second axis from zero), at row r. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (funext fun d => Fin.ext (by
    match d with
    | ⟨0, _⟩ => rfl
    | ⟨1, _⟩ => rfl))

/-- The sum down the columns of an [a, b] array (a reduction by addition over its first axis from zero), at column c. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = FKind.add.neutral .f32 hφ) (c : Fin b) :
    multiReduction .add [0] ⟨1, ![b]⟩ src 0x00000000#32 h hφ hacc (ix1 c) = ∑ k : Fin a, src (ix2 k c) := by
  refine (Ideal.multiReduction_add_single src 0x00000000#32 h hφ hacc (ix1 c)).trans ?_
  exact Finset.sum_congr rfl fun k _ => congrArg src (funext fun d => Fin.ext (by
    match d with
    | ⟨0, _⟩ => rfl
    | ⟨1, _⟩ => rfl))

/-! ## The product with the transpose of the right operand -/

section NT

variable {K M N : ℕ}

/-- The dimension numbers contracting the second axis of both operands, over any evidence of well-formedness. -/
abbrev dimsNT (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], wf⟩

variable (wf : DotDims.WF ⟨2, ![M, K]⟩ ⟨2, ![N, K]⟩ ⟨2, ![M, N]⟩ [1] [1] [0] [0] [] [])

/-- The left operand's first coordinate is the output's row coordinate, -/
theorem nt_lhs_free (j : (⟨2, ![M, N]⟩ : Shape).Idx) (q : (dimsNT wf).contr.Idx) :
    ((dimsNT wf).lhsIdx j q 0).val = (j 0).val := by
  unfold DotDims.lhsIdx
  rw [dif_neg (show ¬(0 : Fin 2) ∈ (dimsNT wf).lhsBatch from List.not_mem_nil),
    dif_pos (show (0 : Fin 2) ∈ (dimsNT wf).lhsNonContracting from List.mem_singleton.mpr rfl)]
  rfl

/-- and the right operand's first coordinate is the output's column coordinate. -/
theorem nt_rhs_free (j : (⟨2, ![M, N]⟩ : Shape).Idx) (q : (dimsNT wf).contr.Idx) :
    ((dimsNT wf).rhsIdx j q 0).val = (j 1).val := by
  unfold DotDims.rhsIdx
  rw [dif_neg (show ¬(0 : Fin 2) ∈ (dimsNT wf).rhsBatch from List.not_mem_nil),
    dif_pos (show (0 : Fin 2) ∈ (dimsNT wf).rhsNonContracting from List.mem_singleton.mpr rfl)]
  rfl

/-- Entry (e, o) of the product into a zero accumulator: row e of the left operand against row o of the right one. -/
theorem dimsNT_matmul_zero_apply {φ₁ φ₂ : FTy} (prec : Option ContractPrecision)
    (x : FVec Ideal ⟨2, ![M, K]⟩ φ₁) (y : FVec Ideal ⟨2, ![N, K]⟩ φ₂) (e : Fin M) (o : Fin N) :
    FloatOps.matmul (dimsNT wf) prec x y (constant ⟨2, ![M, N]⟩ .f32 0x00000000#32) (ix2 e o)
      = ∑ r : Fin K, x (ix2 e r) * y (ix2 o r) := by
  rw [Ideal.matmul_constant_zero_apply,
    ← Equiv.sum_comp (contrEquiv1 (dimsNT wf) K rfl rfl).symm]
  refine Finset.sum_congr rfl fun k _ => ?_
  have hk := contrEquiv1_symm_val (dimsNT wf) K rfl rfl k
  have el : (dimsNT wf).lhsIdx (ix2 e o)
      ((contrEquiv1 (dimsNT wf) K rfl rfl).symm k) = ix2 e k := funext fun a => Fin.ext (by
    match a with
    | ⟨0, _⟩ => exact nt_lhs_free wf _ _
    | ⟨1, _⟩ => exact ((dimsNT wf).lhsIdx_val_of_single rfl _ _).trans hk)
  have er : (dimsNT wf).rhsIdx (ix2 e o)
      ((contrEquiv1 (dimsNT wf) K rfl rfl).symm k) = ix2 o k := funext fun a => Fin.ext (by
    match a with
    | ⟨0, _⟩ => exact nt_rhs_free wf _ _
    | ⟨1, _⟩ => exact ((dimsNT wf).rhsIdx_val_of_single rfl _ _).trans hk)
  rw [el, er]

/-- The same for any dimension numbers whose six lists are those. -/
theorem matmulNT {φ₁ φ₂ : FTy} (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (x : FVec Ideal ⟨2, ![M, K]⟩ φ₁) (y : FVec Ideal ⟨2, ![N, K]⟩ φ₂)
    (e : Fin M) (o : Fin N) :
    FloatOps.matmul D prec x y (constant ⟨2, ![M, N]⟩ .f32 0x00000000#32) (ix2 e o)
      = ∑ r : Fin K, x (ix2 e r) * y (ix2 o r) := by
  obtain ⟨lc, rc, ln, rn, lb, rb, wf⟩ := D
  simp only at hlc hrc hln hrn hlb hrb
  subst hlc hrc hln hrn hlb hrb
  exact dimsNT_matmul_zero_apply wf prec x y e o

end NT

/-! ## The plain product -/

section NN

variable {K M N : ℕ}

/-- The dimension numbers contracting the left operand's second axis with the right operand's first. -/
abbrev dimsNN (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

/-- The left operand's first coordinate is the output's row coordinate, -/
theorem nn_lhs_free (j : (⟨2, ![M, N]⟩ : Shape).Idx) (q : (dimsNN wf).contr.Idx) :
    ((dimsNN wf).lhsIdx j q 0).val = (j 0).val := by
  unfold DotDims.lhsIdx
  rw [dif_neg (show ¬(0 : Fin 2) ∈ (dimsNN wf).lhsBatch from List.not_mem_nil),
    dif_pos (show (0 : Fin 2) ∈ (dimsNN wf).lhsNonContracting from List.mem_singleton.mpr rfl)]
  rfl

/-- and the right operand's second coordinate is the output's column coordinate. -/
theorem nn_rhs_free (j : (⟨2, ![M, N]⟩ : Shape).Idx) (q : (dimsNN wf).contr.Idx) :
    ((dimsNN wf).rhsIdx j q 1).val = (j 1).val := by
  unfold DotDims.rhsIdx
  rw [dif_neg (show ¬(1 : Fin 2) ∈ (dimsNN wf).rhsBatch from List.not_mem_nil),
    dif_pos (show (1 : Fin 2) ∈ (dimsNN wf).rhsNonContracting from List.mem_singleton.mpr rfl)]
  rfl

/-- Entry (e, o) of the product into a zero accumulator: row e of the left operand against column o of the right one. -/
theorem dimsNN_matmul_zero_apply {φ₁ φ₂ : FTy} (prec : Option ContractPrecision)
    (x : FVec Ideal ⟨2, ![M, K]⟩ φ₁) (y : FVec Ideal ⟨2, ![K, N]⟩ φ₂) (e : Fin M) (o : Fin N) :
    FloatOps.matmul (dimsNN wf) prec x y (constant ⟨2, ![M, N]⟩ .f32 0x00000000#32) (ix2 e o)
      = ∑ r : Fin K, x (ix2 e r) * y (ix2 r o) := by
  rw [Ideal.matmul_constant_zero_apply,
    ← Equiv.sum_comp (contrEquiv1 (dimsNN wf) K rfl rfl).symm]
  refine Finset.sum_congr rfl fun k _ => ?_
  have hk := contrEquiv1_symm_val (dimsNN wf) K rfl rfl k
  have el : (dimsNN wf).lhsIdx (ix2 e o)
      ((contrEquiv1 (dimsNN wf) K rfl rfl).symm k) = ix2 e k := funext fun a => Fin.ext (by
    match a with
    | ⟨0, _⟩ => exact nn_lhs_free wf _ _
    | ⟨1, _⟩ => exact ((dimsNN wf).lhsIdx_val_of_single rfl _ _).trans hk)
  have er : (dimsNN wf).rhsIdx (ix2 e o)
      ((contrEquiv1 (dimsNN wf) K rfl rfl).symm k) = ix2 k o := funext fun a => Fin.ext (by
    match a with
    | ⟨0, _⟩ => exact ((dimsNN wf).rhsIdx_val_of_single rfl _ _).trans hk
    | ⟨1, _⟩ => exact nn_rhs_free wf _ _)
  rw [el, er]

/-- The same for any dimension numbers whose six lists are those. -/
theorem matmulNN {φ₁ φ₂ : FTy} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![M, K]⟩ φ₁) (y : FVec Ideal ⟨2, ![K, N]⟩ φ₂)
    (e : Fin M) (o : Fin N) :
    FloatOps.matmul D prec x y (constant ⟨2, ![M, N]⟩ .f32 0x00000000#32) (ix2 e o)
      = ∑ r : Fin K, x (ix2 e r) * y (ix2 r o) := by
  obtain ⟨lc, rc, ln, rn, lb, rb, wf⟩ := D
  simp only at hlc hrc hln hrn hlb hrb
  subst hlc hrc hln hrn hlb hrb
  exact dimsNN_matmul_zero_apply wf prec x y e o

end NN

end Cert.LibRowReduceProducts

end
-- ==== Proof.LibSliceProducts.lean ====
/-
  Products of slices, read at an index at the ideal (extended real) values and generic in the extents.

  A rank-3 array gx of extents [B, N, F] holds, for each of B rows, an N-by-F matrix; a rank-3 array w of extents
  [N, F, J] holds an F-indexed family of N-by-J matrices.

  * sliceColumn_apply — the unit-stride slice of gx keeping ONE column f (extents [B, N, 1]) re-read as a [B, N] array:
                        entry (b, n) is gx (b, n, f);
  * slicePlane_apply  — the slice of w keeping ONE plane f (extents [N, 1, J]) re-read as an [N, J] array: entry (n, j)
                        is w (n, f, j);
  * sliceDot_apply    — the plain product of those two into a zero accumulator: entry (b, j) is the sum over n of
                        gx (b, n, f) * w (n, f, j);
  * batchedProduct    — the product of an [B, N, K] array with a [B, K, F] array, row by row of the leading axis, into
                        a zero accumulator: entry (b, n, f) is the sum over m of l (b, n, m) * r (b, m, f).
-/
import Idealize.ShloMosaic.PureOps.Ideal.Laws
import Idealize.ShloMosaic.Lib.Pipeline.Value
import Idealize.ShloMosaic.Lib.ValueIdx
import proofs.«123606_j63127429317304_2_alg».proof.Proof.LibRowReduceProducts

noncomputable section

open scoped BigOperators

namespace Cert.LibSliceProducts

open Idealize.ShloMosaic Idealize.ShloMosaic.ValueIdx

/-! ## Slices that keep one column or one plane -/

section Slices

variable {α : Type} {B N F J : ℕ}

/-- Column f of every row's matrix, as a [B, N] array. -/
theorem sliceColumn_apply (f : ℕ) (hf : f < F) (gx : (⟨3, ![B, N, F]⟩ : Shape).Idx → α)
    (hs : Shape.Slices ⟨3, ![B, N, F]⟩ ![0, 0, f] ⟨3, ![B, N, 1]⟩)
    (hc : Shape.ShapeCasts ⟨3, ![B, N, 1]⟩ ⟨2, ![B, N]⟩) (b : Fin B) (n : Fin N) :
    shapeCast ⟨2, ![B, N]⟩ (extractStridedSlice ⟨3, ![B, N, 1]⟩ ![0, 0, f] gx hs) hc (ix2 b n)
      = gx (ix3 b n ⟨f, hf⟩) := by
  refine (shapeCast_apply _ hc (ix2 b n) (ix3 b n (0 : Fin 1)) ?_).trans ?_
  · rw [Shape.rowMajor_val_three, Shape.rowMajor_val_two]
    show (b.val * N + n.val) * 1 + 0 = b.val * N + n.val
    rw [Nat.mul_one, Nat.add_zero]
  · refine extractStridedSlice_apply _ gx hs _ (ix3 b n ⟨f, hf⟩) fun a => ?_
    match a with
    | ⟨0, _⟩ => show b.val = 0 + b.val; omega
    | ⟨1, _⟩ => show n.val = 0 + n.val; omega
    | ⟨2, _⟩ => show f = f + 0; omega

/-- Plane f of the family of matrices, as an [N, J] array. -/
theorem slicePlane_apply (f : ℕ) (hf : f < F) (w : (⟨3, ![N, F, J]⟩ : Shape).Idx → α)
    (hs : Shape.Slices ⟨3, ![N, F, J]⟩ ![0, f, 0] ⟨3, ![N, 1, J]⟩)
    (hc : Shape.ShapeCasts ⟨3, ![N, 1, J]⟩ ⟨2, ![N, J]⟩) (n : Fin N) (j : Fin J) :
    shapeCast ⟨2, ![N, J]⟩ (extractStridedSlice ⟨3, ![N, 1, J]⟩ ![0, f, 0] w hs) hc (ix2 n j)
      = w (ix3 n ⟨f, hf⟩ j) := by
  refine (shapeCast_apply _ hc (ix2 n j) (ix3 n (0 : Fin 1) j) ?_).trans ?_
  · rw [Shape.rowMajor_val_three, Shape.rowMajor_val_two]
    show (n.val * 1 + 0) * J + j.val = n.val * J + j.val
    rw [Nat.mul_one, Nat.add_zero]
  · refine extractStridedSlice_apply _ w hs _ (ix3 n ⟨f, hf⟩ j) fun a => ?_
    match a with
    | ⟨0, _⟩ => show n.val = 0 + n.val; omega
    | ⟨1, _⟩ => show f = f + 0; omega
    | ⟨2, _⟩ => show j.val = 0 + j.val; omega

end Slices

/-! ## The product of a column slice with a plane slice -/

/-- Entry (b, j) of the product of column f of gx with plane f of w, into a zero accumulator. -/
theorem sliceDot_apply {B N F J : ℕ} (f : ℕ) (hf : f < F)
    (D : DotDims ⟨2, ![B, N]⟩ ⟨2, ![N, J]⟩ ⟨2, ![B, J]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision)
    (gx : FVec Ideal ⟨3, ![B, N, F]⟩ .f32) (w : FVec Ideal ⟨3, ![N, F, J]⟩ .f32)
    (hgs : Shape.Slices ⟨3, ![B, N, F]⟩ ![0, 0, f] ⟨3, ![B, N, 1]⟩)
    (hgc : Shape.ShapeCasts ⟨3, ![B, N, 1]⟩ ⟨2, ![B, N]⟩)
    (hws : Shape.Slices ⟨3, ![N, F, J]⟩ ![0, f, 0] ⟨3, ![N, 1, J]⟩)
    (hwc : Shape.ShapeCasts ⟨3, ![N, 1, J]⟩ ⟨2, ![N, J]⟩) (b : Fin B) (j : Fin J) :
    FloatOps.matmul D prec
        (shapeCast ⟨2, ![B, N]⟩ (extractStridedSlice ⟨3, ![B, N, 1]⟩ ![0, 0, f] gx hgs) hgc : FVec Ideal ⟨2, ![B, N]⟩ .f32)
        (shapeCast ⟨2, ![N, J]⟩ (extractStridedSlice ⟨3, ![N, 1, J]⟩ ![0, f, 0] w hws) hwc : FVec Ideal ⟨2, ![N, J]⟩ .f32)
        (constant ⟨2, ![B, J]⟩ .f32 0x00000000#32) (ix2 b j)
      = ∑ n : Fin N, gx (ix3 b n ⟨f, hf⟩) * w (ix3 n ⟨f, hf⟩ j) := by
  rw [Cert.LibRowReduceProducts.matmulNN D hlc hrc hln hrn hlb hrb]
  exact Finset.sum_congr rfl fun n _ => by rw [sliceColumn_apply f hf gx hgs hgc b n, slicePlane_apply f hf w hws hwc n j]

/-! ## The product row by row of a leading axis -/

section Batched

variable {B N K F : ℕ}

/-- The dimension numbers contracting the left operand's last axis with the right operand's middle axis, the leading
    axes paired. -/
abbrev dimsBatched (wf : DotDims.WF ⟨3, ![B, N, K]⟩ ⟨3, ![B, K, F]⟩ ⟨3, ![B, N, F]⟩ [2] [1] [1] [2] [0] [0]) :
    DotDims ⟨3, ![B, N, K]⟩ ⟨3, ![B, K, F]⟩ ⟨3, ![B, N, F]⟩ := ⟨[2], [1], [1], [2], [0], [0], wf⟩

variable (wf : DotDims.WF ⟨3, ![B, N, K]⟩ ⟨3, ![B, K, F]⟩ ⟨3, ![B, N, F]⟩ [2] [1] [1] [2] [0] [0])

theorem batched_lhs_0 (i : (⟨3, ![B, N, F]⟩ : Shape).Idx) (q : (dimsBatched wf).contr.Idx) :
    ((dimsBatched wf).lhsIdx i q 0).val = (i 0).val := by
  unfold DotDims.lhsIdx
  rw [dif_pos (show (0 : Fin 3) ∈ (dimsBatched wf).lhsBatch from List.mem_singleton.mpr rfl)]
  rfl

theorem batched_lhs_1 (i : (⟨3, ![B, N, F]⟩ : Shape).Idx) (q : (dimsBatched wf).contr.Idx) :
    ((dimsBatched wf).lhsIdx i q 1).val = (i 1).val := by
  unfold DotDims.lhsIdx
  rw [dif_neg (show ¬(1 : Fin 3) ∈ (dimsBatched wf).lhsBatch from (by decide : ¬(1 : Fin 3) ∈ ([0] : List (Fin 3)))),
    dif_pos (show (1 : Fin 3) ∈ (dimsBatched wf).lhsNonContracting from List.mem_singleton.mpr rfl)]
  rfl

theorem batched_rhs_0 (i : (⟨3, ![B, N, F]⟩ : Shape).Idx) (q : (dimsBatched wf).contr.Idx) :
    ((dimsBatched wf).rhsIdx i q 0).val = (i 0).val := by
  unfold DotDims.rhsIdx
  rw [dif_pos (show (0 : Fin 3) ∈ (dimsBatched wf).rhsBatch from List.mem_singleton.mpr rfl)]
  rfl

theorem batched_rhs_2 (i : (⟨3, ![B, N, F]⟩ : Shape).Idx) (q : (dimsBatched wf).contr.Idx) :
    ((dimsBatched wf).rhsIdx i q 2).val = (i 2).val := by
  unfold DotDims.rhsIdx
  rw [dif_neg (show ¬(2 : Fin 3) ∈ (dimsBatched wf).rhsBatch from (by decide : ¬(2 : Fin 3) ∈ ([0] : List (Fin 3)))),
    dif_pos (show (2 : Fin 3) ∈ (dimsBatched wf).rhsNonContracting from List.mem_singleton.mpr rfl)]
  rfl

/-- Entry (b, n, f) of the row-by-row product into a zero accumulator. -/
theorem dimsBatched_matmul_zero_apply {φ₁ φ₂ : FTy} (prec : Option ContractPrecision)
    (l : FVec Ideal ⟨3, ![B, N, K]⟩ φ₁) (r : FVec Ideal ⟨3, ![B, K, F]⟩ φ₂) (b : Fin B) (n : Fin N) (f : Fin F) :
    FloatOps.matmul (dimsBatched wf) prec l r (constant ⟨3, ![B, N, F]⟩ .f32 0x00000000#32) (ix3 b n f)
      = ∑ m : Fin K, l (ix3 b n m) * r (ix3 b m f) := by
  rw [Ideal.matmul_constant_zero_apply,
    ← Equiv.sum_comp (contrEquiv1 (dimsBatched wf) K rfl rfl).symm]
  refine Finset.sum_congr rfl fun k _ => ?_
  have hk := contrEquiv1_symm_val (dimsBatched wf) K rfl rfl k
  have el : (dimsBatched wf).lhsIdx (ix3 b n f)
      ((contrEquiv1 (dimsBatched wf) K rfl rfl).symm k) = ix3 b n k := funext fun a => Fin.ext (by
    match a with
    | ⟨0, _⟩ => exact batched_lhs_0 wf _ _
    | ⟨1, _⟩ => exact batched_lhs_1 wf _ _
    | ⟨2, _⟩ => exact ((dimsBatched wf).lhsIdx_val_of_single rfl _ _).trans hk)
  have er : (dimsBatched wf).rhsIdx (ix3 b n f)
      ((contrEquiv1 (dimsBatched wf) K rfl rfl).symm k) = ix3 b k f := funext fun a => Fin.ext (by
    match a with
    | ⟨0, _⟩ => exact batched_rhs_0 wf _ _
    | ⟨1, _⟩ => exact ((dimsBatched wf).rhsIdx_val_of_single rfl _ _).trans hk
    | ⟨2, _⟩ => exact batched_rhs_2 wf _ _)
  rw [el, er]

/-- The same for any dimension numbers whose six lists are those. -/
theorem batchedProduct {φ₁ φ₂ : FTy} (D : DotDims ⟨3, ![B, N, K]⟩ ⟨3, ![B, K, F]⟩ ⟨3, ![B, N, F]⟩)
    (hlc : D.lhsContracting = [2]) (hrc : D.rhsContracting = [1]) (hln : D.lhsNonContracting = [1])
    (hrn : D.rhsNonContracting = [2]) (hlb : D.lhsBatch = [0]) (hrb : D.rhsBatch = [0])
    (prec : Option ContractPrecision) (l : FVec Ideal ⟨3, ![B, N, K]⟩ φ₁) (r : FVec Ideal ⟨3, ![B, K, F]⟩ φ₂)
    (b : Fin B) (n : Fin N) (f : Fin F) :
    FloatOps.matmul D prec l r (constant ⟨3, ![B, N, F]⟩ .f32 0x00000000#32) (ix3 b n f)
      = ∑ m : Fin K, l (ix3 b n m) * r (ix3 b m f) := by
  obtain ⟨lc, rc, ln, rn, lb, rb, wf⟩ := D
  simp only at hlc hrc hln hrn hlb hrb
  subst hlc hrc hln hrn hlb hrb
  exact dimsBatched_matmul_zero_apply wf prec l r b n f

end Batched

end Cert.LibSliceProducts

end
-- ==== Proof.FlatSums.lean ====
/-
  Two re-arrangements of finite sums in a commutative additive monoid (used at the extended reals, where addition is
  commutative and associative with no finiteness assumption).

  * An accumulator that starts at zero and adds sixteen terms one after the other, T 0 first, ends at the sum of T
    over the sixteen indices.
  * A sum over 2048 = 128 * 16 positions, position k read as the pair (k / 16, k % 16), is the double sum over the
    sixteen second coordinates and the 128 first coordinates.
-/
import Mathlib.Algebra.BigOperators.Fin
import Mathlib.Data.EReal.Basic

open scoped BigOperators

namespace Cert.FlatSums

variable {β : Type} [AddCommMonoid β]

/-- Sixteen terms added one at a time onto zero: the sum over the sixteen indices. -/
theorem accumulate16 (T : Fin 16 → β) :
    0 + T 0 + T 1 + T 2 + T 3 + T 4 + T 5 + T 6 + T 7 + T 8 + T 9 + T 10 + T 11 + T 12 + T 13 + T 14 + T 15
      = ∑ f : Fin 16, T f := by
  simp only [Fin.sum_univ_castSucc, Fin.sum_univ_zero]
  rfl

/-- Position n * 16 + f of a row of 2048 entries, for n below 128 and f below 16. -/
def flatPos (n : Fin 128) (f : Fin 16) : Fin 2048 := ⟨n.val * 16 + f.val, by have := n.isLt; have := f.isLt; omega⟩

/-- The positions of a row of 2048 entries are the pairs (n, f). -/
def flatEquiv : Fin 128 × Fin 16 ≃ Fin 2048 where
  toFun p := flatPos p.1 p.2
  invFun k := (⟨k.val / 16, by have := k.isLt; omega⟩, ⟨k.val % 16, Nat.mod_lt _ (by decide)⟩)
  left_inv p := by
    obtain ⟨n, f⟩ := p
    have hn := n.isLt; have hf := f.isLt
    refine Prod.ext (Fin.ext ?_) (Fin.ext ?_)
    · show (n.val * 16 + f.val) / 16 = n.val
      omega
    · show (n.val * 16 + f.val) % 16 = f.val
      omega
  right_inv k := Fin.ext (by
    show k.val / 16 * 16 + k.val % 16 = k.val
    omega)

/-- A sum over the 2048 positions is the double sum over f and n of the entry at position n * 16 + f. -/
theorem sum_flat (h : Fin 2048 → β) : (∑ k : Fin 2048, h k) = ∑ f : Fin 16, ∑ n : Fin 128, h (flatPos n f) := by
  rw [← Equiv.sum_comp flatEquiv h, Fintype.sum_prod_type, Finset.sum_comm]
  rfl

end Cert.FlatSums
-- ==== Proof.LibConcatProduct.lean ====
/-
  A matrix product whose left operand is three arrays laid side by side, generic in the extents.

  Laying three [M, K] arrays a, b, c side by side along the columns gives an [M, 3K] array whose entry (r, j) is
  a (r, j), b (r, j - K) or c (r, j - 2K) according to the third of the columns j falls in. Its product with a [3K, N]
  matrix w therefore splits, entry by entry, into the sum of the three products of a, b and c with the three blocks of K
  rows of w: a sum over 3K indices is the sum over the first K, plus the sum over the next K, plus the sum over the last K.
  No finiteness is needed: only associativity of addition of extended reals is used.
-/
import Idealize.ShloMosaic.PureOps.Ideal.Laws
import Idealize.ShloMosaic.Lib.Pipeline.Value
import Idealize.ShloMosaic.Lib.ValueIdx

noncomputable section

open scoped BigOperators

namespace Cert.LibConcatProduct

open Idealize.ShloMosaic Idealize.ShloMosaic.ValueIdx

variable {α : Type} {M K : ℕ}

/-- The list of the three pieces. -/
abbrev pieces (a b c : (⟨2, ![M, K]⟩ : Shape).Idx → α) : List ((s : Shape) × (s.Idx → α)) :=
  [⟨⟨2, ![M, K]⟩, a⟩, ⟨⟨2, ![M, K]⟩, b⟩, ⟨⟨2, ![M, K]⟩, c⟩]

section Pieces

variable {K3 : ℕ} (a b c : (⟨2, ![M, K]⟩ : Shape).Idx → α)
  (h : Shape.Concatenates ((pieces a b c).map (·.1)) ⟨2, ![M, K3]⟩ (1 : Fin 2))

/-- A column in the first third reads the first piece. -/
theorem concat3_first (r : Fin M) (k : Fin K) (k' : Fin K3) (hk : k'.val = k.val) :
    concatenate ⟨2, ![M, K3]⟩ (1 : Fin 2) (pieces a b c) h (ix2 r k') = a (ix2 r k) := by
  refine concatenate_apply_piece (1 : Fin 2) (pieces a b c) h (ix2 r k') 0 (by show (0 : ℕ) < 3; decide) ⟨2, ![M, K]⟩ a rfl rfl 0 rfl
    (ix2 r k) (fun d hd => ?_) ?_
  · match d with
    | ⟨0, _⟩ => rfl
    | ⟨1, _⟩ => exact absurd rfl hd
  · show 0 + k.val = k'.val
    omega

/-- A column in the middle third reads the second piece. -/
theorem concat3_second (r : Fin M) (k : Fin K) (k' : Fin K3) (hk : k'.val = K + k.val) :
    concatenate ⟨2, ![M, K3]⟩ (1 : Fin 2) (pieces a b c) h (ix2 r k') = b (ix2 r k) := by
  refine concatenate_apply_piece (1 : Fin 2) (pieces a b c) h (ix2 r k') 1 (by show (1 : ℕ) < 3; decide) ⟨2, ![M, K]⟩ b rfl rfl K rfl
    (ix2 r k) (fun d hd => ?_) ?_
  · match d with
    | ⟨0, _⟩ => rfl
    | ⟨1, _⟩ => exact absurd rfl hd
  · show K + k.val = k'.val
    omega

/-- A column in the last third reads the third piece. -/
theorem concat3_third (r : Fin M) (k : Fin K) (k' : Fin K3) (hk : k'.val = K + K + k.val) :
    concatenate ⟨2, ![M, K3]⟩ (1 : Fin 2) (pieces a b c) h (ix2 r k') = c (ix2 r k) := by
  refine concatenate_apply_piece (1 : Fin 2) (pieces a b c) h (ix2 r k') 2 (by show (2 : ℕ) < 3; decide) ⟨2, ![M, K]⟩ c rfl rfl (K + K) rfl
    (ix2 r k) (fun d hd => ?_) ?_
  · match d with
    | ⟨0, _⟩ => rfl
    | ⟨1, _⟩ => exact absurd rfl hd
  · show K + K + k.val = k'.val
    omega

end Pieces

/-- A sum over 3K indices is the sum over the first K, plus the next K, plus the last K. -/
theorem sum_thirds {β : Type} [AddCommMonoid β] (f : Fin (K + K + K) → β) :
    (∑ j : Fin (K + K + K), f j)
      = ((∑ k : Fin K, f (Fin.castAdd K (Fin.castAdd K k))) + ∑ k : Fin K, f (Fin.castAdd K (Fin.natAdd K k)))
        + ∑ k : Fin K, f (Fin.natAdd (K + K) k) := by
  rw [Fin.sum_univ_add, Fin.sum_univ_add]

/-- The product of three arrays laid side by side with a matrix of 3K rows, at (r, col): the three products with the
    three blocks of K rows (`wi`, `wj`, `we`: any arrays holding those blocks). -/
theorem concat3_dot_apply {N K3 : ℕ} (hK3 : K3 = K + K + K) (a b c : (⟨2, ![M, K]⟩ : Shape).Idx → EReal)
    (h : Shape.Concatenates ((pieces a b c).map (·.1)) ⟨2, ![M, K3]⟩ (1 : Fin 2))
    (w : (⟨2, ![K3, N]⟩ : Shape).Idx → EReal) (wi wj we : (⟨2, ![K, N]⟩ : Shape).Idx → EReal)
    (hwi : ∀ (k : Fin K) (k' : Fin K3) (col : Fin N), k'.val = k.val → w (ix2 k' col) = wi (ix2 k col))
    (hwj : ∀ (k : Fin K) (k' : Fin K3) (col : Fin N), k'.val = K + k.val → w (ix2 k' col) = wj (ix2 k col))
    (hwe : ∀ (k : Fin K) (k' : Fin K3) (col : Fin N), k'.val = K + K + k.val → w (ix2 k' col) = we (ix2 k col))
    (r : Fin M) (col : Fin N) :
    (∑ k' : Fin K3, concatenate ⟨2, ![M, K3]⟩ (1 : Fin 2) (pieces a b c) h (ix2 r k') * w (ix2 k' col))
      = ((∑ k : Fin K, a (ix2 r k) * wi (ix2 k col)) + ∑ k : Fin K, b (ix2 r k) * wj (ix2 k col))
        + ∑ k : Fin K, c (ix2 r k) * we (ix2 k col) := by
  subst hK3
  rw [sum_thirds]
  congr 1
  · congr 1
    · refine Finset.sum_congr rfl fun k _ => ?_
      rw [concat3_first a b c h r k _ (by simp only [Fin.coe_castAdd, Fin.coe_natAdd]), hwi k _ col (by simp only [Fin.coe_castAdd, Fin.coe_natAdd])]
    · refine Finset.sum_congr rfl fun k _ => ?_
      rw [concat3_second a b c h r k _ (by simp only [Fin.coe_castAdd, Fin.coe_natAdd]), hwj k _ col (by simp only [Fin.coe_castAdd, Fin.coe_natAdd])]
  · refine Finset.sum_congr rfl fun k _ => ?_
    rw [concat3_third a b c h r k _ (by simp only [Fin.coe_castAdd, Fin.coe_natAdd]), hwe k _ col (by simp only [Fin.coe_castAdd, Fin.coe_natAdd])]

end Cert.LibConcatProduct

end
-- ==== Proof.RowNetwork.lean ====
/-
  The spiking network of this certificate, ONE BATCH ROW AT A TIME, on the extended reals.

  Every output at batch row b depends only on row b of the batched inputs and on the (unbatched) weight matrices, so the
  whole computation is a function of one row's data:

    cur, mem : a 128-by-16 matrix each (the node features' input current and membrane),
    L        : a 128-by-128 matrix (the normalised graph operator of the row),
    ms, m1, m2, m3 : 16 numbers each, mo : 8 numbers (the later layers' membranes),
    Ws : [2048, 16], Wg : [2048, 8], Wk : [16, 8], Wo : [48, 8] (weights).

  One leaky integrate-and-fire step with leak beta and threshold theta maps a membrane and an input to
    u = max (mem * beta + x, -2),   spike = 1 if u - theta > 0 else 0,   new membrane = u - spike * theta.

  The layers: the encoder step on (mem, cur) entry by entry; gx = L * spikes (a 128-by-16 matrix); the 2048 entries of gx,
  entry (n, f) at position n * 16 + f, contracted with Ws and with Wg; a step on ms; three steps with different leaks and
  thresholds on m1, m2, m3 fed by the same spikes, their spikes laid side by side (48 numbers); and the output step on mo
  fed by (the 48 spikes * Wo + the 2048 entries of gx * Wg) + the 16 spikes * Wk, added in that order.

  Float literals are kept as their 32-bit words: both programs spell the same words, so none is ever evaluated.
-/
import Idealize.ShloMosaic.PureOps.Ideal.Laws
import Idealize.ShloMosaic.Lib.ValueIdx
import proofs.«123606_j63127429317304_2_alg».proof.Proof.FlatSums
import proofs.«123606_j63127429317304_2_alg».proof.Proof.LibConcatProduct

noncomputable section

open scoped BigOperators

namespace Cert.RowNetwork

open Idealize.ShloMosaic Idealize.ShloMosaic.ValueIdx Cert.FlatSums

/-! ## One leaky integrate-and-fire step -/

/-- The membrane after leaking by beta, charging by x and clamping below at -2 (the word 0xC0000000). -/
def charge (β : BitVec 32) (mem x : EReal) : EReal :=
  max (mem * Ideal.ofBits .f32 β + x) (Ideal.ofBits .f32 0xC0000000#32)

/-- The spike: one (the word 0x3F800000) when u - theta is above zero, else zero. -/
def fire (θ : BitVec 32) (u : EReal) : EReal :=
  Scalar.select (Ideal.cmp .ogt (u - Ideal.ofBits .f32 θ) (Ideal.ofBits .f32 0x00000000#32))
    (Ideal.ofBits .f32 0x3F800000#32) (Ideal.ofBits .f32 0x00000000#32)

/-- The membrane after the soft reset: u - spike * theta. -/
def settle (θ : BitVec 32) (u : EReal) : EReal := u - fire θ u * Ideal.ofBits .f32 θ

/-! ## Three runs of sixteen numbers laid side by side -/

/-- Position k of 48 reads the first, second or third run according to the third k falls in. -/
def thirds {α : Type} (x y z : Fin 16 → α) (k : Fin 48) : α :=
  if h1 : k.val < 16 then x ⟨k.val, h1⟩
  else if h2 : k.val < 32 then y ⟨k.val - 16, by omega⟩
  else z ⟨k.val - 32, by have := k.isLt; omega⟩

/-- Three [M, 16] arrays joined along the columns, read at (r, k). -/
theorem concat_thirds {α : Type} {M : ℕ} (a b c : (⟨2, ![M, 16]⟩ : Shape).Idx → α)
    (h : Shape.Concatenates ((Cert.LibConcatProduct.pieces a b c).map (·.1)) ⟨2, ![M, 48]⟩ (1 : Fin 2)) (r : Fin M) (k : Fin 48) :
    concatenate ⟨2, ![M, 48]⟩ (1 : Fin 2) (Cert.LibConcatProduct.pieces a b c) h (ix2 r k)
      = thirds (fun j => a (ix2 r j)) (fun j => b (ix2 r j)) (fun j => c (ix2 r j)) k := by
  unfold thirds
  by_cases h1 : k.val < 16
  · rw [dif_pos h1]
    exact Cert.LibConcatProduct.concat3_first a b c h r ⟨k.val, h1⟩ k rfl
  · rw [dif_neg h1]
    by_cases h2 : k.val < 32
    · rw [dif_pos h2]
      exact Cert.LibConcatProduct.concat3_second a b c h r ⟨k.val - 16, by omega⟩ k (by show k.val = 16 + (k.val - 16); omega)
    · rw [dif_neg h2]
      exact Cert.LibConcatProduct.concat3_third a b c h r ⟨k.val - 32, by have := k.isLt; omega⟩ k
        (by show k.val = 16 + 16 + (k.val - 32); omega)

/-! ## The layers of one row -/

section Row

variable (cur mem : Fin 128 → Fin 16 → EReal) (L : Fin 128 → Fin 128 → EReal)
  (ms m1 m2 m3 : Fin 16 → EReal) (mo : Fin 8 → EReal)
  (Ws : (⟨2, ![2048, 16]⟩ : Shape).Idx → EReal) (Wg : (⟨2, ![2048, 8]⟩ : Shape).Idx → EReal)
  (Wk : (⟨2, ![16, 8]⟩ : Shape).Idx → EReal) (Wo : (⟨2, ![48, 8]⟩ : Shape).Idx → EReal)

/-- Encoder: charged membrane, spike, settled membrane at node n, feature f. -/
def encU (n : Fin 128) (f : Fin 16) : EReal := charge 0x3F4CCCCD#32 (mem n f) (cur n f)
def encSpk (n : Fin 128) (f : Fin 16) : EReal := fire 0x3F000000#32 (encU cur mem n f)
def encMem (n : Fin 128) (f : Fin 16) : EReal := settle 0x3F000000#32 (encU cur mem n f)

/-- Message passing: row n of L against column f of the spikes. -/
def gx (n : Fin 128) (f : Fin 16) : EReal := ∑ m : Fin 128, L n m * encSpk cur mem m f

/-- The 2048 entries of a 128-by-16 matrix, entry (n, f) at position n * 16 + f, against column j of a [2048, J] matrix. -/
def flatDot {J : ℕ} (g : Fin 128 → Fin 16 → EReal) (W : (⟨2, ![2048, J]⟩ : Shape).Idx → EReal) (j : Fin J) : EReal :=
  ∑ f : Fin 16, ∑ n : Fin 128, g n f * W (ix2 (flatPos n f) j)

/-- The first dense layer. -/
def sU (j : Fin 16) : EReal := charge 0x3F59999A#32 (ms j) (flatDot (gx cur mem L) Ws j)
def sSpk (j : Fin 16) : EReal := fire 0x3E99999A#32 (sU cur mem L ms Ws j)
def sMem (j : Fin 16) : EReal := settle 0x3E99999A#32 (sU cur mem L ms Ws j)

/-- A step fed by the first dense layer's spikes, leak beta, threshold theta, on the membrane mh. -/
def hU (β : BitVec 32) (mh : Fin 16 → EReal) (j : Fin 16) : EReal := charge β (mh j) (sSpk cur mem L ms Ws j)
def hSpk (β θ : BitVec 32) (mh : Fin 16 → EReal) (j : Fin 16) : EReal := fire θ (hU cur mem L ms Ws β mh j)
def hMem (β θ : BitVec 32) (mh : Fin 16 → EReal) (j : Fin 16) : EReal := settle θ (hU cur mem L ms Ws β mh j)

/-- The three steps' spikes side by side. -/
def hrSpk (k : Fin 48) : EReal :=
  thirds (hSpk cur mem L ms Ws 0x3F4CCCCD#32 0x3F000000#32 m1) (hSpk cur mem L ms Ws 0x3F666666#32 0x3E99999A#32 m2)
    (hSpk cur mem L ms Ws 0x3F733333#32 0x3E4CCCCD#32 m3) k

/-- The output layer's input current. -/
def outCur (o : Fin 8) : EReal :=
  ((∑ k : Fin 48, hrSpk cur mem L ms m1 m2 m3 Ws k * Wo (ix2 k o)) + flatDot (gx cur mem L) Wg o)
    + ∑ j : Fin 16, sSpk cur mem L ms Ws j * Wk (ix2 j o)

def oU (o : Fin 8) : EReal := charge 0x3F666666#32 (mo o) (outCur cur mem L ms m1 m2 m3 Ws Wg Wk Wo o)
def oSpk (o : Fin 8) : EReal := fire 0x3E99999A#32 (oU cur mem L ms m1 m2 m3 mo Ws Wg Wk Wo o)
def oMem (o : Fin 8) : EReal := settle 0x3E99999A#32 (oU cur mem L ms m1 m2 m3 mo Ws Wg Wk Wo o)

end Row

/-! ## Rows of batched arrays -/

/-- Row b of a [B, 128, K] array as a 128-by-K matrix. -/
def row3 {B K : ℕ} (x : (⟨3, ![B, 128, K]⟩ : Shape).Idx → EReal) (b : Fin B) : Fin 128 → Fin K → EReal := fun n f => x (ix3 b n f)

/-- Row b of a [B, K] array. -/
def row2 {B K : ℕ} (x : (⟨2, ![B, K]⟩ : Shape).Idx → EReal) (b : Fin B) : Fin K → EReal := fun j => x (ix2 b j)

/-! ## The ten result arrays, as functions of the twelve argument arrays

  Argument k of the programs is `ak`: a0 the input current, a1 the graph operator, a2 .. a7 the membranes of the
  encoder, the dense layer, the three parallel steps and the output layer, a8 and a9 the flat weights of the dense
  layer and of the skip connection, a10 and a11 the weights on the dense layer's spikes and on the 48 joined spikes. -/

section Arrays

variable (a0 a2 : (⟨3, ![2048, 128, 16]⟩ : Shape).Idx → EReal) (a1 : (⟨3, ![2048, 128, 128]⟩ : Shape).Idx → EReal)
  (a3 a4 a5 a6 a8 : (⟨2, ![2048, 16]⟩ : Shape).Idx → EReal) (a7 a9 : (⟨2, ![2048, 8]⟩ : Shape).Idx → EReal)
  (a10 : (⟨2, ![16, 8]⟩ : Shape).Idx → EReal) (a11 : (⟨2, ![48, 8]⟩ : Shape).Idx → EReal)

def arrEncMem : (⟨3, ![2048, 128, 16]⟩ : Shape).Idx → EReal :=
  fun i => encMem (row3 a0 (i 0)) (row3 a2 (i 0)) (i 1) (i 2)
def arrEncSpk : (⟨3, ![2048, 128, 16]⟩ : Shape).Idx → EReal :=
  fun i => encSpk (row3 a0 (i 0)) (row3 a2 (i 0)) (i 1) (i 2)
def arrSMem : (⟨2, ![2048, 16]⟩ : Shape).Idx → EReal := fun i => sMem (row3 a0 (i 0)) (row3 a2 (i 0)) (row3 a1 (i 0)) (row2 a3 (i 0)) a8 (i 1)
def arrSSpk : (⟨2, ![2048, 16]⟩ : Shape).Idx → EReal := fun i => sSpk (row3 a0 (i 0)) (row3 a2 (i 0)) (row3 a1 (i 0)) (row2 a3 (i 0)) a8 (i 1)
def arrHMem (β θ : BitVec 32) (ah : (⟨2, ![2048, 16]⟩ : Shape).Idx → EReal) : (⟨2, ![2048, 16]⟩ : Shape).Idx → EReal :=
  fun i => hMem (row3 a0 (i 0)) (row3 a2 (i 0)) (row3 a1 (i 0)) (row2 a3 (i 0)) a8 β θ (row2 ah (i 0)) (i 1)
def arrHrSpk : (⟨2, ![2048, 48]⟩ : Shape).Idx → EReal :=
  fun i => hrSpk (row3 a0 (i 0)) (row3 a2 (i 0)) (row3 a1 (i 0)) (row2 a3 (i 0)) (row2 a4 (i 0)) (row2 a5 (i 0)) (row2 a6 (i 0)) a8 (i 1)
def arrOMem : (⟨2, ![2048, 8]⟩ : Shape).Idx → EReal :=
  fun i => oMem (row3 a0 (i 0)) (row3 a2 (i 0)) (row3 a1 (i 0)) (row2 a3 (i 0)) (row2 a4 (i 0)) (row2 a5 (i 0)) (row2 a6 (i 0)) (row2 a7 (i 0)) a8 a9 a10 a11 (i 1)
def arrOSpk : (⟨2, ![2048, 8]⟩ : Shape).Idx → EReal :=
  fun i => oSpk (row3 a0 (i 0)) (row3 a2 (i 0)) (row3 a1 (i 0)) (row2 a3 (i 0)) (row2 a4 (i 0)) (row2 a5 (i 0)) (row2 a6 (i 0)) (row2 a7 (i 0)) a8 a9 a10 a11 (i 1)

end Arrays

end Cert.RowNetwork

end
-- ==== Proof.KernelStages.lean ====
/-
  The kernel body's stored values read at one entry of a block, at the ideal (extended real) values.

  A block holds 32 batch rows. Each stored value of the body is a function of the loaded blocks; read at row b of the
  block it is the row network (RowNetwork.lean) of row b of each loaded block. The stages, in the body's order:

  * the encoder's charged membrane, spike and settled membrane: entry by entry;
  * gx: row b's 128-by-128 block of L against row b's spikes;
  * the two contractions of gx's 2048 entries per row: the body adds, onto a zero accumulator and one f at a time for
    f = 0 .. 15, the product of column f of gx with plane f of the re-laid weights; sixteen terms added in order are the
    sum over f (FlatSums.accumulate16);
  * the dense layer, the three parallel steps, their spikes side by side, and the output layer: entry by entry, the two
    small products as sums over 48 and 16 indices.
-/
import proofs.«123606_j63127429317304_2_alg».proof.Proof.Gen.KernelIdeal.Skeleton
import proofs.«123606_j63127429317304_2_alg».proof.Proof.LibSliceProducts
import proofs.«123606_j63127429317304_2_alg».proof.Proof.RowNetwork

set_option maxRecDepth 16384

noncomputable section

open scoped BigOperators

namespace Cert.KernelStages

open Idealize.ShloMosaic Idealize.ShloMosaic.ValueIdx Cert.KernelIdeal Cert.KernelIdeal.Gen Cert.RowNetwork Cert.FlatSums

/-! ## The encoder, entry by entry -/

theorem encU_apply (v0 v1 : Vec Ideal S32x128x16 .f32) (b : Fin 32) (n : Fin 128) (f : Fin 16) :
    k0_pay1 (F := Ideal) v0 v1 (ix3 b n f) = encU (row3 v0 b) (row3 v1 b) n f := rfl

theorem encSpk_apply (v0 v1 : Vec Ideal S32x128x16 .f32) (b : Fin 32) (n : Fin 128) (f : Fin 16) :
    k0_pay2 (F := Ideal) v0 v1 (ix3 b n f) = encSpk (row3 v0 b) (row3 v1 b) n f := rfl

theorem encMem_apply (v0 v1 : Vec Ideal S32x128x16 .f32) (b : Fin 32) (n : Fin 128) (f : Fin 16) :
    k0_pay3 (F := Ideal) v0 v1 (ix3 b n f) = encMem (row3 v0 b) (row3 v1 b) n f := rfl

/-! ## Message passing -/

theorem gx_apply (v0 v1 : Vec Ideal S32x128x16 .f32) (v19 : Vec Ideal S32x128x128 .f32) (b : Fin 32) (n : Fin 128) (f : Fin 16) :
    k0_pay4 (F := Ideal) v0 v1 v19 (ix3 b n f) = gx (row3 v0 b) (row3 v1 b) (row3 v19 b) n f := by
  unfold k0_pay4
  exact Cert.LibSliceProducts.batchedProduct dot_S32x128x128_S32x128x16_S32x128x16_2_1_1_2_0_0 rfl rfl rfl rfl rfl rfl
    (some .fp32) v19 (k0_pay2 (F := Ideal) v0 v1) b n f

/-! ## One term of the contraction of gx's entries: column f of gx against plane f of the re-laid weights -/

/-- The term for f: the sum over the 128 nodes of gx (b, n, f) * w (n, f, j). -/
def term {J : ℕ} (g : (⟨3, ![32, 128, 16]⟩ : Shape).Idx → EReal) (w : (⟨3, ![128, 16, J]⟩ : Shape).Idx → EReal)
    (b : Fin 32) (j : Fin J) (f : Fin 16) : EReal := ∑ n : Fin 128, g (ix3 b n f) * w (ix3 n f j)

/-- Into the 16-wide layer. -/
theorem term16 (f : ℕ) (hf : f < 16) (g : FVec Ideal S32x128x16 .f32) (w : FVec Ideal S128x16x16 .f32)
    (hgs : Shape.Slices S32x128x16 ![0, 0, f] S32x128x1) (hws : Shape.Slices S128x16x16 ![0, f, 0] S128x1x16)
    (b : Fin 32) (j : Fin 16) :
    FloatOps.matmul dot_S32x128_S128x16_S32x16_1_0_0_1_n_n (some .fp32)
        (shapeCast S32x128 (extractStridedSlice S32x128x1 ![0, 0, f] g hgs) shapeCasts_S32x128x1_S32x128 : FVec Ideal S32x128 .f32)
        (shapeCast S128x16 (extractStridedSlice S128x1x16 ![0, f, 0] w hws) shapeCasts_S128x1x16_S128x16 : FVec Ideal S128x16 .f32)
        (constant S32x16 .f32 0x00000000#32) (ix2 b j)
      = term g w b j ⟨f, hf⟩ :=
  Cert.LibSliceProducts.sliceDot_apply f hf dot_S32x128_S128x16_S32x16_1_0_0_1_n_n rfl rfl rfl rfl rfl rfl (some .fp32) g w
    hgs shapeCasts_S32x128x1_S32x128 hws shapeCasts_S128x1x16_S128x16 b j

/-- Into the 8-wide skip connection. -/
theorem term8 (f : ℕ) (hf : f < 16) (g : FVec Ideal S32x128x16 .f32) (w : FVec Ideal S128x16x8 .f32)
    (hgs : Shape.Slices S32x128x16 ![0, 0, f] S32x128x1) (hws : Shape.Slices S128x16x8 ![0, f, 0] S128x1x8)
    (b : Fin 32) (j : Fin 8) :
    FloatOps.matmul dot_S32x128_S128x8_S32x8_1_0_0_1_n_n (some .fp32)
        (shapeCast S32x128 (extractStridedSlice S32x128x1 ![0, 0, f] g hgs) shapeCasts_S32x128x1_S32x128 : FVec Ideal S32x128 .f32)
        (shapeCast S128x8 (extractStridedSlice S128x1x8 ![0, f, 0] w hws) shapeCasts_S128x1x8_S128x8 : FVec Ideal S128x8 .f32)
        (constant S32x8 .f32 0x00000000#32) (ix2 b j)
      = term g w b j ⟨f, hf⟩ :=
  Cert.LibSliceProducts.sliceDot_apply f hf dot_S32x128_S128x8_S32x8_1_0_0_1_n_n rfl rfl rfl rfl rfl rfl (some .fp32) g w
    hgs shapeCasts_S32x128x1_S32x128 hws shapeCasts_S128x1x8_S128x8 b j

/-! ## Adding terms onto an accumulator -/

theorem add_eq {a a' c c' : EReal} (h1 : a = a') (h2 : c = c') : a + c = a' + c' := by rw [h1, h2]

/-- The zero accumulators the body starts from. -/
theorem zero16_apply (i : S32x16.Idx) : k0_pay5 (F := Ideal) i = 0 := Ideal.ofBits_zero_f32
theorem zero8_apply (i : S32x8.Idx) : k0_pay6 (F := Ideal) i = 0 := Ideal.ofBits_zero_f32

/-- The re-laid weights pass through a shape cast onto their own shape. -/
theorem relaid16_eq (v : Vec Ideal S128x16x16 .f32) : k0_pay7 (F := Ideal) v = v := shapeCast_self v _
theorem relaid8_eq (v : Vec Ideal S128x16x8 .f32) : k0_pay8 (F := Ideal) v = v := shapeCast_self v _

section Sixteen

variable (g : FVec Ideal S32x128x16 .f32) (w : FVec Ideal S128x16x16 .f32) (acc : FVec Ideal S32x16 .f32)
  (b : Fin 32) (j : Fin 16)

/-- Terms 0 .. 4 onto the accumulator. -/
theorem acc16_first : k0_pay15 (F := Ideal) g acc w (ix2 b j)
    = acc (ix2 b j) + term g w b j 0 + term g w b j 1 + term g w b j 2 + term g w b j 3 + term g w b j 4 := by
  unfold k0_pay15
  exact add_eq (add_eq (add_eq (add_eq (add_eq rfl (term16 0 (by decide) g w _ _ b j)) (term16 1 (by decide) g w _ _ b j))
    (term16 2 (by decide) g w _ _ b j)) (term16 3 (by decide) g w _ _ b j)) (term16 4 (by decide) g w _ _ b j)

/-- Terms 5 .. 9. -/
theorem acc16_second : k0_pay23 (F := Ideal) g w acc (ix2 b j)
    = acc (ix2 b j) + term g w b j 5 + term g w b j 6 + term g w b j 7 + term g w b j 8 + term g w b j 9 := by
  unfold k0_pay23
  exact add_eq (add_eq (add_eq (add_eq (add_eq rfl (term16 5 (by decide) g w _ _ b j)) (term16 6 (by decide) g w _ _ b j))
    (term16 7 (by decide) g w _ _ b j)) (term16 8 (by decide) g w _ _ b j)) (term16 9 (by decide) g w _ _ b j)

/-- Terms 10 .. 14. -/
theorem acc16_third : k0_pay31 (F := Ideal) g w acc (ix2 b j)
    = acc (ix2 b j) + term g w b j 10 + term g w b j 11 + term g w b j 12 + term g w b j 13 + term g w b j 14 := by
  unfold k0_pay31
  exact add_eq (add_eq (add_eq (add_eq (add_eq rfl (term16 10 (by decide) g w _ _ b j)) (term16 11 (by decide) g w _ _ b j))
    (term16 12 (by decide) g w _ _ b j)) (term16 13 (by decide) g w _ _ b j)) (term16 14 (by decide) g w _ _ b j)

/-- Term 15 onto the accumulator, then the dense layer's charge on the membrane ms. -/
theorem acc16_last (ms : Vec Ideal S32x16 .f32) : k0_pay35 (F := Ideal) g w acc ms (ix2 b j)
    = charge 0x3F59999A#32 (ms (ix2 b j)) (acc (ix2 b j) + term g w b j 15) := by
  unfold k0_pay35
  exact congrArg (fun z => charge 0x3F59999A#32 (ms (ix2 b j)) (acc (ix2 b j) + z)) (term16 15 (by decide) g w _ _ b j)

/-- All sixteen terms from zero: the sum over f. -/
theorem sU_block (ms : Vec Ideal S32x16 .f32) :
    k0_pay35 (F := Ideal) g w (k0_pay31 g w (k0_pay23 g w (k0_pay15 g (k0_pay5 (F := Ideal)) w))) ms (ix2 b j)
      = charge 0x3F59999A#32 (ms (ix2 b j)) (∑ f : Fin 16, term g w b j f) := by
  rw [acc16_last, acc16_third, acc16_second, acc16_first, zero16_apply]
  exact congrArg (charge 0x3F59999A#32 (ms (ix2 b j))) (accumulate16 (term g w b j))

end Sixteen

section Eight

variable (g : FVec Ideal S32x128x16 .f32) (w : Vec Ideal S128x16x8 .f32) (b : Fin 32) (o : Fin 8)

/-- Terms 0 .. 3 of the skip connection onto the accumulator. -/
theorem acc8_first (acc : FVec Ideal S32x8 .f32) : k0_pay13 (F := Ideal) g acc w (ix2 b o)
    = acc (ix2 b o) + term g (k0_pay8 (F := Ideal) w) b o 0 + term g (k0_pay8 (F := Ideal) w) b o 1
        + term g (k0_pay8 (F := Ideal) w) b o 2 + term g (k0_pay8 (F := Ideal) w) b o 3 := by
  unfold k0_pay13
  exact add_eq (add_eq (add_eq (add_eq rfl (term8 0 (by decide) g _ _ _ b o)) (term8 1 (by decide) g _ _ _ b o))
    (term8 2 (by decide) g _ _ _ b o)) (term8 3 (by decide) g _ _ _ b o)

/-- Term 4 by itself. -/
theorem acc8_term4 : k0_pay16 (F := Ideal) g w (ix2 b o) = term g (k0_pay8 (F := Ideal) w) b o 4 := by
  unfold k0_pay16
  exact term8 4 (by decide) g _ _ _ b o

variable (w' : FVec Ideal S128x16x8 .f32)

/-- The running sum plus term 4, then terms 5 .. 8. -/
theorem acc8_second (a4 t4 : FVec Ideal S32x8 .f32) : k0_pay21 (F := Ideal) g w' a4 t4 (ix2 b o)
    = a4 (ix2 b o) + t4 (ix2 b o) + term g w' b o 5 + term g w' b o 6 + term g w' b o 7 + term g w' b o 8 := by
  unfold k0_pay21
  exact add_eq (add_eq (add_eq (add_eq rfl (term8 5 (by decide) g w' _ _ b o)) (term8 6 (by decide) g w' _ _ b o))
    (term8 7 (by decide) g w' _ _ b o)) (term8 8 (by decide) g w' _ _ b o)

theorem acc8_term9 : k0_pay24 (F := Ideal) g w' (ix2 b o) = term g w' b o 9 := by
  unfold k0_pay24
  exact term8 9 (by decide) g w' _ _ b o

/-- The running sum plus term 9, then terms 10 .. 13. -/
theorem acc8_third (a9 t9 : FVec Ideal S32x8 .f32) : k0_pay29 (F := Ideal) g w' a9 t9 (ix2 b o)
    = a9 (ix2 b o) + t9 (ix2 b o) + term g w' b o 10 + term g w' b o 11 + term g w' b o 12 + term g w' b o 13 := by
  unfold k0_pay29
  exact add_eq (add_eq (add_eq (add_eq rfl (term8 10 (by decide) g w' _ _ b o)) (term8 11 (by decide) g w' _ _ b o))
    (term8 12 (by decide) g w' _ _ b o)) (term8 13 (by decide) g w' _ _ b o)

theorem acc8_term14 : k0_pay32 (F := Ideal) g w' (ix2 b o) = term g w' b o 14 := by
  unfold k0_pay32
  exact term8 14 (by decide) g w' _ _ b o

/-- The running sum plus term 14, then term 15. -/
theorem acc8_last (a14 t14 : FVec Ideal S32x8 .f32) : k0_pay34 (F := Ideal) g w' a14 t14 (ix2 b o)
    = a14 (ix2 b o) + t14 (ix2 b o) + term g w' b o 15 := by
  unfold k0_pay34
  exact add_eq rfl (term8 15 (by decide) g w' _ _ b o)

/-- All sixteen terms of the skip connection from zero: the sum over f. -/
theorem skip_block :
    k0_pay34 (F := Ideal) g (k0_pay8 (F := Ideal) w)
        (k0_pay29 g (k0_pay8 (F := Ideal) w)
          (k0_pay21 g (k0_pay8 (F := Ideal) w) (k0_pay13 g (k0_pay6 (F := Ideal)) w) (k0_pay16 g w))
          (k0_pay24 g (k0_pay8 (F := Ideal) w)))
        (k0_pay32 g (k0_pay8 (F := Ideal) w)) (ix2 b o)
      = ∑ f : Fin 16, term g w b o f := by
  rw [acc8_last, acc8_third, acc8_second, acc8_first, acc8_term4, acc8_term9, acc8_term14, zero8_apply, relaid8_eq]
  exact accumulate16 (term g w b o)

end Eight

end Cert.KernelStages

end
-- ==== Proof.KernelOutputs.lean ====
/-
  What the kernel body leaves in each output block, read at one entry: the row network (RowNetwork.lean) of row b of
  the loaded blocks.

  Each output block is ONE store of a computed value through the whole-block rectangle, and each load reads a whole
  block, so the block after the body IS the stored value of the loaded blocks. The stored values share their early
  stages (gx, the running sums, the dense layer's spikes); they are named once below.

  The re-laid weights: the body reads W_s as a [128, 16, 16] array ws3 and W_skip_gx as a [128, 16, 8] array wg3; the
  hypotheses hs and hg say that entry (n, f, j) of each is entry (n * 16 + f, j) of the flat weight matrix.
-/
import proofs.«123606_j63127429317304_2_alg».proof.Proof.Gen.KernelIdeal.Frame
import proofs.«123606_j63127429317304_2_alg».proof.Proof.KernelStages

set_option maxRecDepth 16384

noncomputable section

open scoped BigOperators

namespace Cert.KernelOutputs

open Idealize.ShloMosaic Idealize.ShloMosaic.ValueIdx Cert.KernelIdeal Cert.KernelIdeal.Gen Cert.RowNetwork Cert.FlatSums
  Cert.KernelStages

/-! ## Whole-block loads and stores -/

theorem zeros3 : (![0, 0, 0] : Fin 3 → Nat) = fun _ => 0 := funext fun a => by
  match a with | ⟨0, _⟩ => rfl | ⟨1, _⟩ => rfl | ⟨2, _⟩ => rfl
theorem zeros2 : (![0, 0] : Fin 2 → Nat) = fun _ => 0 := funext fun a => by
  match a with | ⟨0, _⟩ => rfl | ⟨1, _⟩ => rfl

/-! ## The shared stages, as functions of the loaded blocks -/

section Shared

variable (x0 : Vec Ideal S32x128x16 .f32) (x1 : Vec Ideal S32x128x128 .f32) (x2 : Vec Ideal S32x128x16 .f32)
  (x3 x4 x5 x6 : Vec Ideal S32x16 .f32) (x7 : Vec Ideal S32x8 .f32) (x8 : Vec Ideal S128x16x16 .f32)
  (x9 : Vec Ideal S128x16x8 .f32) (x10 : Vec Ideal S16x8 .f32) (x11 : Vec Ideal S48x8 .f32)

/-- gx of the block. -/
def gxB : FVec Ideal S32x128x16 .f32 := k0_pay4 (F := Ideal) x0 x2 x1
/-- The first fifteen terms of the dense layer's current. -/
def run15 : FVec Ideal S32x16 .f32 :=
  k0_pay31 (F := Ideal) (gxB x0 x1 x2) (k0_pay7 (F := Ideal) x8)
    (k0_pay23 (F := Ideal) (gxB x0 x1 x2) (k0_pay7 (F := Ideal) x8)
      (k0_pay15 (F := Ideal) (gxB x0 x1 x2) (k0_pay5 (F := Ideal)) (k0_pay7 (F := Ideal) x8)))
/-- The dense layer's charged membrane and spikes. -/
def sUB : FVec Ideal S32x16 .f32 := k0_pay35 (F := Ideal) (gxB x0 x1 x2) (k0_pay7 (F := Ideal) x8) (run15 x0 x1 x2 x8) x3
def sSpkB : FVec Ideal S32x16 .f32 := k0_pay36 (F := Ideal) (gxB x0 x1 x2) (k0_pay7 (F := Ideal) x8) (run15 x0 x1 x2 x8) x3
/-- The skip connection's current. -/
def skipB : FVec Ideal S32x8 .f32 :=
  k0_pay34 (F := Ideal) (gxB x0 x1 x2) (k0_pay8 (F := Ideal) x9)
    (k0_pay29 (F := Ideal) (gxB x0 x1 x2) (k0_pay8 (F := Ideal) x9)
      (k0_pay21 (F := Ideal) (gxB x0 x1 x2) (k0_pay8 (F := Ideal) x9)
        (k0_pay13 (F := Ideal) (gxB x0 x1 x2) (k0_pay6 (F := Ideal)) x9) (k0_pay16 (F := Ideal) (gxB x0 x1 x2) x9))
      (k0_pay24 (F := Ideal) (gxB x0 x1 x2) (k0_pay8 (F := Ideal) x9)))
    (k0_pay32 (F := Ideal) (gxB x0 x1 x2) (k0_pay8 (F := Ideal) x9))
/-- The first parallel step's charged membrane, threshold difference and spikes. -/
def h1UB : FVec Ideal S32x16 .f32 := k0_pay38 (F := Ideal) (gxB x0 x1 x2) (k0_pay7 (F := Ideal) x8) (run15 x0 x1 x2 x8) x3 x4
def h1DB : FVec Ideal S32x16 .f32 := k0_pay39 (F := Ideal) (gxB x0 x1 x2) (k0_pay7 (F := Ideal) x8) (run15 x0 x1 x2 x8) x3 x4
def h1SpkB : FVec Ideal S32x16 .f32 := k0_pay40 (F := Ideal) (h1DB x0 x1 x2 x3 x4 x8) (Scalar.ofBits .f32 0x00000000#32)
/-- The second and third. -/
def h2SpkB : FVec Ideal S32x16 .f32 := k0_pay43 (F := Ideal) (sSpkB x0 x1 x2 x3 x8) x5
def h3BitB : IVec S32x16 1 := k0_pay46 (F := Ideal) (sSpkB x0 x1 x2 x3 x8) x6

end Shared

/-! ## Each output block is its stored value -/

section Stored

variable (x0 : Vec Ideal S32x128x16 .f32) (x1 : Vec Ideal S32x128x128 .f32) (x2 : Vec Ideal S32x128x16 .f32)
  (x3 x4 x5 x6 : Vec Ideal S32x16 .f32) (x7 : Vec Ideal S32x8 .f32) (x8 : Vec Ideal S128x16x16 .f32)
  (x9 : Vec Ideal S128x16x8 .f32) (x10 : Vec Ideal S16x8 .f32) (x11 : Vec Ideal S48x8 .f32)

theorem out12_eq : out0_12 (F := Ideal) x0 x1 x2 x3 x4 x5 x6 x7 x8 x9 x10 x11 = k0_pay3 (F := Ideal) x0 x2 := by
  unfold out0_12
  rw [View.canon_unit_zero zeros3]
  simp only [View.ld_unit_zero (S := S32x128x16) zeros3]

theorem out18_eq : out0_18 (F := Ideal) x0 x1 x2 x3 x4 x5 x6 x7 x8 x9 x10 x11 = k0_pay2 (F := Ideal) x0 x2 := by
  unfold out0_18
  rw [View.canon_unit_zero zeros3]
  simp only [View.ld_unit_zero (S := S32x128x16) zeros3]

theorem out13_eq : out0_13 (F := Ideal) x0 x1 x2 x3 x4 x5 x6 x7 x8 x9 x10 x11
    = k0_pay37 (F := Ideal) (gxB x0 x1 x2) (k0_pay7 (F := Ideal) x8) (run15 x0 x1 x2 x8) x3 := by
  unfold out0_13
  rw [View.canon_unit_zero zeros2]
  simp only [View.ld_unit_zero (S := S32x128x16) zeros3, View.ld_unit_zero (S := S32x128x128) zeros3,
    View.ld_unit_zero (S := S128x16x16) zeros3, View.ld_unit_zero (S := S32x16) zeros2]
  rfl

theorem out19_eq : out0_19 (F := Ideal) x0 x1 x2 x3 x4 x5 x6 x7 x8 x9 x10 x11 = sSpkB x0 x1 x2 x3 x8 := by
  unfold out0_19
  rw [View.canon_unit_zero zeros2]
  simp only [View.ld_unit_zero (S := S32x128x16) zeros3, View.ld_unit_zero (S := S32x128x128) zeros3,
    View.ld_unit_zero (S := S128x16x16) zeros3, View.ld_unit_zero (S := S32x16) zeros2]
  rfl

theorem out14_eq : out0_14 (F := Ideal) x0 x1 x2 x3 x4 x5 x6 x7 x8 x9 x10 x11
    = k0_pay41 (F := Ideal) (h1UB x0 x1 x2 x3 x4 x8) (h1DB x0 x1 x2 x3 x4 x8) (Scalar.ofBits .f32 0x00000000#32) := by
  unfold out0_14
  rw [View.canon_unit_zero zeros2]
  simp only [View.ld_unit_zero (S := S32x128x16) zeros3, View.ld_unit_zero (S := S32x128x128) zeros3,
    View.ld_unit_zero (S := S128x16x16) zeros3, View.ld_unit_zero (S := S32x16) zeros2]
  rfl

theorem out15_eq : out0_15 (F := Ideal) x0 x1 x2 x3 x4 x5 x6 x7 x8 x9 x10 x11 = k0_pay44 (F := Ideal) (sSpkB x0 x1 x2 x3 x8) x5 := by
  unfold out0_15
  rw [View.canon_unit_zero zeros2]
  simp only [View.ld_unit_zero (S := S32x128x16) zeros3, View.ld_unit_zero (S := S32x128x128) zeros3,
    View.ld_unit_zero (S := S128x16x16) zeros3, View.ld_unit_zero (S := S32x16) zeros2]
  rfl

theorem out16_eq : out0_16 (F := Ideal) x0 x1 x2 x3 x4 x5 x6 x7 x8 x9 x10 x11
    = k0_pay48 (F := Ideal) (k0_pay45 (F := Ideal) (sSpkB x0 x1 x2 x3 x8) x6) (h3BitB x0 x1 x2 x3 x6 x8) := by
  unfold out0_16
  rw [View.canon_unit_zero zeros2]
  simp only [View.ld_unit_zero (S := S32x128x16) zeros3, View.ld_unit_zero (S := S32x128x128) zeros3,
    View.ld_unit_zero (S := S128x16x16) zeros3, View.ld_unit_zero (S := S32x16) zeros2]
  rfl

theorem out20_eq : out0_20 (F := Ideal) x0 x1 x2 x3 x4 x5 x6 x7 x8 x9 x10 x11
    = k0_pay49 (F := Ideal) (h1SpkB x0 x1 x2 x3 x4 x8) (h2SpkB x0 x1 x2 x3 x5 x8) (h3BitB x0 x1 x2 x3 x6 x8) := by
  unfold out0_20
  rw [View.canon_unit_zero zeros2]
  simp only [View.ld_unit_zero (S := S32x128x16) zeros3, View.ld_unit_zero (S := S32x128x128) zeros3,
    View.ld_unit_zero (S := S128x16x16) zeros3, View.ld_unit_zero (S := S32x16) zeros2]
  rfl

theorem out17_eq : out0_17 (F := Ideal) x0 x1 x2 x3 x4 x5 x6 x7 x8 x9 x10 x11
    = k0_pay52 (F := Ideal) (skipB x0 x1 x2 x9) (sSpkB x0 x1 x2 x3 x8) (h1SpkB x0 x1 x2 x3 x4 x8) (h2SpkB x0 x1 x2 x3 x5 x8)
        (h3BitB x0 x1 x2 x3 x6 x8) x11 x10 x7 := by
  unfold out0_17
  rw [View.canon_unit_zero zeros2]
  simp only [View.ld_unit_zero (S := S32x128x16) zeros3, View.ld_unit_zero (S := S32x128x128) zeros3,
    View.ld_unit_zero (S := S128x16x16) zeros3, View.ld_unit_zero (S := S128x16x8) zeros3,
    View.ld_unit_zero (S := S32x16) zeros2, View.ld_unit_zero (S := S32x8) zeros2,
    View.ld_unit_zero (S := S16x8) zeros2, View.ld_unit_zero (S := S48x8) zeros2]
  rfl

theorem out21_eq : out0_21 (F := Ideal) x0 x1 x2 x3 x4 x5 x6 x7 x8 x9 x10 x11
    = k0_pay51 (F := Ideal) (skipB x0 x1 x2 x9) (sSpkB x0 x1 x2 x3 x8) (h1SpkB x0 x1 x2 x3 x4 x8) (h2SpkB x0 x1 x2 x3 x5 x8)
        (h3BitB x0 x1 x2 x3 x6 x8) x11 x10 x7 := by
  unfold out0_21
  rw [View.canon_unit_zero zeros2]
  simp only [View.ld_unit_zero (S := S32x128x16) zeros3, View.ld_unit_zero (S := S32x128x128) zeros3,
    View.ld_unit_zero (S := S128x16x16) zeros3, View.ld_unit_zero (S := S128x16x8) zeros3,
    View.ld_unit_zero (S := S32x16) zeros2, View.ld_unit_zero (S := S32x8) zeros2,
    View.ld_unit_zero (S := S16x8) zeros2, View.ld_unit_zero (S := S48x8) zeros2]
  rfl

end Stored

/-! ## The stored values at row b of the block -/

section Rows

variable (x0 : Vec Ideal S32x128x16 .f32) (x1 : Vec Ideal S32x128x128 .f32) (x2 : Vec Ideal S32x128x16 .f32)
  (x3 x4 x5 x6 : Vec Ideal S32x16 .f32) (x7 : Vec Ideal S32x8 .f32) (x8 : Vec Ideal S128x16x16 .f32)
  (x9 : Vec Ideal S128x16x8 .f32) (x10 : Vec Ideal S16x8 .f32) (x11 : Vec Ideal S48x8 .f32)
  (Ws : (⟨2, ![2048, 16]⟩ : Shape).Idx → EReal) (Wg : (⟨2, ![2048, 8]⟩ : Shape).Idx → EReal)
  (hs : ∀ (n : Fin 128) (f : Fin 16) (j : Fin 16), x8 (ix3 n f j) = Ws (ix2 (flatPos n f) j))
  (hg : ∀ (n : Fin 128) (f : Fin 16) (o : Fin 8), x9 (ix3 n f o) = Wg (ix2 (flatPos n f) o))
  (b : Fin 32)

theorem gxB_apply (n : Fin 128) (f : Fin 16) : gxB x0 x1 x2 (ix3 b n f) = gx (row3 x0 b) (row3 x2 b) (row3 x1 b) n f :=
  gx_apply x0 x2 x1 b n f

include hs in
/-- The dense layer's charged membrane: the sixteen terms are the double sum against the flat weights. -/
theorem sU_apply (j : Fin 16) : sUB x0 x1 x2 x3 x8 (ix2 b j) = sU (row3 x0 b) (row3 x2 b) (row3 x1 b) (row2 x3 b) Ws j := by
  unfold sUB run15
  rw [sU_block, relaid16_eq]
  unfold sU flatDot term
  refine congrArg (charge 0x3F59999A#32 (x3 (ix2 b j))) (Finset.sum_congr rfl fun f _ => Finset.sum_congr rfl fun n _ => ?_)
  rw [gxB_apply, hs]

include hs in
theorem sSpk_apply (j : Fin 16) : sSpkB x0 x1 x2 x3 x8 (ix2 b j) = sSpk (row3 x0 b) (row3 x2 b) (row3 x1 b) (row2 x3 b) Ws j := by
  show fire 0x3E99999A#32 (sUB x0 x1 x2 x3 x8 (ix2 b j)) = _
  rw [sU_apply x0 x1 x2 x3 x8 Ws hs b j]
  rfl

include hs in
theorem sMem_apply (j : Fin 16) :
    k0_pay37 (F := Ideal) (gxB x0 x1 x2) (k0_pay7 (F := Ideal) x8) (run15 x0 x1 x2 x8) x3 (ix2 b j) = sMem (row3 x0 b) (row3 x2 b) (row3 x1 b) (row2 x3 b) Ws j := by
  show settle 0x3E99999A#32 (sUB x0 x1 x2 x3 x8 (ix2 b j)) = _
  rw [sU_apply x0 x1 x2 x3 x8 Ws hs b j]
  rfl

include hg in
/-- The skip connection's current. -/
theorem skip_apply (o : Fin 8) : skipB x0 x1 x2 x9 (ix2 b o) = flatDot (gx (row3 x0 b) (row3 x2 b) (row3 x1 b)) Wg o := by
  unfold skipB
  rw [skip_block]
  unfold flatDot term
  refine Finset.sum_congr rfl fun f _ => Finset.sum_congr rfl fun n _ => ?_
  rw [gxB_apply, hg]

include hs in
theorem h1U_apply (j : Fin 16) :
    h1UB x0 x1 x2 x3 x4 x8 (ix2 b j) = hU (row3 x0 b) (row3 x2 b) (row3 x1 b) (row2 x3 b) Ws 0x3F4CCCCD#32 (row2 x4 b) j := by
  show charge 0x3F4CCCCD#32 (x4 (ix2 b j)) (sSpkB x0 x1 x2 x3 x8 (ix2 b j)) = _
  rw [sSpk_apply x0 x1 x2 x3 x8 Ws hs b j]
  rfl

include hs in
theorem h1Spk_apply (j : Fin 16) :
    h1SpkB x0 x1 x2 x3 x4 x8 (ix2 b j) = hSpk (row3 x0 b) (row3 x2 b) (row3 x1 b) (row2 x3 b) Ws 0x3F4CCCCD#32 0x3F000000#32 (row2 x4 b) j := by
  show fire 0x3F000000#32 (h1UB x0 x1 x2 x3 x4 x8 (ix2 b j)) = _
  rw [h1U_apply x0 x1 x2 x3 x4 x8 Ws hs b j]
  rfl

include hs in
theorem h1Mem_apply (j : Fin 16) :
    k0_pay41 (F := Ideal) (h1UB x0 x1 x2 x3 x4 x8) (h1DB x0 x1 x2 x3 x4 x8) (Scalar.ofBits .f32 0x00000000#32) (ix2 b j)
      = hMem (row3 x0 b) (row3 x2 b) (row3 x1 b) (row2 x3 b) Ws 0x3F4CCCCD#32 0x3F000000#32 (row2 x4 b) j := by
  show settle 0x3F000000#32 (h1UB x0 x1 x2 x3 x4 x8 (ix2 b j)) = _
  rw [h1U_apply x0 x1 x2 x3 x4 x8 Ws hs b j]
  rfl

include hs in
theorem h2U_apply (j : Fin 16) :
    k0_pay42 (F := Ideal) (sSpkB x0 x1 x2 x3 x8) x5 (ix2 b j) = hU (row3 x0 b) (row3 x2 b) (row3 x1 b) (row2 x3 b) Ws 0x3F666666#32 (row2 x5 b) j := by
  show charge 0x3F666666#32 (x5 (ix2 b j)) (sSpkB x0 x1 x2 x3 x8 (ix2 b j)) = _
  rw [sSpk_apply x0 x1 x2 x3 x8 Ws hs b j]
  rfl

include hs in
theorem h2Spk_apply (j : Fin 16) :
    h2SpkB x0 x1 x2 x3 x5 x8 (ix2 b j) = hSpk (row3 x0 b) (row3 x2 b) (row3 x1 b) (row2 x3 b) Ws 0x3F666666#32 0x3E99999A#32 (row2 x5 b) j := by
  show fire 0x3E99999A#32 (k0_pay42 (F := Ideal) (sSpkB x0 x1 x2 x3 x8) x5 (ix2 b j)) = _
  rw [h2U_apply x0 x1 x2 x3 x5 x8 Ws hs b j]
  rfl

include hs in
theorem h2Mem_apply (j : Fin 16) :
    k0_pay44 (F := Ideal) (sSpkB x0 x1 x2 x3 x8) x5 (ix2 b j) = hMem (row3 x0 b) (row3 x2 b) (row3 x1 b) (row2 x3 b) Ws 0x3F666666#32 0x3E99999A#32 (row2 x5 b) j := by
  show settle 0x3E99999A#32 (k0_pay42 (F := Ideal) (sSpkB x0 x1 x2 x3 x8) x5 (ix2 b j)) = _
  rw [h2U_apply x0 x1 x2 x3 x5 x8 Ws hs b j]
  rfl

include hs in
theorem h3U_apply (j : Fin 16) :
    k0_pay45 (F := Ideal) (sSpkB x0 x1 x2 x3 x8) x6 (ix2 b j) = hU (row3 x0 b) (row3 x2 b) (row3 x1 b) (row2 x3 b) Ws 0x3F733333#32 (row2 x6 b) j := by
  show charge 0x3F733333#32 (x6 (ix2 b j)) (sSpkB x0 x1 x2 x3 x8 (ix2 b j)) = _
  rw [sSpk_apply x0 x1 x2 x3 x8 Ws hs b j]
  rfl

include hs in
theorem h3Spk_apply (j : Fin 16) :
    k0_pay47 (F := Ideal) (h3BitB x0 x1 x2 x3 x6 x8) (ix2 b j) = hSpk (row3 x0 b) (row3 x2 b) (row3 x1 b) (row2 x3 b) Ws 0x3F733333#32 0x3E4CCCCD#32 (row2 x6 b) j := by
  show fire 0x3E4CCCCD#32 (k0_pay45 (F := Ideal) (sSpkB x0 x1 x2 x3 x8) x6 (ix2 b j)) = _
  rw [h3U_apply x0 x1 x2 x3 x6 x8 Ws hs b j]
  rfl

include hs in
theorem h3Mem_apply (j : Fin 16) :
    k0_pay48 (F := Ideal) (k0_pay45 (F := Ideal) (sSpkB x0 x1 x2 x3 x8) x6) (h3BitB x0 x1 x2 x3 x6 x8) (ix2 b j)
      = hMem (row3 x0 b) (row3 x2 b) (row3 x1 b) (row2 x3 b) Ws 0x3F733333#32 0x3E4CCCCD#32 (row2 x6 b) j := by
  show settle 0x3E4CCCCD#32 (k0_pay45 (F := Ideal) (sSpkB x0 x1 x2 x3 x8) x6 (ix2 b j)) = _
  rw [h3U_apply x0 x1 x2 x3 x6 x8 Ws hs b j]
  rfl

include hs in
/-- The three spike blocks side by side. -/
theorem hrSpk_apply (k : Fin 48) :
    k0_pay49 (F := Ideal) (h1SpkB x0 x1 x2 x3 x4 x8) (h2SpkB x0 x1 x2 x3 x5 x8) (h3BitB x0 x1 x2 x3 x6 x8) (ix2 b k)
      = hrSpk (row3 x0 b) (row3 x2 b) (row3 x1 b) (row2 x3 b) (row2 x4 b) (row2 x5 b) (row2 x6 b) Ws k := by
  unfold k0_pay49 hrSpk
  refine (concat_thirds _ _ _ _ b k).trans ?_
  congr 1
  · exact funext fun j => h1Spk_apply x0 x1 x2 x3 x4 x8 Ws hs b j
  · exact funext fun j => h2Spk_apply x0 x1 x2 x3 x5 x8 Ws hs b j
  · exact funext fun j => h3Spk_apply x0 x1 x2 x3 x6 x8 Ws hs b j

include hs hg in
/-- The output layer's charged membrane. -/
theorem oU_apply (o : Fin 8) :
    k0_pay50 (F := Ideal) (skipB x0 x1 x2 x9) (sSpkB x0 x1 x2 x3 x8) (h1SpkB x0 x1 x2 x3 x4 x8) (h2SpkB x0 x1 x2 x3 x5 x8)
        (h3BitB x0 x1 x2 x3 x6 x8) x11 x10 x7 (ix2 b o)
      = oU (row3 x0 b) (row3 x2 b) (row3 x1 b) (row2 x3 b) (row2 x4 b) (row2 x5 b) (row2 x6 b) (row2 x7 b) Ws Wg x10 x11 o := by
  unfold k0_pay50 oU outCur
  refine congrArg (charge 0x3F666666#32 (x7 (ix2 b o))) ?_
  refine add_eq (add_eq ?_ ?_) ?_
  · refine (Cert.LibRowReduceProducts.matmulNN dot_S32x48_S48x8_S32x8_1_0_0_1_n_n rfl rfl rfl rfl rfl rfl (some .fp32) _ x11 b o).trans ?_
    exact Finset.sum_congr rfl fun k _ => by rw [hrSpk_apply x0 x1 x2 x3 x4 x5 x6 x8 Ws hs b k]
  · exact skip_apply x0 x1 x2 x9 Wg hg b o
  · refine (Cert.LibRowReduceProducts.matmulNN dot_S32x16_S16x8_S32x8_1_0_0_1_n_n rfl rfl rfl rfl rfl rfl (some .fp32) _ x10 b o).trans ?_
    exact Finset.sum_congr rfl fun j _ => by rw [sSpk_apply x0 x1 x2 x3 x8 Ws hs b j]

include hs hg in
theorem oSpk_apply (o : Fin 8) :
    k0_pay51 (F := Ideal) (skipB x0 x1 x2 x9) (sSpkB x0 x1 x2 x3 x8) (h1SpkB x0 x1 x2 x3 x4 x8) (h2SpkB x0 x1 x2 x3 x5 x8)
        (h3BitB x0 x1 x2 x3 x6 x8) x11 x10 x7 (ix2 b o)
      = oSpk (row3 x0 b) (row3 x2 b) (row3 x1 b) (row2 x3 b) (row2 x4 b) (row2 x5 b) (row2 x6 b) (row2 x7 b) Ws Wg x10 x11 o := by
  show fire 0x3E99999A#32 (k0_pay50 (F := Ideal) (skipB x0 x1 x2 x9) (sSpkB x0 x1 x2 x3 x8) (h1SpkB x0 x1 x2 x3 x4 x8)
    (h2SpkB x0 x1 x2 x3 x5 x8) (h3BitB x0 x1 x2 x3 x6 x8) x11 x10 x7 (ix2 b o)) = _
  rw [oU_apply x0 x1 x2 x3 x4 x5 x6 x7 x8 x9 x10 x11 Ws Wg hs hg b o]
  rfl

include hs hg in
theorem oMem_apply (o : Fin 8) :
    k0_pay52 (F := Ideal) (skipB x0 x1 x2 x9) (sSpkB x0 x1 x2 x3 x8) (h1SpkB x0 x1 x2 x3 x4 x8) (h2SpkB x0 x1 x2 x3 x5 x8)
        (h3BitB x0 x1 x2 x3 x6 x8) x11 x10 x7 (ix2 b o)
      = oMem (row3 x0 b) (row3 x2 b) (row3 x1 b) (row2 x3 b) (row2 x4 b) (row2 x5 b) (row2 x6 b) (row2 x7 b) Ws Wg x10 x11 o := by
  show settle 0x3E99999A#32 (k0_pay50 (F := Ideal) (skipB x0 x1 x2 x9) (sSpkB x0 x1 x2 x3 x8) (h1SpkB x0 x1 x2 x3 x4 x8)
    (h2SpkB x0 x1 x2 x3 x5 x8) (h3BitB x0 x1 x2 x3 x6 x8) x11 x10 x7 (ix2 b o)) = _
  rw [oU_apply x0 x1 x2 x3 x4 x5 x6 x7 x8 x9 x10 x11 Ws Wg hs hg b o]
  rfl

end Rows

end Cert.KernelOutputs

end
-- ==== Proof.KernelArrays.lean ====
/-
  From the blocks the kernel writes back to the arrays it ends with.

  The grid has 64 points; point t stages, for each batched array, the block of 32 rows t * 32 .. t * 32 + 31 (all of
  the other axes), and for each weight array the whole array; each output array's block t is written back after the
  body. So row b of a block at point t is row t * 32 + b of its array, every entry of an output array lies in exactly
  the block of point (row / 32), and each output array ends as the row network of the argument arrays, row by row.

  The two re-laid weight arrays are written by the host before the region: a [2048, J] matrix re-read as [128, 16, J],
  so that entry (n, f, j) is entry (n * 16 + f, j) of the matrix.
-/
import proofs.«123606_j63127429317304_2_alg».proof.Proof.ValueBlocks
import proofs.«123606_j63127429317304_2_alg».proof.Proof.KernelOutputs
import Idealize.ShloMosaic.Lib.StableHlo.Run

set_option maxRecDepth 16384

noncomputable section

open scoped BigOperators

namespace Cert.KernelIdeal.RowValue

open Cert.KernelIdeal Cert.KernelIdeal.Gen Cert.KernelIdeal.ValueP Idealize.ShloMosaic Idealize.ShloMosaic.TcCoe Idealize.SL.Sem
  Idealize.ShloMosaic.ValueIdx Cert.RowNetwork Cert.FlatSums Cert.KernelStages Cert.KernelOutputs Idealize.ShloMosaic.StableHlo
open Idealize.ShloMosaic.Pipeline (Dat)

variable (m : (ℓ : Loc nD τ sig) → Buf (Elt Ideal) ℓ) (ρ : Dev nD → PrngReg)

/-! ## Rows of blocks are rows of arrays -/

/-- The array row under row b of the block of point t. -/
def rowAt (t : Fin cfg0.N) (b : Fin 32) : Fin 2048 :=
  ⟨t.val * 32 + b.val, by have ht : t.val < 64 := t.isLt; have hb := b.isLt; omega⟩

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)

theorem emb0 (t : Fin cfg0.N) (b : Fin 32) (n : Fin 128) (f : Fin 16) :
    ((cfg0.win 0).blk t).view.emb (ix3 b n f) = ix3 (rowAt t b) n f := by
  obtain ⟨e0, e1, e2⟩ := idx0 t
  funext a; apply Fin.ext
  match a with
  | ⟨0, _⟩ => show win0_0.index t (0 : Fin 3) * 32 + 1 * b.val = t.val * 32 + b.val; omega
  | ⟨1, _⟩ => show win0_0.index t (1 : Fin 3) * 128 + 1 * n.val = n.val; omega
  | ⟨2, _⟩ => show win0_0.index t (2 : Fin 3) * 16 + 1 * f.val = f.val; omega

theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)

theorem emb1 (t : Fin cfg0.N) (b : Fin 32) (n : Fin 128) (f : Fin 128) :
    ((cfg0.win 1).blk t).view.emb (ix3 b n f) = ix3 (rowAt t b) n f := by
  obtain ⟨e0, e1, e2⟩ := idx1 t
  funext a; apply Fin.ext
  match a with
  | ⟨0, _⟩ => show win0_1.index t (0 : Fin 3) * 32 + 1 * b.val = t.val * 32 + b.val; omega
  | ⟨1, _⟩ => show win0_1.index t (1 : Fin 3) * 128 + 1 * n.val = n.val; omega
  | ⟨2, _⟩ => show win0_1.index t (2 : Fin 3) * 128 + 1 * f.val = f.val; omega

theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)

theorem emb2 (t : Fin cfg0.N) (b : Fin 32) (n : Fin 128) (f : Fin 16) :
    ((cfg0.win 2).blk t).view.emb (ix3 b n f) = ix3 (rowAt t b) n f := by
  obtain ⟨e0, e1, e2⟩ := idx2 t
  funext a; apply Fin.ext
  match a with
  | ⟨0, _⟩ => show win0_2.index t (0 : Fin 3) * 32 + 1 * b.val = t.val * 32 + b.val; omega
  | ⟨1, _⟩ => show win0_2.index t (1 : Fin 3) * 128 + 1 * n.val = n.val; omega
  | ⟨2, _⟩ => show win0_2.index t (2 : Fin 3) * 16 + 1 * f.val = f.val; omega

theorem idx3 : ∀ t : Fin cfg0.N, win0_3.index t (0 : Fin 2) = t.val ∧ win0_3.index t (1 : Fin 2) = 0 :=
  (by decide +kernel : ∀ t : Fin grid0.N, _)

theorem emb3 (t : Fin cfg0.N) (b : Fin 32) (j : Fin 16) :
    ((cfg0.win 3).blk t).view.emb (ix2 b j) = ix2 (rowAt t b) j := by
  obtain ⟨e0, e1⟩ := idx3 t
  funext a; apply Fin.ext
  match a with
  | ⟨0, _⟩ => show win0_3.index t (0 : Fin 2) * 32 + 1 * b.val = t.val * 32 + b.val; omega
  | ⟨1, _⟩ => show win0_3.index t (1 : Fin 2) * 16 + 1 * j.val = j.val; omega

theorem idx4 : ∀ t : Fin cfg0.N, win0_4.index t (0 : Fin 2) = t.val ∧ win0_4.index t (1 : Fin 2) = 0 :=
  (by decide +kernel : ∀ t : Fin grid0.N, _)

theorem emb4 (t : Fin cfg0.N) (b : Fin 32) (j : Fin 16) :
    ((cfg0.win 4).blk t).view.emb (ix2 b j) = ix2 (rowAt t b) j := by
  obtain ⟨e0, e1⟩ := idx4 t
  funext a; apply Fin.ext
  match a with
  | ⟨0, _⟩ => show win0_4.index t (0 : Fin 2) * 32 + 1 * b.val = t.val * 32 + b.val; omega
  | ⟨1, _⟩ => show win0_4.index t (1 : Fin 2) * 16 + 1 * j.val = j.val; omega

theorem idx5 : ∀ t : Fin cfg0.N, win0_5.index t (0 : Fin 2) = t.val ∧ win0_5.index t (1 : Fin 2) = 0 :=
  (by decide +kernel : ∀ t : Fin grid0.N, _)

theorem emb5 (t : Fin cfg0.N) (b : Fin 32) (j : Fin 16) :
    ((cfg0.win 5).blk t).view.emb (ix2 b j) = ix2 (rowAt t b) j := by
  obtain ⟨e0, e1⟩ := idx5 t
  funext a; apply Fin.ext
  match a with
  | ⟨0, _⟩ => show win0_5.index t (0 : Fin 2) * 32 + 1 * b.val = t.val * 32 + b.val; omega
  | ⟨1, _⟩ => show win0_5.index t (1 : Fin 2) * 16 + 1 * j.val = j.val; omega

theorem idx6 : ∀ t : Fin cfg0.N, win0_6.index t (0 : Fin 2) = t.val ∧ win0_6.index t (1 : Fin 2) = 0 :=
  (by decide +kernel : ∀ t : Fin grid0.N, _)

theorem emb6 (t : Fin cfg0.N) (b : Fin 32) (j : Fin 16) :
    ((cfg0.win 6).blk t).view.emb (ix2 b j) = ix2 (rowAt t b) j := by
  obtain ⟨e0, e1⟩ := idx6 t
  funext a; apply Fin.ext
  match a with
  | ⟨0, _⟩ => show win0_6.index t (0 : Fin 2) * 32 + 1 * b.val = t.val * 32 + b.val; omega
  | ⟨1, _⟩ => show win0_6.index t (1 : Fin 2) * 16 + 1 * j.val = j.val; omega

theorem idx7 : ∀ t : Fin cfg0.N, win0_7.index t (0 : Fin 2) = t.val ∧ win0_7.index t (1 : Fin 2) = 0 :=
  (by decide +kernel : ∀ t : Fin grid0.N, _)

theorem emb7 (t : Fin cfg0.N) (b : Fin 32) (j : Fin 8) :
    ((cfg0.win 7).blk t).view.emb (ix2 b j) = ix2 (rowAt t b) j := by
  obtain ⟨e0, e1⟩ := idx7 t
  funext a; apply Fin.ext
  match a with
  | ⟨0, _⟩ => show win0_7.index t (0 : Fin 2) * 32 + 1 * b.val = t.val * 32 + b.val; omega
  | ⟨1, _⟩ => show win0_7.index t (1 : Fin 2) * 8 + 1 * j.val = j.val; omega

theorem idx12 : ∀ t : Fin cfg0.N, win0_12.index t (0 : Fin 3) = t.val ∧ win0_12.index t (1 : Fin 3) = 0 ∧ win0_12.index t (2 : Fin 3) = 0 :=
  (by decide +kernel : ∀ t : Fin grid0.N, _)

theorem emb12 (t : Fin cfg0.N) (b : Fin 32) (n : Fin 128) (f : Fin 16) :
    ((cfg0.win 12).blk t).view.emb (ix3 b n f) = ix3 (rowAt t b) n f := by
  obtain ⟨e0, e1, e2⟩ := idx12 t
  funext a; apply Fin.ext
  match a with
  | ⟨0, _⟩ => show win0_12.index t (0 : Fin 3) * 32 + 1 * b.val = t.val * 32 + b.val; omega
  | ⟨1, _⟩ => show win0_12.index t (1 : Fin 3) * 128 + 1 * n.val = n.val; omega
  | ⟨2, _⟩ => show win0_12.index t (2 : Fin 3) * 16 + 1 * f.val = f.val; omega

theorem idx13 : ∀ t : Fin cfg0.N, win0_13.index t (0 : Fin 2) = t.val ∧ win0_13.index t (1 : Fin 2) = 0 :=
  (by decide +kernel : ∀ t : Fin grid0.N, _)

theorem emb13 (t : Fin cfg0.N) (b : Fin 32) (j : Fin 16) :
    ((cfg0.win 13).blk t).view.emb (ix2 b j) = ix2 (rowAt t b) j := by
  obtain ⟨e0, e1⟩ := idx13 t
  funext a; apply Fin.ext
  match a with
  | ⟨0, _⟩ => show win0_13.index t (0 : Fin 2) * 32 + 1 * b.val = t.val * 32 + b.val; omega
  | ⟨1, _⟩ => show win0_13.index t (1 : Fin 2) * 16 + 1 * j.val = j.val; omega

theorem idx14 : ∀ t : Fin cfg0.N, win0_14.index t (0 : Fin 2) = t.val ∧ win0_14.index t (1 : Fin 2) = 0 :=
  (by decide +kernel : ∀ t : Fin grid0.N, _)

theorem emb14 (t : Fin cfg0.N) (b : Fin 32) (j : Fin 16) :
    ((cfg0.win 14).blk t).view.emb (ix2 b j) = ix2 (rowAt t b) j := by
  obtain ⟨e0, e1⟩ := idx14 t
  funext a; apply Fin.ext
  match a with
  | ⟨0, _⟩ => show win0_14.index t (0 : Fin 2) * 32 + 1 * b.val = t.val * 32 + b.val; omega
  | ⟨1, _⟩ => show win0_14.index t (1 : Fin 2) * 16 + 1 * j.val = j.val; omega

theorem idx15 : ∀ t : Fin cfg0.N, win0_15.index t (0 : Fin 2) = t.val ∧ win0_15.index t (1 : Fin 2) = 0 :=
  (by decide +kernel : ∀ t : Fin grid0.N, _)

theorem emb15 (t : Fin cfg0.N) (b : Fin 32) (j : Fin 16) :
    ((cfg0.win 15).blk t).view.emb (ix2 b j) = ix2 (rowAt t b) j := by
  obtain ⟨e0, e1⟩ := idx15 t
  funext a; apply Fin.ext
  match a with
  | ⟨0, _⟩ => show win0_15.index t (0 : Fin 2) * 32 + 1 * b.val = t.val * 32 + b.val; omega
  | ⟨1, _⟩ => show win0_15.index t (1 : Fin 2) * 16 + 1 * j.val = j.val; omega

theorem idx16 : ∀ t : Fin cfg0.N, win0_16.index t (0 : Fin 2) = t.val ∧ win0_16.index t (1 : Fin 2) = 0 :=
  (by decide +kernel : ∀ t : Fin grid0.N, _)

theorem emb16 (t : Fin cfg0.N) (b : Fin 32) (j : Fin 16) :
    ((cfg0.win 16).blk t).view.emb (ix2 b j) = ix2 (rowAt t b) j := by
  obtain ⟨e0, e1⟩ := idx16 t
  funext a; apply Fin.ext
  match a with
  | ⟨0, _⟩ => show win0_16.index t (0 : Fin 2) * 32 + 1 * b.val = t.val * 32 + b.val; omega
  | ⟨1, _⟩ => show win0_16.index t (1 : Fin 2) * 16 + 1 * j.val = j.val; omega

theorem idx17 : ∀ t : Fin cfg0.N, win0_17.index t (0 : Fin 2) = t.val ∧ win0_17.index t (1 : Fin 2) = 0 :=
  (by decide +kernel : ∀ t : Fin grid0.N, _)

theorem emb17 (t : Fin cfg0.N) (b : Fin 32) (j : Fin 8) :
    ((cfg0.win 17).blk t).view.emb (ix2 b j) = ix2 (rowAt t b) j := by
  obtain ⟨e0, e1⟩ := idx17 t
  funext a; apply Fin.ext
  match a with
  | ⟨0, _⟩ => show win0_17.index t (0 : Fin 2) * 32 + 1 * b.val = t.val * 32 + b.val; omega
  | ⟨1, _⟩ => show win0_17.index t (1 : Fin 2) * 8 + 1 * j.val = j.val; omega

theorem idx18 : ∀ t : Fin cfg0.N, win0_18.index t (0 : Fin 3) = t.val ∧ win0_18.index t (1 : Fin 3) = 0 ∧ win0_18.index t (2 : Fin 3) = 0 :=
  (by decide +kernel : ∀ t : Fin grid0.N, _)

theorem emb18 (t : Fin cfg0.N) (b : Fin 32) (n : Fin 128) (f : Fin 16) :
    ((cfg0.win 18).blk t).view.emb (ix3 b n f) = ix3 (rowAt t b) n f := by
  obtain ⟨e0, e1, e2⟩ := idx18 t
  funext a; apply Fin.ext
  match a with
  | ⟨0, _⟩ => show win0_18.index t (0 : Fin 3) * 32 + 1 * b.val = t.val * 32 + b.val; omega
  | ⟨1, _⟩ => show win0_18.index t (1 : Fin 3) * 128 + 1 * n.val = n.val; omega
  | ⟨2, _⟩ => show win0_18.index t (2 : Fin 3) * 16 + 1 * f.val = f.val; omega

theorem idx19 : ∀ t : Fin cfg0.N, win0_19.index t (0 : Fin 2) = t.val ∧ win0_19.index t (1 : Fin 2) = 0 :=
  (by decide +kernel : ∀ t : Fin grid0.N, _)

theorem emb19 (t : Fin cfg0.N) (b : Fin 32) (j : Fin 16) :
    ((cfg0.win 19).blk t).view.emb (ix2 b j) = ix2 (rowAt t b) j := by
  obtain ⟨e0, e1⟩ := idx19 t
  funext a; apply Fin.ext
  match a with
  | ⟨0, _⟩ => show win0_19.index t (0 : Fin 2) * 32 + 1 * b.val = t.val * 32 + b.val; omega
  | ⟨1, _⟩ => show win0_19.index t (1 : Fin 2) * 16 + 1 * j.val = j.val; omega

theorem idx20 : ∀ t : Fin cfg0.N, win0_20.index t (0 : Fin 2) = t.val ∧ win0_20.index t (1 : Fin 2) = 0 :=
  (by decide +kernel : ∀ t : Fin grid0.N, _)

theorem emb20 (t : Fin cfg0.N) (b : Fin 32) (j : Fin 48) :
    ((cfg0.win 20).blk t).view.emb (ix2 b j) = ix2 (rowAt t b) j := by
  obtain ⟨e0, e1⟩ := idx20 t
  funext a; apply Fin.ext
  match a with
  | ⟨0, _⟩ => show win0_20.index t (0 : Fin 2) * 32 + 1 * b.val = t.val * 32 + b.val; omega
  | ⟨1, _⟩ => show win0_20.index t (1 : Fin 2) * 48 + 1 * j.val = j.val; omega

theorem idx21 : ∀ t : Fin cfg0.N, win0_21.index t (0 : Fin 2) = t.val ∧ win0_21.index t (1 : Fin 2) = 0 :=
  (by decide +kernel : ∀ t : Fin grid0.N, _)

theorem emb21 (t : Fin cfg0.N) (b : Fin 32) (j : Fin 8) :
    ((cfg0.win 21).blk t).view.emb (ix2 b j) = ix2 (rowAt t b) j := by
  obtain ⟨e0, e1⟩ := idx21 t
  funext a; apply Fin.ext
  match a with
  | ⟨0, _⟩ => show win0_21.index t (0 : Fin 2) * 32 + 1 * b.val = t.val * 32 + b.val; omega
  | ⟨1, _⟩ => show win0_21.index t (1 : Fin 2) * 8 + 1 * j.val = j.val; omega

theorem idx8 : ∀ t : Fin cfg0.N, win0_8.index t (0 : Fin 3) = 0 ∧ win0_8.index t (1 : Fin 3) = 0 ∧ win0_8.index t (2 : Fin 3) = 0 :=
  (by decide +kernel : ∀ t : Fin grid0.N, _)

theorem emb8 (t : Fin cfg0.N) (n : Fin 128) (f : Fin 16) (j : Fin 16) :
    ((cfg0.win 8).blk t).view.emb (ix3 n f j) = ix3 n f j := by
  obtain ⟨e0, e1, e2⟩ := idx8 t
  funext a; apply Fin.ext
  match a with
  | ⟨0, _⟩ => show win0_8.index t (0 : Fin 3) * 128 + 1 * n.val = n.val; omega
  | ⟨1, _⟩ => show win0_8.index t (1 : Fin 3) * 16 + 1 * f.val = f.val; omega
  | ⟨2, _⟩ => show win0_8.index t (2 : Fin 3) * 16 + 1 * j.val = j.val; omega

theorem idx9 : ∀ t : Fin cfg0.N, win0_9.index t (0 : Fin 3) = 0 ∧ win0_9.index t (1 : Fin 3) = 0 ∧ win0_9.index t (2 : Fin 3) = 0 :=
  (by decide +kernel : ∀ t : Fin grid0.N, _)

theorem emb9 (t : Fin cfg0.N) (n : Fin 128) (f : Fin 16) (j : Fin 8) :
    ((cfg0.win 9).blk t).view.emb (ix3 n f j) = ix3 n f j := by
  obtain ⟨e0, e1, e2⟩ := idx9 t
  funext a; apply Fin.ext
  match a with
  | ⟨0, _⟩ => show win0_9.index t (0 : Fin 3) * 128 + 1 * n.val = n.val; omega
  | ⟨1, _⟩ => show win0_9.index t (1 : Fin 3) * 16 + 1 * f.val = f.val; omega
  | ⟨2, _⟩ => show win0_9.index t (2 : Fin 3) * 8 + 1 * j.val = j.val; omega

theorem idx10 : ∀ t : Fin cfg0.N, win0_10.index t (0 : Fin 2) = 0 ∧ win0_10.index t (1 : Fin 2) = 0 :=
  (by decide +kernel : ∀ t : Fin grid0.N, _)

theorem emb10 (t : Fin cfg0.N) (k : Fin 16) (o : Fin 8) :
    ((cfg0.win 10).blk t).view.emb (ix2 k o) = ix2 k o := by
  obtain ⟨e0, e1⟩ := idx10 t
  funext a; apply Fin.ext
  match a with
  | ⟨0, _⟩ => show win0_10.index t (0 : Fin 2) * 16 + 1 * k.val = k.val; omega
  | ⟨1, _⟩ => show win0_10.index t (1 : Fin 2) * 8 + 1 * o.val = o.val; omega

theorem idx11 : ∀ t : Fin cfg0.N, win0_11.index t (0 : Fin 2) = 0 ∧ win0_11.index t (1 : Fin 2) = 0 :=
  (by decide +kernel : ∀ t : Fin grid0.N, _)

theorem emb11 (t : Fin cfg0.N) (k : Fin 48) (o : Fin 8) :
    ((cfg0.win 11).blk t).view.emb (ix2 k o) = ix2 k o := by
  obtain ⟨e0, e1⟩ := idx11 t
  funext a; apply Fin.ext
  match a with
  | ⟨0, _⟩ => show win0_11.index t (0 : Fin 2) * 48 + 1 * k.val = k.val; omega
  | ⟨1, _⟩ => show win0_11.index t (1 : Fin 2) * 8 + 1 * o.val = o.val; omega

/-! ## The loaded blocks, row by row -/

theorem rowIn0 (c : Dev nD) (t : Fin cfg0.N) (b : Fin 32) :
    row3 (B := 32) (K := 16) (iblk m c 0 t) b = row3 (m ((c : Thread nD τ).loc main_arg0)) (rowAt t b) := by
  funext n f
  show V m c main_arg0 (((cfg0.win 0).blk t).view.emb (ix3 b n f)) = m ((c : Thread nD τ).loc main_arg0) (ix3 (rowAt t b) n f)
  rw [emb0, V_main_arg0]

theorem rowIn1 (c : Dev nD) (t : Fin cfg0.N) (b : Fin 32) :
    row3 (B := 32) (K := 128) (iblk m c 1 t) b = row3 (m ((c : Thread nD τ).loc main_arg1)) (rowAt t b) := by
  funext n f
  show V m c main_arg1 (((cfg0.win 1).blk t).view.emb (ix3 b n f)) = m ((c : Thread nD τ).loc main_arg1) (ix3 (rowAt t b) n f)
  rw [emb1, V_main_arg1]

theorem rowIn2 (c : Dev nD) (t : Fin cfg0.N) (b : Fin 32) :
    row3 (B := 32) (K := 16) (iblk m c 2 t) b = row3 (m ((c : Thread nD τ).loc main_arg2)) (rowAt t b) := by
  funext n f
  show V m c main_arg2 (((cfg0.win 2).blk t).view.emb (ix3 b n f)) = m ((c : Thread nD τ).loc main_arg2) (ix3 (rowAt t b) n f)
  rw [emb2, V_main_arg2]

theorem rowIn3 (c : Dev nD) (t : Fin cfg0.N) (b : Fin 32) :
    row2 (B := 32) (K := 16) (iblk m c 3 t) b = row2 (m ((c : Thread nD τ).loc main_arg3)) (rowAt t b) := by
  funext j
  show V m c main_arg3 (((cfg0.win 3).blk t).view.emb (ix2 b j)) = m ((c : Thread nD τ).loc main_arg3) (ix2 (rowAt t b) j)
  rw [emb3, V_main_arg3]

theorem rowIn4 (c : Dev nD) (t : Fin cfg0.N) (b : Fin 32) :
    row2 (B := 32) (K := 16) (iblk m c 4 t) b = row2 (m ((c : Thread nD τ).loc main_arg4)) (rowAt t b) := by
  funext j
  show V m c main_arg4 (((cfg0.win 4).blk t).view.emb (ix2 b j)) = m ((c : Thread nD τ).loc main_arg4) (ix2 (rowAt t b) j)
  rw [emb4, V_main_arg4]

theorem rowIn5 (c : Dev nD) (t : Fin cfg0.N) (b : Fin 32) :
    row2 (B := 32) (K := 16) (iblk m c 5 t) b = row2 (m ((c : Thread nD τ).loc main_arg5)) (rowAt t b) := by
  funext j
  show V m c main_arg5 (((cfg0.win 5).blk t).view.emb (ix2 b j)) = m ((c : Thread nD τ).loc main_arg5) (ix2 (rowAt t b) j)
  rw [emb5, V_main_arg5]

theorem rowIn6 (c : Dev nD) (t : Fin cfg0.N) (b : Fin 32) :
    row2 (B := 32) (K := 16) (iblk m c 6 t) b = row2 (m ((c : Thread nD τ).loc main_arg6)) (rowAt t b) := by
  funext j
  show V m c main_arg6 (((cfg0.win 6).blk t).view.emb (ix2 b j)) = m ((c : Thread nD τ).loc main_arg6) (ix2 (rowAt t b) j)
  rw [emb6, V_main_arg6]

theorem rowIn7 (c : Dev nD) (t : Fin cfg0.N) (b : Fin 32) :
    row2 (B := 32) (K := 8) (iblk m c 7 t) b = row2 (m ((c : Thread nD τ).loc main_arg7)) (rowAt t b) := by
  funext j
  show V m c main_arg7 (((cfg0.win 7).blk t).view.emb (ix2 b j)) = m ((c : Thread nD τ).loc main_arg7) (ix2 (rowAt t b) j)
  rw [emb7, V_main_arg7]

/-! ## The weights -/

/-- The host's re-laid copy of the dense layer's weights. -/
theorem relaidS (c : Dev nD) :
    (V m c main_v0 : S128x16x16.Idx → EReal) = shapeCast S128x16x16 (m ((c : Thread nD τ).loc main_arg8)) shapeCasts_S2048x16_S128x16x16 := by
  dsimp only [Gen.V, Gen.hostOps0]; after_results; rfl

/-- The host's re-laid copy of the skip connection's weights. -/
theorem relaidG (c : Dev nD) :
    (V m c main_v1 : S128x16x8.Idx → EReal) = shapeCast S128x16x8 (m ((c : Thread nD τ).loc main_arg9)) shapeCasts_S2048x8_S128x16x8 := by
  dsimp only [Gen.V, Gen.hostOps0]; after_results; rfl

theorem wIn8 (c : Dev nD) (t : Fin cfg0.N) (n : Fin 128) (f : Fin 16) (j : Fin 16) :
    iblk m c 8 t (ix3 n f j) = m ((c : Thread nD τ).loc main_arg8) (ix2 (flatPos n f) j) := by
  show V m c main_v0 (((cfg0.win 8).blk t).view.emb (ix3 n f j)) = _
  rw [emb8, relaidS]
  refine shapeCast_apply _ shapeCasts_S2048x16_S128x16x16 (ix3 n f j) (ix2 (flatPos n f) j) ?_
  rw [Shape.rowMajor_val_three, Shape.rowMajor_val_two]
  show (n.val * 16 + f.val) * 16 + j.val = (n.val * 16 + f.val) * 16 + j.val
  rfl

theorem wIn9 (c : Dev nD) (t : Fin cfg0.N) (n : Fin 128) (f : Fin 16) (o : Fin 8) :
    iblk m c 9 t (ix3 n f o) = m ((c : Thread nD τ).loc main_arg9) (ix2 (flatPos n f) o) := by
  show V m c main_v1 (((cfg0.win 9).blk t).view.emb (ix3 n f o)) = _
  rw [emb9, relaidG]
  refine shapeCast_apply _ shapeCasts_S2048x8_S128x16x8 (ix3 n f o) (ix2 (flatPos n f) o) ?_
  rw [Shape.rowMajor_val_three, Shape.rowMajor_val_two]
  show (n.val * 16 + f.val) * 8 + o.val = (n.val * 16 + f.val) * 8 + o.val
  rfl

theorem wIn10 (c : Dev nD) (t : Fin cfg0.N) : (iblk m c 10 t : S16x8.Idx → EReal) = (m ((c : Thread nD τ).loc main_arg10)) := by
  funext y
  obtain ⟨k, o, rfl⟩ : ∃ (k : Fin 16) (o : Fin 8), y = ix2 k o := ⟨y 0, y 1, eq_ix2 y⟩
  show V m c main_arg10 (((cfg0.win 10).blk t).view.emb (ix2 k o)) = _
  rw [emb10, V_main_arg10]

theorem wIn11 (c : Dev nD) (t : Fin cfg0.N) : (iblk m c 11 t : S48x8.Idx → EReal) = (m ((c : Thread nD τ).loc main_arg11)) := by
  funext y
  obtain ⟨k, o, rfl⟩ : ∃ (k : Fin 48) (o : Fin 8), y = ix2 k o := ⟨y 0, y 1, eq_ix2 y⟩
  show V m c main_arg11 (((cfg0.win 11).blk t).view.emb (ix2 k o)) = _
  rw [emb11, V_main_arg11]

/-! ## Each output array after the run -/

/-- Output array 0 as a function of the argument arrays. -/
abbrev G12 (c : Dev nD) : S2048x128x16.Idx → EReal := arrEncMem (m ((c : Thread nD τ).loc main_arg0)) (m ((c : Thread nD τ).loc main_arg2))

/-- What point t writes back to it is block t of that function. -/
theorem flushed12_eq (c : Dev nD) (t : Fin cfg0.N) :
    (dats m 0 c).flushed 12 t = ((cfg0.win 12).blk t).view.read (Elt Ideal) (G12 m c) := by
  rw [flushed12]
  funext y
  obtain ⟨b, n, f, rfl⟩ : ∃ (b : Fin 32) (n : Fin 128) (f : Fin 16), y = ix3 b n f :=
    ⟨y 0, y 1, y 2, eq_ix3 (n0 := 32) (n1 := 128) (n2 := 16) y⟩
  show out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 b n f) = G12 m c (((cfg0.win 12).blk t).view.emb (ix3 b n f))
  rw [emb12]
  refine (congrFun (out12_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (ix3 b n f)).trans ?_
  refine (encMem_apply (iblk m c 0 t) (iblk m c 2 t) b n f).trans ?_
  rw [rowIn0 m c t b, rowIn2 m c t b]
  rfl

theorem mem_blk12 (t : Fin cfg0.N) (i : S2048x128x16.Idx) :
    i ∈ ((cfg0.win 12).blk t).view.set ↔ ∀ a : Fin 3, win0_12.index t a * S32x128x16.size a ≤ (i a).val ∧ (i a).val < win0_12.index t a * S32x128x16.size a + S32x128x16.size a := by
  show i ∈ ((View.whole main_v2_0).slice (win0_12.rect t)).set ↔ _
  rw [View.set_slice_whole, Rect.mem_set_unit]
  exact Iff.rfl

/-- Every entry lies in the block of the point its row belongs to. -/
theorem cover12 (i : S2048x128x16.Idx) :
    ∃ t : Fin cfg0.N, (cfg0.win 12).flush t = true ∧ i ∈ ((cfg0.win 12).blk t).view.set := by
  have hi0 : (i 0).val < 2048 := (i 0).isLt
  have hi1 : (i 1).val < 128 := (i 1).isLt
  have hi2 : (i 2).val < 16 := (i 2).isLt
  obtain ⟨t, ht⟩ : ∃ t : Fin cfg0.N, t.val = (i 0).val / 32 := ⟨⟨(i 0).val / 32, by show (i 0).val / 32 < 64; omega⟩, rfl⟩
  obtain ⟨e0, e1, e2⟩ := idx12 t
  refine ⟨t, flush0_12 t, ?_⟩
  rw [mem_blk12]
  intro a
  match a with
  | ⟨0, _⟩ => show win0_12.index t (0 : Fin 3) * 32 ≤ (i 0).val ∧ (i 0).val < win0_12.index t (0 : Fin 3) * 32 + 32; omega
  | ⟨1, _⟩ => show win0_12.index t (1 : Fin 3) * 128 ≤ (i 1).val ∧ (i 1).val < win0_12.index t (1 : Fin 3) * 128 + 128; omega
  | ⟨2, _⟩ => show win0_12.index t (2 : Fin 3) * 16 ≤ (i 2).val ∧ (i 2).val < win0_12.index t (2 : Fin 3) * 16 + 16; omega

/-- The array after the run. -/
theorem final12 (c : Dev nD) : (dats m 0 c).arrAt 12 cfg0.N = G12 m c :=
  (dats m 0 c).arrAt_eq_of_cover 12 (G12 m c) (fun t _ => flushed12_eq m c t) cover12

/-- Output array 1 as a function of the argument arrays. -/
abbrev G13 (c : Dev nD) : S2048x16.Idx → EReal := arrSMem (m ((c : Thread nD τ).loc main_arg0)) (m ((c : Thread nD τ).loc main_arg2)) (m ((c : Thread nD τ).loc main_arg1)) (m ((c : Thread nD τ).loc main_arg3)) (m ((c : Thread nD τ).loc main_arg8))

/-- What point t writes back to it is block t of that function. -/
theorem flushed13_eq (c : Dev nD) (t : Fin cfg0.N) :
    (dats m 0 c).flushed 13 t = ((cfg0.win 13).blk t).view.read (Elt Ideal) (G13 m c) := by
  rw [flushed13]
  funext y
  obtain ⟨b, j, rfl⟩ : ∃ (b : Fin 32) (j : Fin 16), y = ix2 b j := ⟨y 0, y 1, eq_ix2 (n0 := 32) (n1 := 16) y⟩
  show out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 b j) = G13 m c (((cfg0.win 13).blk t).view.emb (ix2 b j))
  rw [emb13]
  refine (congrFun (out13_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (ix2 b j)).trans ?_
  refine (sMem_apply (iblk m c 0 t) (iblk m c 1 t) (iblk m c 2 t) (iblk m c 3 t) (iblk m c 8 t) (m ((c : Thread nD τ).loc main_arg8)) (wIn8 m c t) b j).trans ?_
  rw [rowIn0 m c t b, rowIn2 m c t b, rowIn1 m c t b, rowIn3 m c t b]
  rfl

theorem mem_blk13 (t : Fin cfg0.N) (i : S2048x16.Idx) :
    i ∈ ((cfg0.win 13).blk t).view.set ↔ ∀ a : Fin 2, win0_13.index t a * S32x16.size a ≤ (i a).val ∧ (i a).val < win0_13.index t a * S32x16.size a + S32x16.size a := by
  show i ∈ ((View.whole main_v2_1).slice (win0_13.rect t)).set ↔ _
  rw [View.set_slice_whole, Rect.mem_set_unit]
  exact Iff.rfl

/-- Every entry lies in the block of the point its row belongs to. -/
theorem cover13 (i : S2048x16.Idx) :
    ∃ t : Fin cfg0.N, (cfg0.win 13).flush t = true ∧ i ∈ ((cfg0.win 13).blk t).view.set := by
  have hi0 : (i 0).val < 2048 := (i 0).isLt
  have hi1 : (i 1).val < 16 := (i 1).isLt
  obtain ⟨t, ht⟩ : ∃ t : Fin cfg0.N, t.val = (i 0).val / 32 := ⟨⟨(i 0).val / 32, by show (i 0).val / 32 < 64; omega⟩, rfl⟩
  obtain ⟨e0, e1⟩ := idx13 t
  refine ⟨t, flush0_13 t, ?_⟩
  rw [mem_blk13]
  intro a
  match a with
  | ⟨0, _⟩ => show win0_13.index t (0 : Fin 2) * 32 ≤ (i 0).val ∧ (i 0).val < win0_13.index t (0 : Fin 2) * 32 + 32; omega
  | ⟨1, _⟩ => show win0_13.index t (1 : Fin 2) * 16 ≤ (i 1).val ∧ (i 1).val < win0_13.index t (1 : Fin 2) * 16 + 16; omega

/-- The array after the run. -/
theorem final13 (c : Dev nD) : (dats m 0 c).arrAt 13 cfg0.N = G13 m c :=
  (dats m 0 c).arrAt_eq_of_cover 13 (G13 m c) (fun t _ => flushed13_eq m c t) cover13

/-- Output array 2 as a function of the argument arrays. -/
abbrev G14 (c : Dev nD) : S2048x16.Idx → EReal := arrHMem (m ((c : Thread nD τ).loc main_arg0)) (m ((c : Thread nD τ).loc main_arg2)) (m ((c : Thread nD τ).loc main_arg1)) (m ((c : Thread nD τ).loc main_arg3)) (m ((c : Thread nD τ).loc main_arg8)) 0x3F4CCCCD#32 0x3F000000#32 (m ((c : Thread nD τ).loc main_arg4))

/-- What point t writes back to it is block t of that function. -/
theorem flushed14_eq (c : Dev nD) (t : Fin cfg0.N) :
    (dats m 0 c).flushed 14 t = ((cfg0.win 14).blk t).view.read (Elt Ideal) (G14 m c) := by
  rw [flushed14]
  funext y
  obtain ⟨b, j, rfl⟩ : ∃ (b : Fin 32) (j : Fin 16), y = ix2 b j := ⟨y 0, y 1, eq_ix2 (n0 := 32) (n1 := 16) y⟩
  show out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 b j) = G14 m c (((cfg0.win 14).blk t).view.emb (ix2 b j))
  rw [emb14]
  refine (congrFun (out14_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (ix2 b j)).trans ?_
  refine (h1Mem_apply (iblk m c 0 t) (iblk m c 1 t) (iblk m c 2 t) (iblk m c 3 t) (iblk m c 4 t) (iblk m c 8 t) (m ((c : Thread nD τ).loc main_arg8)) (wIn8 m c t) b j).trans ?_
  rw [rowIn0 m c t b, rowIn2 m c t b, rowIn1 m c t b, rowIn3 m c t b, rowIn4 m c t b]
  rfl

theorem mem_blk14 (t : Fin cfg0.N) (i : S2048x16.Idx) :
    i ∈ ((cfg0.win 14).blk t).view.set ↔ ∀ a : Fin 2, win0_14.index t a * S32x16.size a ≤ (i a).val ∧ (i a).val < win0_14.index t a * S32x16.size a + S32x16.size a := by
  show i ∈ ((View.whole main_v2_2).slice (win0_14.rect t)).set ↔ _
  rw [View.set_slice_whole, Rect.mem_set_unit]
  exact Iff.rfl

/-- Every entry lies in the block of the point its row belongs to. -/
theorem cover14 (i : S2048x16.Idx) :
    ∃ t : Fin cfg0.N, (cfg0.win 14).flush t = true ∧ i ∈ ((cfg0.win 14).blk t).view.set := by
  have hi0 : (i 0).val < 2048 := (i 0).isLt
  have hi1 : (i 1).val < 16 := (i 1).isLt
  obtain ⟨t, ht⟩ : ∃ t : Fin cfg0.N, t.val = (i 0).val / 32 := ⟨⟨(i 0).val / 32, by show (i 0).val / 32 < 64; omega⟩, rfl⟩
  obtain ⟨e0, e1⟩ := idx14 t
  refine ⟨t, flush0_14 t, ?_⟩
  rw [mem_blk14]
  intro a
  match a with
  | ⟨0, _⟩ => show win0_14.index t (0 : Fin 2) * 32 ≤ (i 0).val ∧ (i 0).val < win0_14.index t (0 : Fin 2) * 32 + 32; omega
  | ⟨1, _⟩ => show win0_14.index t (1 : Fin 2) * 16 ≤ (i 1).val ∧ (i 1).val < win0_14.index t (1 : Fin 2) * 16 + 16; omega

/-- The array after the run. -/
theorem final14 (c : Dev nD) : (dats m 0 c).arrAt 14 cfg0.N = G14 m c :=
  (dats m 0 c).arrAt_eq_of_cover 14 (G14 m c) (fun t _ => flushed14_eq m c t) cover14

/-- Output array 3 as a function of the argument arrays. -/
abbrev G15 (c : Dev nD) : S2048x16.Idx → EReal := arrHMem (m ((c : Thread nD τ).loc main_arg0)) (m ((c : Thread nD τ).loc main_arg2)) (m ((c : Thread nD τ).loc main_arg1)) (m ((c : Thread nD τ).loc main_arg3)) (m ((c : Thread nD τ).loc main_arg8)) 0x3F666666#32 0x3E99999A#32 (m ((c : Thread nD τ).loc main_arg5))

/-- What point t writes back to it is block t of that function. -/
theorem flushed15_eq (c : Dev nD) (t : Fin cfg0.N) :
    (dats m 0 c).flushed 15 t = ((cfg0.win 15).blk t).view.read (Elt Ideal) (G15 m c) := by
  rw [flushed15]
  funext y
  obtain ⟨b, j, rfl⟩ : ∃ (b : Fin 32) (j : Fin 16), y = ix2 b j := ⟨y 0, y 1, eq_ix2 (n0 := 32) (n1 := 16) y⟩
  show out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 b j) = G15 m c (((cfg0.win 15).blk t).view.emb (ix2 b j))
  rw [emb15]
  refine (congrFun (out15_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (ix2 b j)).trans ?_
  refine (h2Mem_apply (iblk m c 0 t) (iblk m c 1 t) (iblk m c 2 t) (iblk m c 3 t) (iblk m c 5 t) (iblk m c 8 t) (m ((c : Thread nD τ).loc main_arg8)) (wIn8 m c t) b j).trans ?_
  rw [rowIn0 m c t b, rowIn2 m c t b, rowIn1 m c t b, rowIn3 m c t b, rowIn5 m c t b]
  rfl

theorem mem_blk15 (t : Fin cfg0.N) (i : S2048x16.Idx) :
    i ∈ ((cfg0.win 15).blk t).view.set ↔ ∀ a : Fin 2, win0_15.index t a * S32x16.size a ≤ (i a).val ∧ (i a).val < win0_15.index t a * S32x16.size a + S32x16.size a := by
  show i ∈ ((View.whole main_v2_3).slice (win0_15.rect t)).set ↔ _
  rw [View.set_slice_whole, Rect.mem_set_unit]
  exact Iff.rfl

/-- Every entry lies in the block of the point its row belongs to. -/
theorem cover15 (i : S2048x16.Idx) :
    ∃ t : Fin cfg0.N, (cfg0.win 15).flush t = true ∧ i ∈ ((cfg0.win 15).blk t).view.set := by
  have hi0 : (i 0).val < 2048 := (i 0).isLt
  have hi1 : (i 1).val < 16 := (i 1).isLt
  obtain ⟨t, ht⟩ : ∃ t : Fin cfg0.N, t.val = (i 0).val / 32 := ⟨⟨(i 0).val / 32, by show (i 0).val / 32 < 64; omega⟩, rfl⟩
  obtain ⟨e0, e1⟩ := idx15 t
  refine ⟨t, flush0_15 t, ?_⟩
  rw [mem_blk15]
  intro a
  match a with
  | ⟨0, _⟩ => show win0_15.index t (0 : Fin 2) * 32 ≤ (i 0).val ∧ (i 0).val < win0_15.index t (0 : Fin 2) * 32 + 32; omega
  | ⟨1, _⟩ => show win0_15.index t (1 : Fin 2) * 16 ≤ (i 1).val ∧ (i 1).val < win0_15.index t (1 : Fin 2) * 16 + 16; omega

/-- The array after the run. -/
theorem final15 (c : Dev nD) : (dats m 0 c).arrAt 15 cfg0.N = G15 m c :=
  (dats m 0 c).arrAt_eq_of_cover 15 (G15 m c) (fun t _ => flushed15_eq m c t) cover15

/-- Output array 4 as a function of the argument arrays. -/
abbrev G16 (c : Dev nD) : S2048x16.Idx → EReal := arrHMem (m ((c : Thread nD τ).loc main_arg0)) (m ((c : Thread nD τ).loc main_arg2)) (m ((c : Thread nD τ).loc main_arg1)) (m ((c : Thread nD τ).loc main_arg3)) (m ((c : Thread nD τ).loc main_arg8)) 0x3F733333#32 0x3E4CCCCD#32 (m ((c : Thread nD τ).loc main_arg6))

/-- What point t writes back to it is block t of that function. -/
theorem flushed16_eq (c : Dev nD) (t : Fin cfg0.N) :
    (dats m 0 c).flushed 16 t = ((cfg0.win 16).blk t).view.read (Elt Ideal) (G16 m c) := by
  rw [flushed16]
  funext y
  obtain ⟨b, j, rfl⟩ : ∃ (b : Fin 32) (j : Fin 16), y = ix2 b j := ⟨y 0, y 1, eq_ix2 (n0 := 32) (n1 := 16) y⟩
  show out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 b j) = G16 m c (((cfg0.win 16).blk t).view.emb (ix2 b j))
  rw [emb16]
  refine (congrFun (out16_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (ix2 b j)).trans ?_
  refine (h3Mem_apply (iblk m c 0 t) (iblk m c 1 t) (iblk m c 2 t) (iblk m c 3 t) (iblk m c 6 t) (iblk m c 8 t) (m ((c : Thread nD τ).loc main_arg8)) (wIn8 m c t) b j).trans ?_
  rw [rowIn0 m c t b, rowIn2 m c t b, rowIn1 m c t b, rowIn3 m c t b, rowIn6 m c t b]
  rfl

theorem mem_blk16 (t : Fin cfg0.N) (i : S2048x16.Idx) :
    i ∈ ((cfg0.win 16).blk t).view.set ↔ ∀ a : Fin 2, win0_16.index t a * S32x16.size a ≤ (i a).val ∧ (i a).val < win0_16.index t a * S32x16.size a + S32x16.size a := by
  show i ∈ ((View.whole main_v2_4).slice (win0_16.rect t)).set ↔ _
  rw [View.set_slice_whole, Rect.mem_set_unit]
  exact Iff.rfl

/-- Every entry lies in the block of the point its row belongs to. -/
theorem cover16 (i : S2048x16.Idx) :
    ∃ t : Fin cfg0.N, (cfg0.win 16).flush t = true ∧ i ∈ ((cfg0.win 16).blk t).view.set := by
  have hi0 : (i 0).val < 2048 := (i 0).isLt
  have hi1 : (i 1).val < 16 := (i 1).isLt
  obtain ⟨t, ht⟩ : ∃ t : Fin cfg0.N, t.val = (i 0).val / 32 := ⟨⟨(i 0).val / 32, by show (i 0).val / 32 < 64; omega⟩, rfl⟩
  obtain ⟨e0, e1⟩ := idx16 t
  refine ⟨t, flush0_16 t, ?_⟩
  rw [mem_blk16]
  intro a
  match a with
  | ⟨0, _⟩ => show win0_16.index t (0 : Fin 2) * 32 ≤ (i 0).val ∧ (i 0).val < win0_16.index t (0 : Fin 2) * 32 + 32; omega
  | ⟨1, _⟩ => show win0_16.index t (1 : Fin 2) * 16 ≤ (i 1).val ∧ (i 1).val < win0_16.index t (1 : Fin 2) * 16 + 16; omega

/-- The array after the run. -/
theorem final16 (c : Dev nD) : (dats m 0 c).arrAt 16 cfg0.N = G16 m c :=
  (dats m 0 c).arrAt_eq_of_cover 16 (G16 m c) (fun t _ => flushed16_eq m c t) cover16

/-- Output array 5 as a function of the argument arrays. -/
abbrev G17 (c : Dev nD) : S2048x8.Idx → EReal := arrOMem (m ((c : Thread nD τ).loc main_arg0)) (m ((c : Thread nD τ).loc main_arg2)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg7)) (m ((c : Thread nD τ).loc main_arg9)) (m ((c : Thread nD τ).loc main_arg10)) (m ((c : Thread nD τ).loc main_arg11))

/-- What point t writes back to it is block t of that function. -/
theorem flushed17_eq (c : Dev nD) (t : Fin cfg0.N) :
    (dats m 0 c).flushed 17 t = ((cfg0.win 17).blk t).view.read (Elt Ideal) (G17 m c) := by
  rw [flushed17]
  funext y
  obtain ⟨b, j, rfl⟩ : ∃ (b : Fin 32) (j : Fin 8), y = ix2 b j := ⟨y 0, y 1, eq_ix2 (n0 := 32) (n1 := 8) y⟩
  show out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 b j) = G17 m c (((cfg0.win 17).blk t).view.emb (ix2 b j))
  rw [emb17]
  refine (congrFun (out17_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (ix2 b j)).trans ?_
  refine (oMem_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (m ((c : Thread nD τ).loc main_arg8)) (m ((c : Thread nD τ).loc main_arg9)) (wIn8 m c t) (wIn9 m c t) b j).trans ?_
  rw [rowIn0 m c t b, rowIn2 m c t b, rowIn1 m c t b, rowIn3 m c t b, rowIn4 m c t b, rowIn5 m c t b, rowIn6 m c t b, rowIn7 m c t b, wIn10 m c t, wIn11 m c t]
  rfl

theorem mem_blk17 (t : Fin cfg0.N) (i : S2048x8.Idx) :
    i ∈ ((cfg0.win 17).blk t).view.set ↔ ∀ a : Fin 2, win0_17.index t a * S32x8.size a ≤ (i a).val ∧ (i a).val < win0_17.index t a * S32x8.size a + S32x8.size a := by
  show i ∈ ((View.whole main_v2_5).slice (win0_17.rect t)).set ↔ _
  rw [View.set_slice_whole, Rect.mem_set_unit]
  exact Iff.rfl

/-- Every entry lies in the block of the point its row belongs to. -/
theorem cover17 (i : S2048x8.Idx) :
    ∃ t : Fin cfg0.N, (cfg0.win 17).flush t = true ∧ i ∈ ((cfg0.win 17).blk t).view.set := by
  have hi0 : (i 0).val < 2048 := (i 0).isLt
  have hi1 : (i 1).val < 8 := (i 1).isLt
  obtain ⟨t, ht⟩ : ∃ t : Fin cfg0.N, t.val = (i 0).val / 32 := ⟨⟨(i 0).val / 32, by show (i 0).val / 32 < 64; omega⟩, rfl⟩
  obtain ⟨e0, e1⟩ := idx17 t
  refine ⟨t, flush0_17 t, ?_⟩
  rw [mem_blk17]
  intro a
  match a with
  | ⟨0, _⟩ => show win0_17.index t (0 : Fin 2) * 32 ≤ (i 0).val ∧ (i 0).val < win0_17.index t (0 : Fin 2) * 32 + 32; omega
  | ⟨1, _⟩ => show win0_17.index t (1 : Fin 2) * 8 ≤ (i 1).val ∧ (i 1).val < win0_17.index t (1 : Fin 2) * 8 + 8; omega

/-- The array after the run. -/
theorem final17 (c : Dev nD) : (dats m 0 c).arrAt 17 cfg0.N = G17 m c :=
  (dats m 0 c).arrAt_eq_of_cover 17 (G17 m c) (fun t _ => flushed17_eq m c t) cover17

/-- Output array 6 as a function of the argument arrays. -/
abbrev G18 (c : Dev nD) : S2048x128x16.Idx → EReal := arrEncSpk (m ((c : Thread nD τ).loc main_arg0)) (m ((c : Thread nD τ).loc main_arg2))

/-- What point t writes back to it is block t of that function. -/
theorem flushed18_eq (c : Dev nD) (t : Fin cfg0.N) :
    (dats m 0 c).flushed 18 t = ((cfg0.win 18).blk t).view.read (Elt Ideal) (G18 m c) := by
  rw [flushed18]
  funext y
  obtain ⟨b, n, f, rfl⟩ : ∃ (b : Fin 32) (n : Fin 128) (f : Fin 16), y = ix3 b n f :=
    ⟨y 0, y 1, y 2, eq_ix3 (n0 := 32) (n1 := 128) (n2 := 16) y⟩
  show out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 b n f) = G18 m c (((cfg0.win 18).blk t).view.emb (ix3 b n f))
  rw [emb18]
  refine (congrFun (out18_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (ix3 b n f)).trans ?_
  refine (encSpk_apply (iblk m c 0 t) (iblk m c 2 t) b n f).trans ?_
  rw [rowIn0 m c t b, rowIn2 m c t b]
  rfl

theorem mem_blk18 (t : Fin cfg0.N) (i : S2048x128x16.Idx) :
    i ∈ ((cfg0.win 18).blk t).view.set ↔ ∀ a : Fin 3, win0_18.index t a * S32x128x16.size a ≤ (i a).val ∧ (i a).val < win0_18.index t a * S32x128x16.size a + S32x128x16.size a := by
  show i ∈ ((View.whole main_v2_6).slice (win0_18.rect t)).set ↔ _
  rw [View.set_slice_whole, Rect.mem_set_unit]
  exact Iff.rfl

/-- Every entry lies in the block of the point its row belongs to. -/
theorem cover18 (i : S2048x128x16.Idx) :
    ∃ t : Fin cfg0.N, (cfg0.win 18).flush t = true ∧ i ∈ ((cfg0.win 18).blk t).view.set := by
  have hi0 : (i 0).val < 2048 := (i 0).isLt
  have hi1 : (i 1).val < 128 := (i 1).isLt
  have hi2 : (i 2).val < 16 := (i 2).isLt
  obtain ⟨t, ht⟩ : ∃ t : Fin cfg0.N, t.val = (i 0).val / 32 := ⟨⟨(i 0).val / 32, by show (i 0).val / 32 < 64; omega⟩, rfl⟩
  obtain ⟨e0, e1, e2⟩ := idx18 t
  refine ⟨t, flush0_18 t, ?_⟩
  rw [mem_blk18]
  intro a
  match a with
  | ⟨0, _⟩ => show win0_18.index t (0 : Fin 3) * 32 ≤ (i 0).val ∧ (i 0).val < win0_18.index t (0 : Fin 3) * 32 + 32; omega
  | ⟨1, _⟩ => show win0_18.index t (1 : Fin 3) * 128 ≤ (i 1).val ∧ (i 1).val < win0_18.index t (1 : Fin 3) * 128 + 128; omega
  | ⟨2, _⟩ => show win0_18.index t (2 : Fin 3) * 16 ≤ (i 2).val ∧ (i 2).val < win0_18.index t (2 : Fin 3) * 16 + 16; omega

/-- The array after the run. -/
theorem final18 (c : Dev nD) : (dats m 0 c).arrAt 18 cfg0.N = G18 m c :=
  (dats m 0 c).arrAt_eq_of_cover 18 (G18 m c) (fun t _ => flushed18_eq m c t) cover18

/-- Output array 7 as a function of the argument arrays. -/
abbrev G19 (c : Dev nD) : S2048x16.Idx → EReal := arrSSpk (m ((c : Thread nD τ).loc main_arg0)) (m ((c : Thread nD τ).loc main_arg2)) (m ((c : Thread nD τ).loc main_arg1)) (m ((c : Thread nD τ).loc main_arg3)) (m ((c : Thread nD τ).loc main_arg8))

/-- What point t writes back to it is block t of that function. -/
theorem flushed19_eq (c : Dev nD) (t : Fin cfg0.N) :
    (dats m 0 c).flushed 19 t = ((cfg0.win 19).blk t).view.read (Elt Ideal) (G19 m c) := by
  rw [flushed19]
  funext y
  obtain ⟨b, j, rfl⟩ : ∃ (b : Fin 32) (j : Fin 16), y = ix2 b j := ⟨y 0, y 1, eq_ix2 (n0 := 32) (n1 := 16) y⟩
  show out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 b j) = G19 m c (((cfg0.win 19).blk t).view.emb (ix2 b j))
  rw [emb19]
  refine (congrFun (out19_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (ix2 b j)).trans ?_
  refine (sSpk_apply (iblk m c 0 t) (iblk m c 1 t) (iblk m c 2 t) (iblk m c 3 t) (iblk m c 8 t) (m ((c : Thread nD τ).loc main_arg8)) (wIn8 m c t) b j).trans ?_
  rw [rowIn0 m c t b, rowIn2 m c t b, rowIn1 m c t b, rowIn3 m c t b]
  rfl

theorem mem_blk19 (t : Fin cfg0.N) (i : S2048x16.Idx) :
    i ∈ ((cfg0.win 19).blk t).view.set ↔ ∀ a : Fin 2, win0_19.index t a * S32x16.size a ≤ (i a).val ∧ (i a).val < win0_19.index t a * S32x16.size a + S32x16.size a := by
  show i ∈ ((View.whole main_v2_7).slice (win0_19.rect t)).set ↔ _
  rw [View.set_slice_whole, Rect.mem_set_unit]
  exact Iff.rfl

/-- Every entry lies in the block of the point its row belongs to. -/
theorem cover19 (i : S2048x16.Idx) :
    ∃ t : Fin cfg0.N, (cfg0.win 19).flush t = true ∧ i ∈ ((cfg0.win 19).blk t).view.set := by
  have hi0 : (i 0).val < 2048 := (i 0).isLt
  have hi1 : (i 1).val < 16 := (i 1).isLt
  obtain ⟨t, ht⟩ : ∃ t : Fin cfg0.N, t.val = (i 0).val / 32 := ⟨⟨(i 0).val / 32, by show (i 0).val / 32 < 64; omega⟩, rfl⟩
  obtain ⟨e0, e1⟩ := idx19 t
  refine ⟨t, flush0_19 t, ?_⟩
  rw [mem_blk19]
  intro a
  match a with
  | ⟨0, _⟩ => show win0_19.index t (0 : Fin 2) * 32 ≤ (i 0).val ∧ (i 0).val < win0_19.index t (0 : Fin 2) * 32 + 32; omega
  | ⟨1, _⟩ => show win0_19.index t (1 : Fin 2) * 16 ≤ (i 1).val ∧ (i 1).val < win0_19.index t (1 : Fin 2) * 16 + 16; omega

/-- The array after the run. -/
theorem final19 (c : Dev nD) : (dats m 0 c).arrAt 19 cfg0.N = G19 m c :=
  (dats m 0 c).arrAt_eq_of_cover 19 (G19 m c) (fun t _ => flushed19_eq m c t) cover19

/-- Output array 8 as a function of the argument arrays. -/
abbrev G20 (c : Dev nD) : S2048x48.Idx → EReal := arrHrSpk (m ((c : Thread nD τ).loc main_arg0)) (m ((c : Thread nD τ).loc main_arg2)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg8))

/-- What point t writes back to it is block t of that function. -/
theorem flushed20_eq (c : Dev nD) (t : Fin cfg0.N) :
    (dats m 0 c).flushed 20 t = ((cfg0.win 20).blk t).view.read (Elt Ideal) (G20 m c) := by
  rw [flushed20]
  funext y
  obtain ⟨b, j, rfl⟩ : ∃ (b : Fin 32) (j : Fin 48), y = ix2 b j := ⟨y 0, y 1, eq_ix2 (n0 := 32) (n1 := 48) y⟩
  show out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 b j) = G20 m c (((cfg0.win 20).blk t).view.emb (ix2 b j))
  rw [emb20]
  refine (congrFun (out20_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (ix2 b j)).trans ?_
  refine (hrSpk_apply (iblk m c 0 t) (iblk m c 1 t) (iblk m c 2 t) (iblk m c 3 t) (iblk m c 4 t) (iblk m c 5 t) (iblk m c 6 t) (iblk m c 8 t) (m ((c : Thread nD τ).loc main_arg8)) (wIn8 m c t) b j).trans ?_
  rw [rowIn0 m c t b, rowIn2 m c t b, rowIn1 m c t b, rowIn3 m c t b, rowIn4 m c t b, rowIn5 m c t b, rowIn6 m c t b]
  rfl

theorem mem_blk20 (t : Fin cfg0.N) (i : S2048x48.Idx) :
    i ∈ ((cfg0.win 20).blk t).view.set ↔ ∀ a : Fin 2, win0_20.index t a * S32x48.size a ≤ (i a).val ∧ (i a).val < win0_20.index t a * S32x48.size a + S32x48.size a := by
  show i ∈ ((View.whole main_v2_8).slice (win0_20.rect t)).set ↔ _
  rw [View.set_slice_whole, Rect.mem_set_unit]
  exact Iff.rfl

/-- Every entry lies in the block of the point its row belongs to. -/
theorem cover20 (i : S2048x48.Idx) :
    ∃ t : Fin cfg0.N, (cfg0.win 20).flush t = true ∧ i ∈ ((cfg0.win 20).blk t).view.set := by
  have hi0 : (i 0).val < 2048 := (i 0).isLt
  have hi1 : (i 1).val < 48 := (i 1).isLt
  obtain ⟨t, ht⟩ : ∃ t : Fin cfg0.N, t.val = (i 0).val / 32 := ⟨⟨(i 0).val / 32, by show (i 0).val / 32 < 64; omega⟩, rfl⟩
  obtain ⟨e0, e1⟩ := idx20 t
  refine ⟨t, flush0_20 t, ?_⟩
  rw [mem_blk20]
  intro a
  match a with
  | ⟨0, _⟩ => show win0_20.index t (0 : Fin 2) * 32 ≤ (i 0).val ∧ (i 0).val < win0_20.index t (0 : Fin 2) * 32 + 32; omega
  | ⟨1, _⟩ => show win0_20.index t (1 : Fin 2) * 48 ≤ (i 1).val ∧ (i 1).val < win0_20.index t (1 : Fin 2) * 48 + 48; omega

/-- The array after the run. -/
theorem final20 (c : Dev nD) : (dats m 0 c).arrAt 20 cfg0.N = G20 m c :=
  (dats m 0 c).arrAt_eq_of_cover 20 (G20 m c) (fun t _ => flushed20_eq m c t) cover20

/-- Output array 9 as a function of the argument arrays. -/
abbrev G21 (c : Dev nD) : S2048x8.Idx → EReal := arrOSpk (m ((c : Thread nD τ).loc main_arg0)) (m ((c : Thread nD τ).loc main_arg2)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg7)) (m ((c : Thread nD τ).loc main_arg9)) (m ((c : Thread nD τ).loc main_arg10)) (m ((c : Thread nD τ).loc main_arg11))

/-- What point t writes back to it is block t of that function. -/
theorem flushed21_eq (c : Dev nD) (t : Fin cfg0.N) :
    (dats m 0 c).flushed 21 t = ((cfg0.win 21).blk t).view.read (Elt Ideal) (G21 m c) := by
  rw [flushed21]
  funext y
  obtain ⟨b, j, rfl⟩ : ∃ (b : Fin 32) (j : Fin 8), y = ix2 b j := ⟨y 0, y 1, eq_ix2 (n0 := 32) (n1 := 8) y⟩
  show out0_21 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 b j) = G21 m c (((cfg0.win 21).blk t).view.emb (ix2 b j))
  rw [emb21]
  refine (congrFun (out21_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (ix2 b j)).trans ?_
  refine (oSpk_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (m ((c : Thread nD τ).loc main_arg8)) (m ((c : Thread nD τ).loc main_arg9)) (wIn8 m c t) (wIn9 m c t) b j).trans ?_
  rw [rowIn0 m c t b, rowIn2 m c t b, rowIn1 m c t b, rowIn3 m c t b, rowIn4 m c t b, rowIn5 m c t b, rowIn6 m c t b, rowIn7 m c t b, wIn10 m c t, wIn11 m c t]
  rfl

theorem mem_blk21 (t : Fin cfg0.N) (i : S2048x8.Idx) :
    i ∈ ((cfg0.win 21).blk t).view.set ↔ ∀ a : Fin 2, win0_21.index t a * S32x8.size a ≤ (i a).val ∧ (i a).val < win0_21.index t a * S32x8.size a + S32x8.size a := by
  show i ∈ ((View.whole main_v2_9).slice (win0_21.rect t)).set ↔ _
  rw [View.set_slice_whole, Rect.mem_set_unit]
  exact Iff.rfl

/-- Every entry lies in the block of the point its row belongs to. -/
theorem cover21 (i : S2048x8.Idx) :
    ∃ t : Fin cfg0.N, (cfg0.win 21).flush t = true ∧ i ∈ ((cfg0.win 21).blk t).view.set := by
  have hi0 : (i 0).val < 2048 := (i 0).isLt
  have hi1 : (i 1).val < 8 := (i 1).isLt
  obtain ⟨t, ht⟩ : ∃ t : Fin cfg0.N, t.val = (i 0).val / 32 := ⟨⟨(i 0).val / 32, by show (i 0).val / 32 < 64; omega⟩, rfl⟩
  obtain ⟨e0, e1⟩ := idx21 t
  refine ⟨t, flush0_21 t, ?_⟩
  rw [mem_blk21]
  intro a
  match a with
  | ⟨0, _⟩ => show win0_21.index t (0 : Fin 2) * 32 ≤ (i 0).val ∧ (i 0).val < win0_21.index t (0 : Fin 2) * 32 + 32; omega
  | ⟨1, _⟩ => show win0_21.index t (1 : Fin 2) * 8 ≤ (i 1).val ∧ (i 1).val < win0_21.index t (1 : Fin 2) * 8 + 8; omega

/-- The array after the run. -/
theorem final21 (c : Dev nD) : (dats m 0 c).arrAt 21 cfg0.N = G21 m c :=
  (dats m 0 c).arrAt_eq_of_cover 21 (G21 m c) (fun t _ => flushed21_eq m c t) cover21

/-! ## The run, read -/

/-- The frame run re-posted: each output array at its function of the argument arrays, the arguments unchanged. -/
theorem run : θ_run defs (onTc (τ := τ) (main (F := Ideal))) ⟨m, fun _ => 0, ρ⟩ fun r => ∀ c : Dev nD,
      r.2.mem ((c : Thread nD τ).loc main_v2_0) = G12 m c
      ∧ r.2.mem ((c : Thread nD τ).loc main_v2_1) = G13 m c
      ∧ r.2.mem ((c : Thread nD τ).loc main_v2_2) = G14 m c
      ∧ r.2.mem ((c : Thread nD τ).loc main_v2_3) = G15 m c
      ∧ r.2.mem ((c : Thread nD τ).loc main_v2_4) = G16 m c
      ∧ r.2.mem ((c : Thread nD τ).loc main_v2_5) = G17 m c
      ∧ r.2.mem ((c : Thread nD τ).loc main_v2_6) = G18 m c
      ∧ r.2.mem ((c : Thread nD τ).loc main_v2_7) = G19 m c
      ∧ r.2.mem ((c : Thread nD τ).loc main_v2_8) = G20 m c
      ∧ r.2.mem ((c : Thread nD τ).loc main_v2_9) = G21 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => by
    obtain ⟨h0, h1, h2, h3, h4, h5, h6, h7, h8, h9, hrest⟩ := h c
    exact ⟨h0.trans (final12 m c), h1.trans (final13 m c), h2.trans (final14 m c), h3.trans (final15 m c),
      h4.trans (final16 m c), h5.trans (final17 m c), h6.trans (final18 m c), h7.trans (final19 m c),
      h8.trans (final20 m c), h9.trans (final21 m c), hrest⟩)
    (run_blocks m ρ)

end Cert.KernelIdeal.RowValue

end
-- ==== Proof.ReferenceRows.lean ====
/-
  The reference program's stages read at one entry, at the ideal (extended real) values: each is the row network
  (RowNetwork.lean) of batch row B of the argument arrays.

  The pointwise stages hold entry by entry. The graph product is a sum over the 128 nodes. The reference flattens each
  row's 128-by-16 matrix gx to 2048 entries (entry (n, f) at position n * 16 + f) and contracts the 2048 positions with
  a [2048, J] weight matrix in ONE sum; a sum over the 2048 positions is the double sum over f and n
  (FlatSums.sum_flat). The three 16-wide spike arrays are joined along the columns (RowNetwork.concat_thirds).
-/
import proofs.«123606_j63127429317304_2_alg».proof.Proof.Gen.ReferenceIdeal.Read
import proofs.«123606_j63127429317304_2_alg».proof.Proof.RowNetwork

set_option maxRecDepth 16384

noncomputable section

open scoped BigOperators

namespace Cert.ReferenceRows

open Idealize.ShloMosaic Idealize.ShloMosaic.ValueIdx Cert.ReferenceIdeal Cert.ReferenceIdeal.Read Cert.RowNetwork Cert.FlatSums

variable (x0 x2 : S2048x128x16.Idx → EReal) (x1 : S2048x128x128.Idx → EReal)
  (x3 x4 x5 x6 x8 : S2048x16.Idx → EReal) (x7 x9 : S2048x8.Idx → EReal) (x10 : S16x8.Idx → EReal) (x11 : S48x8.Idx → EReal)

/-! ## The encoder -/

theorem encU_ref (B : Fin 2048) (n : Fin 128) (f : Fin 16) :
    val_main_v4 (F := Ideal) x0 x2 (ix3 B n f) = encU (row3 x0 B) (row3 x2 B) n f := rfl

theorem encSpk_ref (B : Fin 2048) (n : Fin 128) (f : Fin 16) :
    val_main_v10 (F := Ideal) x0 x2 (ix3 B n f) = encSpk (row3 x0 B) (row3 x2 B) n f := rfl

theorem encMem_ref (B : Fin 2048) (n : Fin 128) (f : Fin 16) :
    val_main_v13 (F := Ideal) x0 x2 (ix3 B n f) = encMem (row3 x0 B) (row3 x2 B) n f := rfl

/-! ## Message passing, and its 2048 entries per row -/

theorem gx_ref (B : Fin 2048) (n : Fin 128) (f : Fin 16) :
    val_main_v14 (F := Ideal) x0 x1 x2 (ix3 B n f) = gx (row3 x0 B) (row3 x2 B) (row3 x1 B) n f := by
  rw [val_main_v14_apply]
  refine Finset.sum_congr rfl fun m _ => ?_
  have hl : lidx_main_v14 (ix3 B n f) m = ix3 B n m := funext fun a => by
    match a with | ⟨0, _⟩ => rfl | ⟨1, _⟩ => rfl | ⟨2, _⟩ => rfl
  have hr : ridx_main_v14 (ix3 B n f) m = ix3 B m f := funext fun a => by
    match a with | ⟨0, _⟩ => rfl | ⟨1, _⟩ => rfl | ⟨2, _⟩ => rfl
  rw [hl, hr]
  rfl

/-- The flattened array at row B, position n * 16 + f, is gx (B, n, f). -/
theorem flat_ref (B : Fin 2048) (n : Fin 128) (f : Fin 16) (i : S2048x2048.Idx)
    (h0 : (i 0).val = B.val) (h1 : (i 1).val = n.val * 16 + f.val) :
    val_main_v15 (F := Ideal) x0 x1 x2 i = gx (row3 x0 B) (row3 x2 B) (row3 x1 B) n f := by
  rw [val_main_v15_apply]
  have e : idx_main_v15 i = ix3 B n f := funext fun a => Fin.ext (by
    have hB := B.isLt; have hn := n.isLt; have hf := f.isLt
    match a with
    | ⟨0, _⟩ => show ((i 0).val * 2048 + (i 1).val) / 2048 = B.val; omega
    | ⟨1, _⟩ => show ((i 0).val * 2048 + (i 1).val) / 16 % 128 = n.val; omega
    | ⟨2, _⟩ => show ((i 0).val * 2048 + (i 1).val) % 16 = f.val; omega)
  rw [e]
  exact gx_ref x0 x2 x1 B n f

/-- The first dense layer's input current. -/
theorem curS_ref (B : Fin 2048) (j : Fin 16) :
    val_main_v16 (F := Ideal) x0 x1 x2 x8 (ix2 B j) = flatDot (gx (row3 x0 B) (row3 x2 B) (row3 x1 B)) x8 j := by
  rw [val_main_v16_apply, sum_flat]
  refine Finset.sum_congr rfl fun f _ => Finset.sum_congr rfl fun n _ => ?_
  rw [flat_ref x0 x2 x1 B n f _ rfl rfl]
  have hr : ridx_main_v16 (ix2 B j) (flatPos n f) = ix2 (flatPos n f) j := funext fun a => by
    match a with | ⟨0, _⟩ => rfl | ⟨1, _⟩ => rfl
  rw [hr]

/-- The skip connection's input current. -/
theorem skip_ref (B : Fin 2048) (o : Fin 8) :
    val_main_v75 (F := Ideal) x0 x1 x2 x9 (ix2 B o) = flatDot (gx (row3 x0 B) (row3 x2 B) (row3 x1 B)) x9 o := by
  rw [val_main_v75_apply, sum_flat]
  refine Finset.sum_congr rfl fun f _ => Finset.sum_congr rfl fun n _ => ?_
  rw [flat_ref x0 x2 x1 B n f _ rfl rfl]
  have hr : ridx_main_v75 (ix2 B o) (flatPos n f) = ix2 (flatPos n f) o := funext fun a => by
    match a with | ⟨0, _⟩ => rfl | ⟨1, _⟩ => rfl
  rw [hr]

/-! ## The dense layer and the three parallel steps -/

theorem sU_ref (B : Fin 2048) (j : Fin 16) :
    val_main_v21 (F := Ideal) x0 x1 x2 x3 x8 (ix2 B j) = sU (row3 x0 B) (row3 x2 B) (row3 x1 B) (row2 x3 B) x8 j := by
  show charge 0x3F59999A#32 (x3 (ix2 B j)) (val_main_v16 (F := Ideal) x0 x1 x2 x8 (ix2 B j)) = _
  rw [curS_ref]
  rfl

theorem sSpk_ref (B : Fin 2048) (j : Fin 16) :
    val_main_v27 (F := Ideal) x0 x1 x2 x3 x8 (ix2 B j) = sSpk (row3 x0 B) (row3 x2 B) (row3 x1 B) (row2 x3 B) x8 j := by
  show fire 0x3E99999A#32 (val_main_v21 (F := Ideal) x0 x1 x2 x3 x8 (ix2 B j)) = _
  rw [sU_ref]
  rfl

theorem sMem_ref (B : Fin 2048) (j : Fin 16) :
    val_main_v30 (F := Ideal) x0 x1 x2 x3 x8 (ix2 B j) = sMem (row3 x0 B) (row3 x2 B) (row3 x1 B) (row2 x3 B) x8 j := by
  show settle 0x3E99999A#32 (val_main_v21 (F := Ideal) x0 x1 x2 x3 x8 (ix2 B j)) = _
  rw [sU_ref]
  rfl

theorem h1U_ref (B : Fin 2048) (j : Fin 16) :
    val_main_v35 (F := Ideal) x0 x1 x2 x3 x4 x8 (ix2 B j)
      = hU (row3 x0 B) (row3 x2 B) (row3 x1 B) (row2 x3 B) x8 0x3F4CCCCD#32 (row2 x4 B) j := by
  show charge 0x3F4CCCCD#32 (x4 (ix2 B j)) (val_main_v27 (F := Ideal) x0 x1 x2 x3 x8 (ix2 B j)) = _
  rw [sSpk_ref]
  rfl

theorem h1Spk_ref (B : Fin 2048) (j : Fin 16) :
    val_main_v41 (F := Ideal) x0 x1 x2 x3 x4 x8 (ix2 B j)
      = hSpk (row3 x0 B) (row3 x2 B) (row3 x1 B) (row2 x3 B) x8 0x3F4CCCCD#32 0x3F000000#32 (row2 x4 B) j := by
  show fire 0x3F000000#32 (val_main_v35 (F := Ideal) x0 x1 x2 x3 x4 x8 (ix2 B j)) = _
  rw [h1U_ref]
  rfl

theorem h1Mem_ref (B : Fin 2048) (j : Fin 16) :
    val_main_v44 (F := Ideal) x0 x1 x2 x3 x4 x8 (ix2 B j)
      = hMem (row3 x0 B) (row3 x2 B) (row3 x1 B) (row2 x3 B) x8 0x3F4CCCCD#32 0x3F000000#32 (row2 x4 B) j := by
  show settle 0x3F000000#32 (val_main_v35 (F := Ideal) x0 x1 x2 x3 x4 x8 (ix2 B j)) = _
  rw [h1U_ref]
  rfl

theorem h2U_ref (B : Fin 2048) (j : Fin 16) :
    val_main_v49 (F := Ideal) x0 x1 x2 x3 x5 x8 (ix2 B j)
      = hU (row3 x0 B) (row3 x2 B) (row3 x1 B) (row2 x3 B) x8 0x3F666666#32 (row2 x5 B) j := by
  show charge 0x3F666666#32 (x5 (ix2 B j)) (val_main_v27 (F := Ideal) x0 x1 x2 x3 x8 (ix2 B j)) = _
  rw [sSpk_ref]
  rfl

theorem h2Spk_ref (B : Fin 2048) (j : Fin 16) :
    val_main_v55 (F := Ideal) x0 x1 x2 x3 x5 x8 (ix2 B j)
      = hSpk (row3 x0 B) (row3 x2 B) (row3 x1 B) (row2 x3 B) x8 0x3F666666#32 0x3E99999A#32 (row2 x5 B) j := by
  show fire 0x3E99999A#32 (val_main_v49 (F := Ideal) x0 x1 x2 x3 x5 x8 (ix2 B j)) = _
  rw [h2U_ref]
  rfl

theorem h2Mem_ref (B : Fin 2048) (j : Fin 16) :
    val_main_v58 (F := Ideal) x0 x1 x2 x3 x5 x8 (ix2 B j)
      = hMem (row3 x0 B) (row3 x2 B) (row3 x1 B) (row2 x3 B) x8 0x3F666666#32 0x3E99999A#32 (row2 x5 B) j := by
  show settle 0x3E99999A#32 (val_main_v49 (F := Ideal) x0 x1 x2 x3 x5 x8 (ix2 B j)) = _
  rw [h2U_ref]
  rfl

theorem h3U_ref (B : Fin 2048) (j : Fin 16) :
    val_main_v63 (F := Ideal) x0 x1 x2 x3 x6 x8 (ix2 B j)
      = hU (row3 x0 B) (row3 x2 B) (row3 x1 B) (row2 x3 B) x8 0x3F733333#32 (row2 x6 B) j := by
  show charge 0x3F733333#32 (x6 (ix2 B j)) (val_main_v27 (F := Ideal) x0 x1 x2 x3 x8 (ix2 B j)) = _
  rw [sSpk_ref]
  rfl

theorem h3Spk_ref (B : Fin 2048) (j : Fin 16) :
    val_main_v69 (F := Ideal) x0 x1 x2 x3 x6 x8 (ix2 B j)
      = hSpk (row3 x0 B) (row3 x2 B) (row3 x1 B) (row2 x3 B) x8 0x3F733333#32 0x3E4CCCCD#32 (row2 x6 B) j := by
  show fire 0x3E4CCCCD#32 (val_main_v63 (F := Ideal) x0 x1 x2 x3 x6 x8 (ix2 B j)) = _
  rw [h3U_ref]
  rfl

theorem h3Mem_ref (B : Fin 2048) (j : Fin 16) :
    val_main_v72 (F := Ideal) x0 x1 x2 x3 x6 x8 (ix2 B j)
      = hMem (row3 x0 B) (row3 x2 B) (row3 x1 B) (row2 x3 B) x8 0x3F733333#32 0x3E4CCCCD#32 (row2 x6 B) j := by
  show settle 0x3E4CCCCD#32 (val_main_v63 (F := Ideal) x0 x1 x2 x3 x6 x8 (ix2 B j)) = _
  rw [h3U_ref]
  rfl

/-! ## The three spike arrays side by side -/

theorem hrSpk_ref (B : Fin 2048) (k : Fin 48) :
    val_main_v73 (F := Ideal) x0 x1 x2 x3 x4 x5 x6 x8 (ix2 B k)
      = hrSpk (row3 x0 B) (row3 x2 B) (row3 x1 B) (row2 x3 B) (row2 x4 B) (row2 x5 B) (row2 x6 B) x8 k := by
  unfold val_main_v73 hrSpk
  refine (concat_thirds _ _ _ _ B k).trans ?_
  congr 1
  · exact funext fun j => h1Spk_ref x0 x2 x1 x3 x4 x8 B j
  · exact funext fun j => h2Spk_ref x0 x2 x1 x3 x5 x8 B j
  · exact funext fun j => h3Spk_ref x0 x2 x1 x3 x6 x8 B j

/-! ## The output layer -/

theorem outCur_ref (B : Fin 2048) (o : Fin 8) :
    val_main_v78 (F := Ideal) x0 x1 x2 x3 x4 x5 x6 x8 x9 x10 x11 (ix2 B o)
      = outCur (row3 x0 B) (row3 x2 B) (row3 x1 B) (row2 x3 B) (row2 x4 B) (row2 x5 B) (row2 x6 B) x8 x9 x10 x11 o := by
  show (val_main_v74 (F := Ideal) x0 x1 x2 x3 x4 x5 x6 x8 x11 (ix2 B o) + val_main_v75 (F := Ideal) x0 x1 x2 x9 (ix2 B o))
      + val_main_v77 (F := Ideal) x0 x1 x2 x3 x8 x10 (ix2 B o) = _
  rw [skip_ref, val_main_v74_apply, val_main_v77_apply]
  unfold outCur
  refine congrArg₂ (· + ·) (congrArg₂ (· + ·) ?_ rfl) ?_
  · refine Finset.sum_congr rfl fun k _ => ?_
    have hl : lidx_main_v74 (ix2 B o) k = ix2 B k := funext fun a => by
      match a with | ⟨0, _⟩ => rfl | ⟨1, _⟩ => rfl
    have hr : ridx_main_v74 (ix2 B o) k = ix2 k o := funext fun a => by
      match a with | ⟨0, _⟩ => rfl | ⟨1, _⟩ => rfl
    rw [hl, hr, hrSpk_ref]
  · refine Finset.sum_congr rfl fun j _ => ?_
    have hl : lidx_main_v77 (ix2 B o) j = ix2 B j := funext fun a => by
      match a with | ⟨0, _⟩ => rfl | ⟨1, _⟩ => rfl
    have hr : ridx_main_v77 (ix2 B o) j = ix2 j o := funext fun a => by
      match a with | ⟨0, _⟩ => rfl | ⟨1, _⟩ => rfl
    rw [hl, hr, sSpk_ref]

theorem oU_ref (B : Fin 2048) (o : Fin 8) :
    val_main_v83 (F := Ideal) x0 x1 x2 x3 x4 x5 x6 x7 x8 x9 x10 x11 (ix2 B o)
      = oU (row3 x0 B) (row3 x2 B) (row3 x1 B) (row2 x3 B) (row2 x4 B) (row2 x5 B) (row2 x6 B) (row2 x7 B) x8 x9 x10 x11 o := by
  show charge 0x3F666666#32 (x7 (ix2 B o)) (val_main_v78 (F := Ideal) x0 x1 x2 x3 x4 x5 x6 x8 x9 x10 x11 (ix2 B o)) = _
  rw [outCur_ref]
  rfl

theorem oSpk_ref (B : Fin 2048) (o : Fin 8) :
    val_main_v89 (F := Ideal) x0 x1 x2 x3 x4 x5 x6 x7 x8 x9 x10 x11 (ix2 B o)
      = oSpk (row3 x0 B) (row3 x2 B) (row3 x1 B) (row2 x3 B) (row2 x4 B) (row2 x5 B) (row2 x6 B) (row2 x7 B) x8 x9 x10 x11 o := by
  show fire 0x3E99999A#32 (val_main_v83 (F := Ideal) x0 x1 x2 x3 x4 x5 x6 x7 x8 x9 x10 x11 (ix2 B o)) = _
  rw [oU_ref]
  rfl

theorem oMem_ref (B : Fin 2048) (o : Fin 8) :
    val_main_v92 (F := Ideal) x0 x1 x2 x3 x4 x5 x6 x7 x8 x9 x10 x11 (ix2 B o)
      = oMem (row3 x0 B) (row3 x2 B) (row3 x1 B) (row2 x3 B) (row2 x4 B) (row2 x5 B) (row2 x6 B) (row2 x7 B) x8 x9 x10 x11 o := by
  show settle 0x3E99999A#32 (val_main_v83 (F := Ideal) x0 x1 x2 x3 x4 x5 x6 x7 x8 x9 x10 x11 (ix2 B o)) = _
  rw [oU_ref]
  rfl

/-! ## The ten results as whole arrays -/

theorem encMem_array : val_main_v13 (F := Ideal) x0 x2 = arrEncMem x0 x2 := funext fun i => by
  obtain ⟨B, n, f, rfl⟩ : ∃ (B : Fin 2048) (n : Fin 128) (f : Fin 16), i = ix3 B n f := ⟨i 0, i 1, i 2, eq_ix3 i⟩
  exact encMem_ref x0 x2 B n f

theorem encSpk_array : val_main_v10 (F := Ideal) x0 x2 = arrEncSpk x0 x2 := funext fun i => by
  obtain ⟨B, n, f, rfl⟩ : ∃ (B : Fin 2048) (n : Fin 128) (f : Fin 16), i = ix3 B n f := ⟨i 0, i 1, i 2, eq_ix3 i⟩
  exact encSpk_ref x0 x2 B n f

theorem sMem_array : val_main_v30 (F := Ideal) x0 x1 x2 x3 x8 = arrSMem x0 x2 x1 x3 x8 := funext fun i => by
  obtain ⟨B, j, rfl⟩ : ∃ (B : Fin 2048) (j : Fin 16), i = ix2 B j := ⟨i 0, i 1, eq_ix2 i⟩
  exact sMem_ref x0 x2 x1 x3 x8 B j

theorem sSpk_array : val_main_v27 (F := Ideal) x0 x1 x2 x3 x8 = arrSSpk x0 x2 x1 x3 x8 := funext fun i => by
  obtain ⟨B, j, rfl⟩ : ∃ (B : Fin 2048) (j : Fin 16), i = ix2 B j := ⟨i 0, i 1, eq_ix2 i⟩
  exact sSpk_ref x0 x2 x1 x3 x8 B j

theorem h1Mem_array : val_main_v44 (F := Ideal) x0 x1 x2 x3 x4 x8 = arrHMem x0 x2 x1 x3 x8 0x3F4CCCCD#32 0x3F000000#32 x4 := funext fun i => by
  obtain ⟨B, j, rfl⟩ : ∃ (B : Fin 2048) (j : Fin 16), i = ix2 B j := ⟨i 0, i 1, eq_ix2 i⟩
  exact h1Mem_ref x0 x2 x1 x3 x4 x8 B j

theorem h2Mem_array : val_main_v58 (F := Ideal) x0 x1 x2 x3 x5 x8 = arrHMem x0 x2 x1 x3 x8 0x3F666666#32 0x3E99999A#32 x5 := funext fun i => by
  obtain ⟨B, j, rfl⟩ : ∃ (B : Fin 2048) (j : Fin 16), i = ix2 B j := ⟨i 0, i 1, eq_ix2 i⟩
  exact h2Mem_ref x0 x2 x1 x3 x5 x8 B j

theorem h3Mem_array : val_main_v72 (F := Ideal) x0 x1 x2 x3 x6 x8 = arrHMem x0 x2 x1 x3 x8 0x3F733333#32 0x3E4CCCCD#32 x6 := funext fun i => by
  obtain ⟨B, j, rfl⟩ : ∃ (B : Fin 2048) (j : Fin 16), i = ix2 B j := ⟨i 0, i 1, eq_ix2 i⟩
  exact h3Mem_ref x0 x2 x1 x3 x6 x8 B j

theorem hrSpk_array : val_main_v73 (F := Ideal) x0 x1 x2 x3 x4 x5 x6 x8 = arrHrSpk x0 x2 x1 x3 x4 x5 x6 x8 := funext fun i => by
  obtain ⟨B, j, rfl⟩ : ∃ (B : Fin 2048) (j : Fin 48), i = ix2 B j := ⟨i 0, i 1, eq_ix2 i⟩
  exact hrSpk_ref x0 x2 x1 x3 x4 x5 x6 x8 B j

theorem oMem_array : val_main_v92 (F := Ideal) x0 x1 x2 x3 x4 x5 x6 x7 x8 x9 x10 x11 = arrOMem x0 x2 x1 x3 x4 x5 x6 x8 x7 x9 x10 x11 := funext fun i => by
  obtain ⟨B, j, rfl⟩ : ∃ (B : Fin 2048) (j : Fin 8), i = ix2 B j := ⟨i 0, i 1, eq_ix2 i⟩
  exact oMem_ref x0 x2 x1 x3 x4 x5 x6 x8 x7 x9 x10 x11 B j

theorem oSpk_array : val_main_v89 (F := Ideal) x0 x1 x2 x3 x4 x5 x6 x7 x8 x9 x10 x11 = arrOSpk x0 x2 x1 x3 x4 x5 x6 x8 x7 x9 x10 x11 := funext fun i => by
  obtain ⟨B, j, rfl⟩ : ∃ (B : Fin 2048) (j : Fin 8), i = ix2 B j := ⟨i 0, i 1, eq_ix2 i⟩
  exact oSpk_ref x0 x2 x1 x3 x4 x5 x6 x8 x7 x9 x10 x11 B j

end Cert.ReferenceRows

end
-- ==== Proof.lean ====
/-
  The claim: the kernel's three frames, the (empty) idealization ledger, and the equality of the kernel's and the
  reference's ten results at the ideal (extended real) values.

  The frames of the two kernel programs are the generated frame certificates; the reference has no kernel, and its frame
  is its run with the results dropped. The idealization rewrote nothing, so that conjunct is trivial.

  The value claim: both programs compute a spiking network that acts on each of the 2048 batch rows separately
  (RowNetwork.lean). The kernel handles 32 rows per grid point and contracts the 2048 entries of each row's 128-by-16
  matrix gx with the weights by sixteen 128-long products added one after the other; the reference contracts them in one
  2048-long sum. On the extended reals addition is commutative and associative without any finiteness, so both are the
  same double sum, and every other step is the same operation on the same numbers: the ten result arrays are the same
  functions of the twelve argument arrays (KernelArrays.lean for the kernel, ReferenceRows.lean for the reference).
  The precondition (finite inputs) is not used.
-/
import proofs.«123606_j63127429317304_2_alg».proof.Defs
import proofs.«123606_j63127429317304_2_alg».proof.Proof.Gen.Kernel
import proofs.«123606_j63127429317304_2_alg».proof.Proof.Gen.Kernel.Skeleton
import proofs.«123606_j63127429317304_2_alg».proof.Proof.Gen.Kernel.Launch
import proofs.«123606_j63127429317304_2_alg».proof.Proof.Gen.Kernel.Points
import proofs.«123606_j63127429317304_2_alg».proof.Proof.Gen.Kernel.Frame
import proofs.«123606_j63127429317304_2_alg».proof.Proof.Gen.KernelIdeal
import proofs.«123606_j63127429317304_2_alg».proof.Proof.Gen.KernelIdeal.Skeleton
import proofs.«123606_j63127429317304_2_alg».proof.Proof.Gen.KernelIdeal.Launch
import proofs.«123606_j63127429317304_2_alg».proof.Proof.Gen.KernelIdeal.Points
import proofs.«123606_j63127429317304_2_alg».proof.Proof.Gen.KernelIdeal.Frame
import proofs.«123606_j63127429317304_2_alg».proof.Proof.Gen.ReferenceIdeal
import proofs.«123606_j63127429317304_2_alg».proof.Proof.Gen.Pre_finite_inputs
import proofs.«123606_j63127429317304_2_alg».proof.Proof.Gen.ReferenceIdeal.Run
import proofs.«123606_j63127429317304_2_alg».proof.Proof.Gen.ReferenceIdeal.Read
import proofs.«123606_j63127429317304_2_alg».proof.Proof.KernelArrays
import proofs.«123606_j63127429317304_2_alg».proof.Proof.ReferenceRows
import Idealize.ShloMosaic.Adequacy
import Idealize.ShloMosaic.Init

set_option maxRecDepth 16384

noncomputable section

namespace Cert.Proof

open Idealize.ShloMosaic Idealize.ShloMosaic.TcCoe Idealize.SL.Sem Cert.Kernel

theorem frame_kernel : Cert.frame_Kernel :=
  fun m ρ _ => Cert.Kernel.Gen.frame m ρ

theorem frame_kernelIdeal : Cert.frame_KernelIdeal :=
  fun m ρ _ => Cert.KernelIdeal.Gen.frame m ρ

/-- The reference's run with its ten results dropped: the twelve arguments end unchanged. -/
theorem frame_referenceIdeal : Cert.frame_ReferenceIdeal :=
  fun m ρ _ => (θ_run Cert.ReferenceIdeal.defs _ _).mono (fun _ h c => (h c).2.2.2.2.2.2.2.2.2.2)
    (Cert.ReferenceIdeal.Value.run (F := Ideal) m ρ)

/-- The two programs end with the same ten arrays: each is the same function of the arguments, which agree. -/
theorem algebraic : Cert.algebraic_KernelIdeal_ReferenceIdeal := by
  intro m ρ m' ρ' _ hagree
  refine ⟨_, _, _, _, _, _, _, _, _, _, Cert.KernelIdeal.RowValue.run m ρ, ?_⟩
  refine (θ_run Cert.ReferenceIdeal.defs _ _).mono (fun r h c => ?_) (Cert.ReferenceIdeal.Value.run (F := Ideal) m' ρ')
  obtain ⟨h0, h1, h2, h3, h4, h5, h6, h7, h8, h9, hrest⟩ := h c
  obtain ⟨a0, a1, a2, a3, a4, a5, a6, a7, a8, a9, a10, a11⟩ := hagree c
  refine ⟨?_, ?_, ?_, ?_, ?_, ?_, ?_, ?_, ?_, ?_, hrest⟩
  · rw [h0, Cert.ReferenceIdeal.Read.val_main_v13_eq, Cert.ReferenceRows.encMem_array, a0, a2]
  · rw [h1, Cert.ReferenceIdeal.Read.val_main_v30_eq, Cert.ReferenceRows.sMem_array, a0, a1, a2, a3, a8]
  · rw [h2, Cert.ReferenceIdeal.Read.val_main_v44_eq, Cert.ReferenceRows.h1Mem_array, a0, a1, a2, a3, a4, a8]
  · rw [h3, Cert.ReferenceIdeal.Read.val_main_v58_eq, Cert.ReferenceRows.h2Mem_array, a0, a1, a2, a3, a5, a8]
  · rw [h4, Cert.ReferenceIdeal.Read.val_main_v72_eq, Cert.ReferenceRows.h3Mem_array, a0, a1, a2, a3, a6, a8]
  · rw [h5, Cert.ReferenceIdeal.Read.val_main_v92_eq, Cert.ReferenceRows.oMem_array, a0, a1, a2, a3, a4, a5, a6, a7, a8, a9, a10, a11]
  · rw [h6, Cert.ReferenceIdeal.Read.val_main_v10_eq, Cert.ReferenceRows.encSpk_array, a0, a2]
  · rw [h7, Cert.ReferenceIdeal.Read.val_main_v27_eq, Cert.ReferenceRows.sSpk_array, a0, a1, a2, a3, a8]
  · rw [h8, Cert.ReferenceIdeal.Read.val_main_v73_eq, Cert.ReferenceRows.hrSpk_array, a0, a1, a2, a3, a4, a5, a6, a8]
  · rw [h9, Cert.ReferenceIdeal.Read.val_main_v89_eq, Cert.ReferenceRows.oSpk_array, a0, a1, a2, a3, a4, a5, a6, a7, a8, a9, a10, a11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
